-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part3 {F : FTy → Type} [FloatOps F] (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  main_v53

def fn_part2 {F : FTy → Type} [FloatOps F] (main_arg9 : FVec F S128 .f32) (main_arg10 : FVec F S128 .f32) (main_arg11 : FVec F S128x128 .f32) (main_arg12 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg11
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_v48 main_v49 main_v50

def fn_part1 {F : FTy → Type} [FloatOps F] (main_arg6 : FVec F S128 .f32) (main_arg7 : FVec F S128x128 .f32) (main_arg8 : FVec F S128 .f32) (main_arg9 : FVec F S128 .f32) (main_arg10 : FVec F S128 .f32) (main_arg11 : FVec F S128x128 .f32) (main_arg12 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S50000x128 .f32) (main_arg1 : IVec S800000 32) (main_arg2 : IVec S800000 32) (main_arg3 : FVec F S128x128 .f32) (main_arg4 : FVec F S128 .f32) (main_arg5 : FVec F S128 .f32) (main_arg6 : FVec F S128 .f32) (main_arg7 : FVec F S128x128 .f32) (main_arg8 : FVec F S128 .f32) (main_arg9 : FVec F S128 .f32) (main_arg10 : FVec F S128 .f32) (main_arg11 : FVec F S128x128 .f32) (main_arg12 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_v13 main_v16
-- ==== Kernel.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S5000x128 : Shape := ⟨2, ![5000, 128]⟩

abbrev nBuf : Space → Nat
  | .hbm => 70
  | .vmem => 38
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S_, .i32⟩
  | .hbm, ⟨14, _⟩ => ⟨S800000, .i32⟩
  | .hbm, ⟨15, _⟩ => ⟨S800000, .i1⟩
  | .hbm, ⟨16, _⟩ => ⟨S_, .i32⟩
  | .hbm, ⟨17, _⟩ => ⟨S800000, .i32⟩
  | .hbm, ⟨18, _⟩ => ⟨S800000, .i32⟩
  | .hbm, ⟨19, _⟩ => ⟨S800000, .i32⟩
  | .hbm, ⟨20, _⟩ => ⟨S800000x1, .i32⟩
  | .hbm, ⟨21, _⟩ => ⟨S800000x128, .f32⟩
  | .hbm, ⟨22, _⟩ => ⟨S_, .f32⟩
  | .hbm, ⟨23, _⟩ => ⟨S50000x128, .f32⟩
  | .hbm, ⟨24, _⟩ => ⟨S800000x1, .i32⟩
  | .hbm, ⟨25, _⟩ => ⟨S50000x128, .f32⟩
  | .hbm, ⟨26, _⟩ => ⟨S1x128, .f32⟩
  | .hbm, ⟨27, _⟩ => ⟨S50000x128, .f32⟩
  | .hbm, ⟨28, _⟩ => ⟨S1x128, .f32⟩
  | .hbm, ⟨29, _⟩ => ⟨S1x128, .f32⟩
  | .hbm, ⟨30, _⟩ => ⟨S_, .f32⟩
  | .hbm, ⟨31, _⟩ => ⟨S1x128, .f32⟩
  | .hbm, ⟨32, _⟩ => ⟨S1x128, .f32⟩
  | .hbm, ⟨33, _⟩ => ⟨S_, .f32⟩
  | .hbm, ⟨34, _⟩ => ⟨S1x128, .f32⟩
  | .hbm, ⟨35, _⟩ => ⟨S1x128, .f32⟩
  | .hbm, ⟨36, _⟩ => ⟨S1x128, .f32⟩
  | .hbm, ⟨37, _⟩ => ⟨S1x128, .f32⟩
  | .hbm, ⟨38, _⟩ => ⟨S1x128, .f32⟩
  | .hbm, ⟨39, _⟩ => ⟨S1x128, .f32⟩
  | .hbm, ⟨40, _⟩ => ⟨S50000x128, .f32⟩
  | .hbm, ⟨41, _⟩ => ⟨S_, .i32⟩
  | .hbm, ⟨42, _⟩ => ⟨S800000, .i32⟩
  | .hbm, ⟨43, _⟩ => ⟨S800000, .i1⟩
  | .hbm, ⟨44, _⟩ => ⟨S_, .i32⟩
  | .hbm, ⟨45, _⟩ => ⟨S800000, .i32⟩
  | .hbm, ⟨46, _⟩ => ⟨S800000, .i32⟩
  | .hbm, ⟨47, _⟩ => ⟨S800000, .i32⟩
  | .hbm, ⟨48, _⟩ => ⟨S800000x1, .i32⟩
  | .hbm, ⟨49, _⟩ => ⟨S800000x128, .f32⟩
  | .hbm, ⟨50, _⟩ => ⟨S_, .f32⟩
  | .hbm, ⟨51, _⟩ => ⟨S50000x128, .f32⟩
  | .hbm, ⟨52, _⟩ => ⟨S800000x1, .i32⟩
  | .hbm, ⟨53, _⟩ => ⟨S50000x128, .f32⟩
  | .hbm, ⟨54, _⟩ => ⟨S1x128, .f32⟩
  | .hbm, ⟨55, _⟩ => ⟨S50000x128, .f32⟩
  | .hbm, ⟨56, _⟩ => ⟨S1x128, .f32⟩
  | .hbm, ⟨57, _⟩ => ⟨S1x128, .f32⟩
  | .hbm, ⟨58, _⟩ => ⟨S_, .f32⟩
  | .hbm, ⟨59, _⟩ => ⟨S1x128, .f32⟩
  | .hbm, ⟨60, _⟩ => ⟨S1x128, .f32⟩
  | .hbm, ⟨61, _⟩ => ⟨S_, .f32⟩
  | .hbm, ⟨62, _⟩ => ⟨S1x128, .f32⟩
  | .hbm, ⟨63, _⟩ => ⟨S1x128, .f32⟩
  | .hbm, ⟨64, _⟩ => ⟨S1x128, .f32⟩
  | .hbm, ⟨65, _⟩ => ⟨S1x128, .f32⟩
  | .hbm, ⟨66, _⟩ => ⟨S1x128, .f32⟩
  | .hbm, ⟨67, _⟩ => ⟨S1x128, .f32⟩
  | .hbm, ⟨68, _⟩ => ⟨S1x128, .f32⟩
  | .hbm, ⟨69, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S5000x128, .f32⟩
  | .local _ .vmem, ⟨7, _⟩ => ⟨S5000x128, .f32⟩
  | .local _ .vmem, ⟨8, _⟩ => ⟨S1x128, .f32⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S1x128, .f32⟩
  | .local _ .vmem, ⟨24, _⟩ => ⟨S5000x128, .f32⟩
  | .local _ .vmem, ⟨25, _⟩ => ⟨S5000x128, .f32⟩
  | .local _ .vmem, ⟨26, _⟩ => ⟨S1x128, .f32⟩
  | .local _ .vmem, ⟨27, _⟩ => ⟨S1x128, .f32⟩
  | .local _ .vmem, ⟨28, _⟩ => ⟨S5000x128, .f32⟩
  | .local _ .vmem, ⟨29, _⟩ => ⟨S5000x128, .f32⟩
  | .local _ .vmem, ⟨30, _⟩ => ⟨S1x128, .f32⟩
  | .local _ .vmem, ⟨31, _⟩ => ⟨S1x128, .f32⟩
  | .local _ .vmem, ⟨32, _⟩ => ⟨S1x128, .f32⟩
  | .local _ .vmem, ⟨33, _⟩ => ⟨S1x128, .f32⟩
  | .local _ .vmem, ⟨34, _⟩ => ⟨S128x128, .f32⟩
  | .local _ .vmem, ⟨35, _⟩ => ⟨S1x128, .f32⟩
  | .local _ .vmem, ⟨36, _⟩ => ⟨S5000x128, .f32⟩
  | .local _ .vmem, ⟨37, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_v0 : Ref sig .tc := ⟨.hbm, 14, rfl⟩
abbrev main_v1 : Ref sig .tc := ⟨.hbm, 15, rfl⟩
abbrev main_c_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11_0 : Ref sig .tc := ⟨.hbm, 27, rfl⟩
abbrev main_v11_1 : Ref sig .tc := ⟨.hbm, 28, rfl⟩
abbrev main_v11_2 : Ref sig .tc := ⟨.hbm, 29, rfl⟩
abbrev main_cst_1 : Ref sig .tc := ⟨.hbm, 30, rfl⟩
abbrev main_v12 : Ref sig .tc := ⟨.hbm, 31, rfl⟩
abbrev main_v13 : Ref sig .tc := ⟨.hbm, 32, rfl⟩
abbrev main_cst_2 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_c_3 : Ref sig .tc := ⟨.hbm, 41, rfl⟩
abbrev main_v21 : Ref sig .tc := ⟨.hbm, 42, rfl⟩
abbrev main_v22 : Ref sig .tc := ⟨.hbm, 43, rfl⟩
abbrev main_c_4 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_cst_5 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32_0 : Ref sig .tc := ⟨.hbm, 55, rfl⟩
abbrev main_v32_1 : Ref sig .tc := ⟨.hbm, 56, rfl⟩
abbrev main_v32_2 : Ref sig .tc := ⟨.hbm, 57, rfl⟩
abbrev main_cst_6 : Ref sig .tc := ⟨.hbm, 58, rfl⟩
abbrev main_v33 : Ref sig .tc := ⟨.hbm, 59, rfl⟩
abbrev main_v34 : Ref sig .tc := ⟨.hbm, 60, rfl⟩
abbrev main_cst_7 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg4_1 : Ref sig .tc := ⟨.vmem, 25, rfl⟩
abbrev cc2_stg5_0 : Ref sig .tc := ⟨.vmem, 26, rfl⟩
abbrev cc2_stg6_0 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg6_0 : Ref sig .tc := ⟨.vmem, 35, rfl⟩
abbrev cc3_stg7_0 : Ref sig .tc := ⟨.vmem, 36, rfl⟩
abbrev cc3_stg7_1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem4_1 : DmaSem sig := 25
abbrev cc2_sem5_0 : DmaSem sig := 26
abbrev cc2_sem6_0 : DmaSem sig := 27
abbrev cc3_sem0_0 : DmaSem sig := 28
abbrev cc3_sem0_1 : DmaSem sig := 29
abbrev cc3_sem1_0 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem6_0 : DmaSem sig := 35
abbrev cc3_sem7_0 : DmaSem sig := 36
abbrev cc3_sem7_1 : DmaSem sig := 37

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S5000x128 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  shapeCasts_S1x128_S1x128 : S1x128.ShapeCasts S1x128
  broadcasts_S1x128_S5000x128 : S1x128.Broadcasts S5000x128
  reduces_S5000x128_S128 : S5000x128.Reduces [0] S128
  bcast_S_S1x128 : S_.BroadcastsInDim S1x128 (![] : Fin 0 → Fin S1x128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S50000x128.size a
  hwx0_4 : ∀ i : grid0.Coords, EltTy.bits .f32 = 32 ∨ (Rect.block (s := S50000x128) S5000x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x128.size a ≤ S50000x128.size a
  hwx2_4 : ∀ i : grid2.Coords, EltTy.bits .f32 = 32 ∨ (Rect.block (s := S50000x128) S5000x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x128.size a ≤ S128x128.size a
  hwx3_5 : ∀ i : grid3.Coords, EltTy.bits .f32 = 32 ∨ (Rect.block (s := S128x128) S128x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x128.size a ≤ S1x128.size a
  hwx3_6 : ∀ i : grid3.Coords, EltTy.bits .f32 = 32 ∨ (Rect.block (s := S1x128) S1x128.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S5000x128.size a ≤ S50000x128.size a
  hwx3_7 : ∀ i : grid3.Coords, EltTy.bits .f32 = 32 ∨ (Rect.block (s := S50000x128) S5000x128.size (cc3_transform_7 i) (hinb3_7 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11_0) S5000x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v11_1) S1x128.size cc0_transform_5 reads0_5 true true 1 stage0_5 sem0_5
    hrank0 hreads0_5 hinb0_5 nbuf0_5 (Memref.isWhole_whole _) hwx0_5 hstage0_5

abbrev win0_6 : Pipeline.Window sig grid0 :=
  Pipeline.Window.ofSpec (Memref.whole main_v11_2) S1x128.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v11_0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v17) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v18) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v19) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v20) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v20) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v30) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v31) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v32_0) S5000x128.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v32_1) S1x128.size cc2_transform_5 reads2_5 true true 1 stage2_5 sem2_5
    hrank2 hreads2_5 hinb2_5 nbuf2_5 (Memref.isWhole_whole _) hwx2_5 hstage2_5

abbrev win2_6 : Pipeline.Window sig grid2 :=
  Pipeline.Window.ofSpec (Memref.whole main_v32_2) S1x128.size cc2_transform_6 reads2_6 true true 1 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v32_0) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v34) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v38) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v39) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v40) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg11) S128x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v41) S1x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v42) S5000x128.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

class Facts : Prop extends Facts₀ where

variable [Facts]
-- ==== ReferenceIdeal.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩

abbrev nBuf : Space → Nat
  | .hbm => 153
  | .vmem => 0
  | .smem => 0
  | _ => 0

abbrev hbmTy0_0 (i : Nat) : BufTy := match i % 128 with
  | 0 => ⟨S50000x128, .f32⟩
  | 1 => ⟨S800000, .i32⟩
  | 2 => ⟨S800000, .i32⟩
  | 3 => ⟨S128x128, .f32⟩
  | 4 => ⟨S128, .f32⟩
  | 5 => ⟨S128, .f32⟩
  | 6 => ⟨S128, .f32⟩
  | 7 => ⟨S128x128, .f32⟩
  | 8 => ⟨S128, .f32⟩
  | 9 => ⟨S128, .f32⟩
  | 10 => ⟨S128, .f32⟩
  | 11 => ⟨S128x128, .f32⟩
  | 12 => ⟨S128, .f32⟩
  | 13 => ⟨S_, .i32⟩
  | 14 => ⟨S800000, .i32⟩
  | 15 => ⟨S800000, .i1⟩
  | 16 => ⟨S_, .i32⟩
  | 17 => ⟨S800000, .i32⟩
  | 18 => ⟨S800000, .i32⟩
  | 19 => ⟨S800000, .i32⟩
  | 20 => ⟨S800000x1, .i32⟩
  | 21 => ⟨S800000x128, .f32⟩
  | 22 => ⟨S_, .f32⟩
  | 23 => ⟨S50000x128, .f32⟩
  | 24 => ⟨S800000x1, .i32⟩
  | 25 => ⟨S50000x128, .f32⟩
  | 26 => ⟨S50000x128, .f32⟩
  | 27 => ⟨S128x128, .f32⟩
  | 28 => ⟨S50000x128, .f32⟩
  | 29 => ⟨S1x128, .f32⟩
  | 30 => ⟨S50000x128, .f32⟩
  | 31 => ⟨S50000x128, .f32⟩
  | 32 => ⟨S_, .f32⟩
  | 33 => ⟨S128, .f32⟩
  | 34 => ⟨S_, .f32⟩
  | 35 => ⟨S128, .f32⟩
  | 36 => ⟨S128, .f32⟩
  | 37 => ⟨S_, .i32⟩
  | 38 => ⟨S_, .f32⟩
  | 39 => ⟨S128, .f32⟩
  | 40 => ⟨S1x128, .f32⟩
  | 41 => ⟨S_, .f32⟩
  | 42 => ⟨S1x128, .f32⟩
  | 43 => ⟨S1x128, .f32⟩
  | 44 => ⟨S50000x128, .f32⟩
  | 45 => ⟨S50000x128, .f32⟩
  | 46 => ⟨S50000x128, .f32⟩
  | 47 => ⟨S_, .f32⟩
  | 48 => ⟨S_, .f32⟩
  | 49 => ⟨S_, .f32⟩
  | 50 => ⟨S_, .f32⟩
  | 51 => ⟨S128, .f32⟩
  | 52 => ⟨S128, .f32⟩
  | 53 => ⟨S128, .f32⟩
  | 54 => ⟨S_, .f32⟩
  | 55 => ⟨S_, .i1⟩
  | 56 => ⟨S_, .f32⟩
  | 57 => ⟨S_, .f32⟩
  | 58 => ⟨S128, .f32⟩
  | 59 => ⟨S128, .f32⟩
  | 60 => ⟨S1x128, .f32⟩
  | 61 => ⟨S50000x128, .f32⟩
  | 62 => ⟨S50000x128, .f32⟩
  | 63 => ⟨S_, .f32⟩
  | 64 => ⟨S128, .f32⟩
  | 65 => ⟨S128, .f32⟩
  | 66 => ⟨S128, .f32⟩
  | 67 => ⟨S1x128, .f32⟩
  | 68 => ⟨S50000x128, .f32⟩
  | 69 => ⟨S50000x128, .f32⟩
  | 70 => ⟨S1x128, .f32⟩
  | 71 => ⟨S50000x128, .f32⟩
  | 72 => ⟨S50000x128, .f32⟩
  | 73 => ⟨S1x128, .f32⟩
  | 74 => ⟨S50000x128, .f32⟩
  | 75 => ⟨S50000x128, .f32⟩
  | 76 => ⟨S_, .f32⟩
  | 77 => ⟨S50000x128, .f32⟩
  | 78 => ⟨S50000x128, .f32⟩
  | 79 => ⟨S_, .i32⟩
  | 80 => ⟨S800000, .i32⟩
  | 81 => ⟨S800000, .i1⟩
  | 82 => ⟨S_, .i32⟩
  | 83 => ⟨S800000, .i32⟩
  | 84 => ⟨S800000, .i32⟩
  | 85 => ⟨S800000, .i32⟩
  | 86 => ⟨S800000x1, .i32⟩
  | 87 => ⟨S800000x128, .f32⟩
  | 88 => ⟨S_, .f32⟩
  | 89 => ⟨S50000x128, .f32⟩
  | 90 => ⟨S800000x1, .i32⟩
  | 91 => ⟨S50000x128, .f32⟩
  | 92 => ⟨S50000x128, .f32⟩
  | 93 => ⟨S128x128, .f32⟩
  | 94 => ⟨S50000x128, .f32⟩
  | 95 => ⟨S1x128, .f32⟩
  | 96 => ⟨S50000x128, .f32⟩
  | 97 => ⟨S50000x128, .f32⟩
  | 98 => ⟨S_, .f32⟩
  | 99 => ⟨S128, .f32⟩
  | 100 => ⟨S_, .f32⟩
  | 101 => ⟨S128, .f32⟩
  | 102 => ⟨S128, .f32⟩
  | 103 => ⟨S_, .i32⟩
  | 104 => ⟨S_, .f32⟩
  | 105 => ⟨S128, .f32⟩
  | 106 => ⟨S1x128, .f32⟩
  | 107 => ⟨S_, .f32⟩
  | 108 => ⟨S1x128, .f32⟩
  | 109 => ⟨S1x128, .f32⟩
  | 110 => ⟨S50000x128, .f32⟩
  | 111 => ⟨S50000x128, .f32⟩
  | 112 => ⟨S50000x128, .f32⟩
  | 113 => ⟨S_, .f32⟩
  | 114 => ⟨S_, .f32⟩
  | 115 => ⟨S_, .f32⟩
  | 116 => ⟨S_, .f32⟩
  | 117 => ⟨S128, .f32⟩
  | 118 => ⟨S128, .f32⟩
  | 119 => ⟨S128, .f32⟩
  | 120 => ⟨S_, .f32⟩
  | 121 => ⟨S_, .i1⟩
  | 122 => ⟨S_, .f32⟩
  | 123 => ⟨S_, .f32⟩
  | 124 => ⟨S128, .f32⟩
  | 125 => ⟨S128, .f32⟩
  | 126 => ⟨S1x128, .f32⟩
  | 127 => ⟨S50000x128, .f32⟩
  | _ => ⟨S50000x128, .f32⟩

abbrev hbmTy0_1 (i : Nat) : BufTy := match i % 128 with
  | 0 => ⟨S50000x128, .f32⟩
  | 1 => ⟨S_, .f32⟩
  | 2 => ⟨S128, .f32⟩
  | 3 => ⟨S128, .f32⟩
  | 4 => ⟨S128, .f32⟩
  | 5 => ⟨S1x128, .f32⟩
  | 6 => ⟨S50000x128, .f32⟩
  | 7 => ⟨S50000x128, .f32⟩
  | 8 => ⟨S1x128, .f32⟩
  | 9 => ⟨S50000x128, .f32⟩
  | 10 => ⟨S50000x128, .f32⟩
  | 11 => ⟨S1x128, .f32⟩
  | 12 => ⟨S50000x128, .f32⟩
  | 13 => ⟨S50000x128, .f32⟩
  | 14 => ⟨S_, .f32⟩
  | 15 => ⟨S50000x128, .f32⟩
  | 16 => ⟨S50000x128, .f32⟩
  | 17 => ⟨S128x128, .f32⟩
  | 18 => ⟨S50000x128, .f32⟩
  | 19 => ⟨S1x128, .f32⟩
  | 20 => ⟨S50000x128, .f32⟩
  | 21 => ⟨S50000x128, .f32⟩
  | 22 => ⟨S_, .f32⟩
  | 23 => ⟨S50000x128, .f32⟩
  | 24 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_v0 : Ref sig .tc := ⟨.hbm, 14, rfl⟩
abbrev main_v1 : Ref sig .tc := ⟨.hbm, 15, rfl⟩
abbrev main_c_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_1 : Ref sig .tc := ⟨.hbm, 32, rfl⟩
abbrev main_v16 : Ref sig .tc := ⟨.hbm, 33, rfl⟩
abbrev main_cst_2 : Ref sig .tc := ⟨.hbm, 34, rfl⟩
abbrev main_v17 : Ref sig .tc := ⟨.hbm, 35, rfl⟩
abbrev main_v18 : Ref sig .tc := ⟨.hbm, 36, rfl⟩
abbrev main_c_3 : Ref sig .tc := ⟨.hbm, 37, rfl⟩
abbrev main_call0_cst : Ref sig .tc := ⟨.hbm, 38, rfl⟩
abbrev main_call0_v0 : Ref sig .tc := ⟨.hbm, 39, rfl⟩
abbrev main_call0_v1 : Ref sig .tc := ⟨.hbm, 40, rfl⟩
abbrev main_call0_cst_0 : Ref sig .tc := ⟨.hbm, 41, rfl⟩
abbrev main_call0_v2 : Ref sig .tc := ⟨.hbm, 42, rfl⟩
abbrev main_call0_v3 : Ref sig .tc := ⟨.hbm, 43, rfl⟩
abbrev main_call0_v4 : Ref sig .tc := ⟨.hbm, 44, rfl⟩
abbrev main_call0_v5 : Ref sig .tc := ⟨.hbm, 45, rfl⟩
abbrev main_call0_v6 : Ref sig .tc := ⟨.hbm, 46, rfl⟩
abbrev main_call0_v7 : Ref sig .tc := ⟨.hbm, 47, rfl⟩
abbrev main_call0_cst_1 : Ref sig .tc := ⟨.hbm, 48, rfl⟩
abbrev main_call0_v8 : Ref sig .tc := ⟨.hbm, 49, rfl⟩
abbrev main_call0_cst_2 : Ref sig .tc := ⟨.hbm, 50, rfl⟩
abbrev main_call0_v9 : Ref sig .tc := ⟨.hbm, 51, rfl⟩
abbrev main_call0_v10 : Ref sig .tc := ⟨.hbm, 52, rfl⟩
abbrev main_call0_v11 : Ref sig .tc := ⟨.hbm, 53, rfl⟩
abbrev main_call0_cst_3 : Ref sig .tc := ⟨.hbm, 54, rfl⟩
abbrev main_call0_v12 : Ref sig .tc := ⟨.hbm, 55, rfl⟩
abbrev main_call0_cst_4 : Ref sig .tc := ⟨.hbm, 56, rfl⟩
abbrev main_call0_call0_v0 : Ref sig .tc := ⟨.hbm, 57, rfl⟩
abbrev main_call0_call0_v1 : Ref sig .tc := ⟨.hbm, 58, rfl⟩
abbrev main_v19 : Ref sig .tc := ⟨.hbm, 59, rfl⟩
abbrev main_v20 : Ref sig .tc := ⟨.hbm, 60, rfl⟩
abbrev main_v21 : Ref sig .tc := ⟨.hbm, 61, rfl⟩
abbrev main_v22 : Ref sig .tc := ⟨.hbm, 62, rfl⟩
abbrev main_cst_4 : Ref sig .tc := ⟨.hbm, 63, rfl⟩
abbrev main_v23 : Ref sig .tc := ⟨.hbm, 64, rfl⟩
abbrev main_v24 : Ref sig .tc := ⟨.hbm, 65, rfl⟩
abbrev main_v25 : Ref sig .tc := ⟨.hbm, 66, rfl⟩
abbrev main_v26 : Ref sig .tc := ⟨.hbm, 67, rfl⟩
abbrev main_v27 : Ref sig .tc := ⟨.hbm, 68, rfl⟩
abbrev main_v28 : Ref sig .tc := ⟨.hbm, 69, rfl⟩
abbrev main_v29 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_call1_cst : Ref sig .tc := ⟨.hbm, 76, rfl⟩
abbrev main_call1_v0 : Ref sig .tc := ⟨.hbm, 77, rfl⟩
abbrev main_v35 : Ref sig .tc := ⟨.hbm, 78, rfl⟩
abbrev main_c_5 : Ref sig .tc := ⟨.hbm, 79, rfl⟩
abbrev main_v36 : Ref sig .tc := ⟨.hbm, 80, rfl⟩
abbrev main_v37 : Ref sig .tc := ⟨.hbm, 81, rfl⟩
abbrev main_c_6 : Ref sig .tc := ⟨.hbm, 82, rfl⟩
abbrev main_v38 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_v42 : Ref sig .tc := ⟨.hbm, 87, rfl⟩
abbrev main_cst_7 : Ref sig .tc := ⟨.hbm, 88, rfl⟩
abbrev main_v43 : Ref sig .tc := ⟨.hbm, 89, rfl⟩
abbrev main_v44 : Ref sig .tc := ⟨.hbm, 90, rfl⟩
abbrev main_v45 : Ref sig .tc := ⟨.hbm, 91, rfl⟩
abbrev main_v46 : Ref sig .tc := ⟨.hbm, 92, rfl⟩
abbrev main_v47 : Ref sig .tc := ⟨.hbm, 93, rfl⟩
abbrev main_v48 : Ref sig .tc := ⟨.hbm, 94, rfl⟩
abbrev main_v49 : Ref sig .tc := ⟨.hbm, 95, rfl⟩
abbrev main_v50 : Ref sig .tc := ⟨.hbm, 96, rfl⟩
abbrev main_v51 : Ref sig .tc := ⟨.hbm, 97, rfl⟩
abbrev main_cst_8 : Ref sig .tc := ⟨.hbm, 98, rfl⟩
abbrev main_v52 : Ref sig .tc := ⟨.hbm, 99, rfl⟩
abbrev main_cst_9 : Ref sig .tc := ⟨.hbm, 100, rfl⟩
abbrev main_v53 : Ref sig .tc := ⟨.hbm, 101, rfl⟩
abbrev main_v54 : Ref sig .tc := ⟨.hbm, 102, rfl⟩
abbrev main_c_10 : Ref sig .tc := ⟨.hbm, 103, rfl⟩
abbrev main_call2_cst : Ref sig .tc := ⟨.hbm, 104, rfl⟩
abbrev main_call2_v0 : Ref sig .tc := ⟨.hbm, 105, rfl⟩
abbrev main_call2_v1 : Ref sig .tc := ⟨.hbm, 106, rfl⟩
abbrev main_call2_cst_0 : Ref sig .tc := ⟨.hbm, 107, rfl⟩
abbrev main_call2_v2 : Ref sig .tc := ⟨.hbm, 108, rfl⟩
abbrev main_call2_v3 : Ref sig .tc := ⟨.hbm, 109, rfl⟩
abbrev main_call2_v4 : Ref sig .tc := ⟨.hbm, 110, rfl⟩
abbrev main_call2_v5 : Ref sig .tc := ⟨.hbm, 111, rfl⟩
abbrev main_call2_v6 : Ref sig .tc := ⟨.hbm, 112, rfl⟩
abbrev main_call2_v7 : Ref sig .tc := ⟨.hbm, 113, rfl⟩
abbrev main_call2_cst_1 : Ref sig .tc := ⟨.hbm, 114, rfl⟩
abbrev main_call2_v8 : Ref sig .tc := ⟨.hbm, 115, rfl⟩
abbrev main_call2_cst_2 : Ref sig .tc := ⟨.hbm, 116, rfl⟩
abbrev main_call2_v9 : Ref sig .tc := ⟨.hbm, 117, rfl⟩
abbrev main_call2_v10 : Ref sig .tc := ⟨.hbm, 118, rfl⟩
abbrev main_call2_v11 : Ref sig .tc := ⟨.hbm, 119, rfl⟩
abbrev main_call2_cst_3 : Ref sig .tc := ⟨.hbm, 120, rfl⟩
abbrev main_call2_v12 : Ref sig .tc := ⟨.hbm, 121, rfl⟩
abbrev main_call2_cst_4 : Ref sig .tc := ⟨.hbm, 122, rfl⟩
abbrev main_call2_call0_v0 : Ref sig .tc := ⟨.hbm, 123, rfl⟩
abbrev main_call2_call0_v1 : Ref sig .tc := ⟨.hbm, 124, rfl⟩
abbrev main_v55 : Ref sig .tc := ⟨.hbm, 125, rfl⟩
abbrev main_v56 : Ref sig .tc := ⟨.hbm, 126, rfl⟩
abbrev main_v57 : Ref sig .tc := ⟨.hbm, 127, rfl⟩
abbrev main_v58 : Ref sig .tc := ⟨.hbm, 128, rfl⟩
abbrev main_cst_11 : Ref sig .tc := ⟨.hbm, 129, rfl⟩
abbrev main_v59 : Ref sig .tc := ⟨.hbm, 130, rfl⟩
abbrev main_v60 : Ref sig .tc := ⟨.hbm, 131, rfl⟩
abbrev main_v61 : Ref sig .tc := ⟨.hbm, 132, rfl⟩
abbrev main_v62 : Ref sig .tc := ⟨.hbm, 133, rfl⟩
abbrev main_v63 : Ref sig .tc := ⟨.hbm, 134, rfl⟩
abbrev main_v64 : Ref sig .tc := ⟨.hbm, 135, rfl⟩
abbrev main_v65 : Ref sig .tc := ⟨.hbm, 136, rfl⟩
abbrev main_v66 : Ref sig .tc := ⟨.hbm, 137, rfl⟩
abbrev main_v67 : Ref sig .tc := ⟨.hbm, 138, rfl⟩
abbrev main_v68 : Ref sig .tc := ⟨.hbm, 139, rfl⟩
abbrev main_v69 : Ref sig .tc := ⟨.hbm, 140, rfl⟩
abbrev main_v70 : Ref sig .tc := ⟨.hbm, 141, rfl⟩
abbrev main_call3_cst : Ref sig .tc := ⟨.hbm, 142, rfl⟩
abbrev main_call3_v0 : Ref sig .tc := ⟨.hbm, 143, rfl⟩
abbrev main_v71 : Ref sig .tc := ⟨.hbm, 144, rfl⟩
abbrev main_v72 : Ref sig .tc := ⟨.hbm, 145, rfl⟩
abbrev main_v73 : Ref sig .tc := ⟨.hbm, 146, rfl⟩
abbrev main_v74 : Ref sig .tc := ⟨.hbm, 147, rfl⟩
abbrev main_v75 : Ref sig .tc := ⟨.hbm, 148, rfl⟩
abbrev main_v76 : Ref sig .tc := ⟨.hbm, 149, rfl⟩
abbrev main_call4_cst : Ref sig .tc := ⟨.hbm, 150, rfl⟩
abbrev main_call4_v0 : Ref sig .tc := ⟨.hbm, 151, rfl⟩
abbrev main_v77 : Ref sig .tc := ⟨.hbm, 152, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KerRun.lean ====
/- The kernel program's run with its RESULT named: every weakly fair execution ends with the result array at what
   the last region's pipeline leaves in its output window's array (the write-backs of its ten grid points folded
   over the array as the region found it), and the thirteen argument arrays as launched. The contents at each segment
   boundary are the fold through the host stretches and the regions that the frame's run already carries; the result
   array is one more buffer read off the last boundary. -/
import proofs.«108325_j57337813402032_1_alg».proof.Proof.Gen.KernelIdeal.Frame
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents (`View.cover_of_tiled`): the elaborator's structural look
-- recurses once per coordinate of the long axes
set_option maxRecDepth 16384

noncomputable section

namespace Cert.KernelIdeal.KerRun

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
-- the launch theorem's implicit arguments are found by unifying its conclusion with this statement, which takes
-- unfolding plain definitions in a metavariable's type
set_option backward.isDefEq.respectTransparency.types false in
/-- The run, with the result buffer read off the last boundary's contents beside the arguments. -/
theorem run_result : θ_run defs (onTc (τ := τ) (main (F := F))) ⟨m, fun _ => 0, ρ⟩ (fun r => ∀ c : Dev nD,
      r.2.mem ((c.tc : Thread nD τ).loc main_v42) = (dat3 (V7 m ρ) c).arrAt 7 cfg3.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨(h c _ (mem_uc main_v42 (by decide))).trans (W8_arr m ρ c 7),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c)⟩)

end Cert.KernelIdeal.KerRun

end
-- ==== Proof.Spec.lean ====
/- The network both programs compute, as functions of matrices over the extended reals, entry by entry.
   A node-feature matrix has 50000 rows and 128 columns; a weight matrix is 128 by 128; a bias, scale or shift is a
   row of 128 numbers.  One layer is: add the aggregated neighbour features to the features, multiply by the
   transposed weights, add the bias; take each column's mean and variance over the 50000 rows; normalise, scale,
   shift, and clamp below at zero.  The variance is written in two ways — the mean of the squares minus the square of
   the mean, and the mean of the squared deviations — which agree on real numbers. -/
import Idealize.ShloMosaic.PureOps.Ideal
import Idealize.ShloMosaic.Lib.ValueIdx

noncomputable section

namespace Cert.Spec

open Idealize.ShloMosaic Idealize.ShloMosaic.ValueIdx
open scoped BigOperators

/-- A matrix of extended reals, read by row and column. -/
abbrev Mat (n d : Nat) : Type := Fin n → Fin d → EReal
/-- A row of extended reals. -/
abbrev Row (d : Nat) : Type := Fin d → EReal

/-- The matrix an array of shape [n, d] holds. -/
def toMat {n d : Nat} (x : (⟨2, ![n, d]⟩ : Shape).Idx → EReal) : Mat n d := fun p c => x (ix2 p c)
/-- The array of shape [n, d] a matrix fills. -/
def ofMat {n d : Nat} (f : Mat n d) : (⟨2, ![n, d]⟩ : Shape).Idx → EReal := fun i => f (i 0) (i 1)
/-- The row an array of shape [1, d] holds. -/
def toRow {d : Nat} (x : (⟨2, ![1, d]⟩ : Shape).Idx → EReal) : Row d := fun c => x (ix2 0 c)
/-- The array of shape [1, d] a row fills. -/
def ofRow {d : Nat} (f : Row d) : (⟨2, ![1, d]⟩ : Shape).Idx → EReal := fun i => f (i 1)
/-- The row an array of shape [d] holds. -/
def toRow1 {d : Nat} (x : (⟨1, ![d]⟩ : Shape).Idx → EReal) : Row d := fun c => x (ix1 c)

theorem ofMat_toMat {n d : Nat} (x : (⟨2, ![n, d]⟩ : Shape).Idx → EReal) : ofMat (toMat x) = x := by
  funext i; exact congrArg x (eq_ix2 i).symm
theorem toMat_ofMat {n d : Nat} (f : Mat n d) : toMat (ofMat f) = f := rfl
theorem toRow_ofRow {d : Nat} (f : Row d) : toRow (ofRow f) = f := rfl

/-- The number of rows, 50000, as the single-precision literal both programs divide by. -/
def cnt : EReal := Ideal.ofBits .f32 0x47435000#32
/-- The variance's guard, the single-precision literal nearest 1e-5, the same word in both programs. -/
def eps : EReal := Ideal.ofBits .f32 0x3727C5AC#32

/-- The linear layer on the sum of two feature matrices: row p of (a + s) against row c of W, plus the bias. -/
def lin (a s : Mat 50000 128) (W : Mat 128 128) (b : Row 128) : Mat 50000 128 :=
  fun p c => (∑ k : Fin 128, (a p k + s p k) * W c k) + b c
/-- The linear layer on one feature matrix. -/
def lin1 (y : Mat 50000 128) (W : Mat 128 128) (b : Row 128) : Mat 50000 128 :=
  fun p c => (∑ k : Fin 128, y p k * W c k) + b c
/-- A column's sum over all rows. -/
def colsum (x : Mat 50000 128) : Row 128 := fun c => ∑ p : Fin 50000, x p c
/-- A column's sum of squares over all rows. -/
def colsumsq (x : Mat 50000 128) : Row 128 := fun c => ∑ p : Fin 50000, x p c * x p c
/-- A column's mean. -/
def mean (x : Mat 50000 128) : Row 128 := fun c => Ideal.div (colsum x c) cnt
/-- A column's variance as the mean of the squares minus the square of the mean. -/
def varSq (x : Mat 50000 128) : Row 128 := fun c => Ideal.div (colsumsq x c) cnt - mean x c * mean x c
/-- A column's variance as the mean of the squared deviations from the mean. -/
def varDev (x : Mat 50000 128) : Row 128 :=
  fun c => Ideal.div (∑ p : Fin 50000, (x p c - mean x c) * (x p c - mean x c)) cnt
/-- Normalise by a given mean and variance, scale, shift, clamp below at zero. -/
def bnrelu (x : Mat 50000 128) (mu var g be : Row 128) : Mat 50000 128 :=
  fun p c => max ((x p c - mu c) * Ideal.rsqrt (var c + eps) * g c + be c) 0
/-- Clamp below at zero, entry by entry. -/
def relu (x : Mat 50000 128) : Mat 50000 128 := fun p c => max (x p c) 0

/-- The whole network: two layers and the last linear map, over an aggregation `agg` of neighbour features (the same
    function in both programs) and a choice `var` of the variance's formula. -/
def net (agg : Mat 50000 128 → Mat 50000 128) (var : Mat 50000 128 → Row 128) (h : Mat 50000 128)
    (W1 : Mat 128 128) (b1 g1 be1 : Row 128) (W2a : Mat 128 128) (b2a g2 be2 : Row 128) (W2b : Mat 128 128) (b2b : Row 128) :
    Mat 50000 128 :=
  let x1 := lin h (agg h) W1 b1
  let h1 := bnrelu x1 (mean x1) (var x1) g1 be1
  let x2 := lin h1 (agg h1) W2a b2a
  let y := bnrelu x2 (mean x2) (var x2) g2 be2
  relu (lin1 y W2b b2b)

end Cert.Spec

end
-- ==== Proof.KerRowOps.lean ====
/- Rows of 128 numbers as the host stretches of the kernel program handle them: a row divided by the literal
   50000 spread over it, the variance row formed from the two quotient rows, and a vector of 128 numbers recast as a
   one-row matrix, each read entry by entry. -/
import proofs.«108325_j57337813402032_1_alg».proof.KernelIdeal
import proofs.«108325_j57337813402032_1_alg».proof.Proof.Gen.KernelIdeal
import proofs.«108325_j57337813402032_1_alg».proof.Proof.Spec
import Idealize.ShloMosaic.PureOps.Ideal
import Idealize.ShloMosaic.Lib.ValueLayout
import Idealize.ShloMosaic.Lib.Pipeline.Value

noncomputable section

namespace Cert.KernelIdeal.KerRowOps

open Idealize.ShloMosaic Idealize.ShloMosaic.ValueIdx Cert.KernelIdeal Cert.KernelIdeal.Gen Cert.Spec

/-- The literal 50000 spread over a row. -/
abbrev cntRow : S1x128.Idx → EReal := broadcastInDim S1x128 ![] bcast_S_S1x128 (constant (F := Ideal) S_ .f32 0x47435000#32)

/-- The mean row: the sum row divided, entry by entry, by 50000. -/
theorem toRow_divf_cnt (s : S1x128.Idx → EReal) :
    toRow (Host.divf (F := Ideal) (s := S1x128) (φ := .f32) s cntRow) = fun c => Ideal.div (toRow s c) cnt := by
  funext c; rfl

/-- The variance row: the quotient of the squares' sums minus the square of the mean. -/
theorem toRow_var (ss mu : S1x128.Idx → EReal) :
    toRow (subf (F := Ideal) (s := S1x128) (φ := .f32) (Host.divf (F := Ideal) (s := S1x128) (φ := .f32) ss cntRow)
        (mulf (F := Ideal) (s := S1x128) (φ := .f32) mu mu))
      = fun c => Ideal.div (toRow ss c) cnt - toRow mu c * toRow mu c := by
  funext c; rfl

/-- A vector of 128 numbers recast as a one-row matrix holds the same numbers. -/
theorem toRow_reshape (a : S128.Idx → EReal) : toRow (shapeCast S1x128 a shapeCasts_S128_S1x128) = toRow1 a := by
  funext c
  unfold toRow toRow1
  exact shapeCast_a_1a_apply a shapeCasts_S128_S1x128 _ _

end Cert.KernelIdeal.KerRowOps

end
-- ==== Proof.KerHost.lean ====
/- What each region of the kernel program finds in its windows' arrays: the host stretches between the regions read
   as pure functions of the buffers each stretch starts from, and the argument arrays read back to the launch memory
   at every boundary (no host operation and no region writes an argument). -/
import proofs.«108325_j57337813402032_1_alg».proof.Proof.Gen.KernelIdeal.Frame
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.PureOps.Ideal
import Idealize.ShloMosaic.Lib.StableHlo.Run
import proofs.«108325_j57337813402032_1_alg».proof.Proof.KerRowOps

-- membership in a rectangle of production extents (`View.cover_of_tiled`): the elaborator's structural look
-- recurses once per coordinate of the long axes
set_option maxRecDepth 16384

noncomputable section

namespace Cert.KernelIdeal.KerHost

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
open Cert.KernelIdeal.KerRowOps

/-- A host stretch leaves a buffer alone when none of its operations writes it. -/
macro "host_skip" : tactic => `(tactic| exact StableHlo.after_of_forall_not_mem _ _ (List.forall_iff_forall_mem.mp (by
  simp only [hostOps0, hostOps1, hostOps2, hostOps3, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide))))

/-! ## Buffers no stretch or region has written yet -/

section AnyInstance
variable (m : (ℓ : Loc nD τ sig) → Buf (Elt F) ℓ) (ρ : Dev nD → PrngReg)

theorem W1_of (c : Dev nD) (b : Ref sig .tc) (h : W1 m ρ c (Proc.devRef .tc b) = W0 m ρ c (Proc.devRef .tc b)) :
    W1 m ρ c (Proc.devRef .tc b) = m ((c : Thread nD τ).loc b) := h.trans rfl

theorem W1_arg0 (c : Dev nD) : W1 m ρ c (Proc.devRef .tc main_arg0) = m ((c : Thread nD τ).loc main_arg0) := W1_of m ρ c _ (by host_skip)
theorem W1_arg1 (c : Dev nD) : W1 m ρ c (Proc.devRef .tc main_arg1) = m ((c : Thread nD τ).loc main_arg1) := W1_of m ρ c _ (by host_skip)
theorem W1_arg2 (c : Dev nD) : W1 m ρ c (Proc.devRef .tc main_arg2) = m ((c : Thread nD τ).loc main_arg2) := W1_of m ρ c _ (by host_skip)
theorem W1_arg3 (c : Dev nD) : W1 m ρ c (Proc.devRef .tc main_arg3) = m ((c : Thread nD τ).loc main_arg3) := W1_of m ρ c _ (by host_skip)
theorem W1_arg5 (c : Dev nD) : W1 m ρ c (Proc.devRef .tc main_arg5) = m ((c : Thread nD τ).loc main_arg5) := W1_of m ρ c _ (by host_skip)
theorem W1_arg6 (c : Dev nD) : W1 m ρ c (Proc.devRef .tc main_arg6) = m ((c : Thread nD τ).loc main_arg6) := W1_of m ρ c _ (by host_skip)
theorem W1_arg7 (c : Dev nD) : W1 m ρ c (Proc.devRef .tc main_arg7) = m ((c : Thread nD τ).loc main_arg7) := W1_of m ρ c _ (by host_skip)
theorem W1_arg8 (c : Dev nD) : W1 m ρ c (Proc.devRef .tc main_arg8) = m ((c : Thread nD τ).loc main_arg8) := W1_of m ρ c _ (by host_skip)
theorem W1_arg9 (c : Dev nD) : W1 m ρ c (Proc.devRef .tc main_arg9) = m ((c : Thread nD τ).loc main_arg9) := W1_of m ρ c _ (by host_skip)
theorem W1_arg10 (c : Dev nD) : W1 m ρ c (Proc.devRef .tc main_arg10) = m ((c : Thread nD τ).loc main_arg10) := W1_of m ρ c _ (by host_skip)
theorem W1_arg11 (c : Dev nD) : W1 m ρ c (Proc.devRef .tc main_arg11) = m ((c : Thread nD τ).loc main_arg11) := W1_of m ρ c _ (by host_skip)
theorem W1_arg12 (c : Dev nD) : W1 m ρ c (Proc.devRef .tc main_arg12) = m ((c : Thread nD τ).loc main_arg12) := W1_of m ρ c _ (by host_skip)

/-- Region 0 writes none of these arguments. -/
theorem W2_arg1 (c : Dev nD) : W2 m ρ c (Proc.devRef .tc main_arg1) = m ((c : Thread nD τ).loc main_arg1) := (W2_of_ne m ρ c main_arg1 (by decide)).trans (W1_arg1 m ρ c)
theorem W2_arg2 (c : Dev nD) : W2 m ρ c (Proc.devRef .tc main_arg2) = m ((c : Thread nD τ).loc main_arg2) := (W2_of_ne m ρ c main_arg2 (by decide)).trans (W1_arg2 m ρ c)
theorem W2_arg5 (c : Dev nD) : W2 m ρ c (Proc.devRef .tc main_arg5) = m ((c : Thread nD τ).loc main_arg5) := (W2_of_ne m ρ c main_arg5 (by decide)).trans (W1_arg5 m ρ c)
theorem W2_arg6 (c : Dev nD) : W2 m ρ c (Proc.devRef .tc main_arg6) = m ((c : Thread nD τ).loc main_arg6) := (W2_of_ne m ρ c main_arg6 (by decide)).trans (W1_arg6 m ρ c)
theorem W2_arg7 (c : Dev nD) : W2 m ρ c (Proc.devRef .tc main_arg7) = m ((c : Thread nD τ).loc main_arg7) := (W2_of_ne m ρ c main_arg7 (by decide)).trans (W1_arg7 m ρ c)
theorem W2_arg8 (c : Dev nD) : W2 m ρ c (Proc.devRef .tc main_arg8) = m ((c : Thread nD τ).loc main_arg8) := (W2_of_ne m ρ c main_arg8 (by decide)).trans (W1_arg8 m ρ c)
theorem W2_arg9 (c : Dev nD) : W2 m ρ c (Proc.devRef .tc main_arg9) = m ((c : Thread nD τ).loc main_arg9) := (W2_of_ne m ρ c main_arg9 (by decide)).trans (W1_arg9 m ρ c)
theorem W2_arg10 (c : Dev nD) : W2 m ρ c (Proc.devRef .tc main_arg10) = m ((c : Thread nD τ).loc main_arg10) := (W2_of_ne m ρ c main_arg10 (by decide)).trans (W1_arg10 m ρ c)
theorem W2_arg11 (c : Dev nD) : W2 m ρ c (Proc.devRef .tc main_arg11) = m ((c : Thread nD τ).loc main_arg11) := (W2_of_ne m ρ c main_arg11 (by decide)).trans (W1_arg11 m ρ c)
theorem W2_arg12 (c : Dev nD) : W2 m ρ c (Proc.devRef .tc main_arg12) = m ((c : Thread nD τ).loc main_arg12) := (W2_of_ne m ρ c main_arg12 (by decide)).trans (W1_arg12 m ρ c)

/-- The second stretch and region 1 write none of these. -/
theorem W4_arg1 (c : Dev nD) : W4 m ρ c (Proc.devRef .tc main_arg1) = m ((c : Thread nD τ).loc main_arg1) :=
  (W4_of_ne m ρ c main_arg1 (by decide)).trans ((show W3 m ρ c (Proc.devRef .tc main_arg1) = W2 m ρ c (Proc.devRef .tc main_arg1) by host_skip).trans (W2_arg1 m ρ c))
theorem W4_arg2 (c : Dev nD) : W4 m ρ c (Proc.devRef .tc main_arg2) = m ((c : Thread nD τ).loc main_arg2) :=
  (W4_of_ne m ρ c main_arg2 (by decide)).trans ((show W3 m ρ c (Proc.devRef .tc main_arg2) = W2 m ρ c (Proc.devRef .tc main_arg2) by host_skip).trans (W2_arg2 m ρ c))
theorem W4_arg7 (c : Dev nD) : W4 m ρ c (Proc.devRef .tc main_arg7) = m ((c : Thread nD τ).loc main_arg7) :=
  (W4_of_ne m ρ c main_arg7 (by decide)).trans ((show W3 m ρ c (Proc.devRef .tc main_arg7) = W2 m ρ c (Proc.devRef .tc main_arg7) by host_skip).trans (W2_arg7 m ρ c))
theorem W4_arg8 (c : Dev nD) : W4 m ρ c (Proc.devRef .tc main_arg8) = m ((c : Thread nD τ).loc main_arg8) :=
  (W4_of_ne m ρ c main_arg8 (by decide)).trans ((show W3 m ρ c (Proc.devRef .tc main_arg8) = W2 m ρ c (Proc.devRef .tc main_arg8) by host_skip).trans (W2_arg8 m ρ c))
theorem W4_arg9 (c : Dev nD) : W4 m ρ c (Proc.devRef .tc main_arg9) = m ((c : Thread nD τ).loc main_arg9) :=
  (W4_of_ne m ρ c main_arg9 (by decide)).trans ((show W3 m ρ c (Proc.devRef .tc main_arg9) = W2 m ρ c (Proc.devRef .tc main_arg9) by host_skip).trans (W2_arg9 m ρ c))
theorem W4_arg10 (c : Dev nD) : W4 m ρ c (Proc.devRef .tc main_arg10) = m ((c : Thread nD τ).loc main_arg10) :=
  (W4_of_ne m ρ c main_arg10 (by decide)).trans ((show W3 m ρ c (Proc.devRef .tc main_arg10) = W2 m ρ c (Proc.devRef .tc main_arg10) by host_skip).trans (W2_arg10 m ρ c))
theorem W4_arg11 (c : Dev nD) : W4 m ρ c (Proc.devRef .tc main_arg11) = m ((c : Thread nD τ).loc main_arg11) :=
  (W4_of_ne m ρ c main_arg11 (by decide)).trans ((show W3 m ρ c (Proc.devRef .tc main_arg11) = W2 m ρ c (Proc.devRef .tc main_arg11) by host_skip).trans (W2_arg11 m ρ c))
theorem W4_arg12 (c : Dev nD) : W4 m ρ c (Proc.devRef .tc main_arg12) = m ((c : Thread nD τ).loc main_arg12) :=
  (W4_of_ne m ρ c main_arg12 (by decide)).trans ((show W3 m ρ c (Proc.devRef .tc main_arg12) = W2 m ρ c (Proc.devRef .tc main_arg12) by host_skip).trans (W2_arg12 m ρ c))

/-- The third stretch and region 2 write none of these. -/
theorem W5_arg7 (c : Dev nD) : W5 m ρ c (Proc.devRef .tc main_arg7) = m ((c : Thread nD τ).loc main_arg7) :=
  (show W5 m ρ c (Proc.devRef .tc main_arg7) = W4 m ρ c (Proc.devRef .tc main_arg7) by host_skip).trans (W4_arg7 m ρ c)
theorem W6_arg9 (c : Dev nD) : W6 m ρ c (Proc.devRef .tc main_arg9) = m ((c : Thread nD τ).loc main_arg9) :=
  (W6_of_ne m ρ c main_arg9 (by decide)).trans ((show W5 m ρ c (Proc.devRef .tc main_arg9) = W4 m ρ c (Proc.devRef .tc main_arg9) by host_skip).trans (W4_arg9 m ρ c))
theorem W6_arg10 (c : Dev nD) : W6 m ρ c (Proc.devRef .tc main_arg10) = m ((c : Thread nD τ).loc main_arg10) :=
  (W6_of_ne m ρ c main_arg10 (by decide)).trans ((show W5 m ρ c (Proc.devRef .tc main_arg10) = W4 m ρ c (Proc.devRef .tc main_arg10) by host_skip).trans (W4_arg10 m ρ c))
theorem W6_arg11 (c : Dev nD) : W6 m ρ c (Proc.devRef .tc main_arg11) = m ((c : Thread nD τ).loc main_arg11) :=
  (W6_of_ne m ρ c main_arg11 (by decide)).trans ((show W5 m ρ c (Proc.devRef .tc main_arg11) = W4 m ρ c (Proc.devRef .tc main_arg11) by host_skip).trans (W4_arg11 m ρ c))
theorem W6_arg12 (c : Dev nD) : W6 m ρ c (Proc.devRef .tc main_arg12) = m ((c : Thread nD τ).loc main_arg12) :=
  (W6_of_ne m ρ c main_arg12 (by decide)).trans ((show W5 m ρ c (Proc.devRef .tc main_arg12) = W4 m ρ c (Proc.devRef .tc main_arg12) by host_skip).trans (W4_arg12 m ρ c))
theorem W7_arg11 (c : Dev nD) : W7 m ρ c (Proc.devRef .tc main_arg11) = m ((c : Thread nD τ).loc main_arg11) :=
  (show W7 m ρ c (Proc.devRef .tc main_arg11) = W6 m ρ c (Proc.devRef .tc main_arg11) by host_skip).trans (W6_arg11 m ρ c)

/-! ## Region outputs carried to the next region's entry -/

theorem W3_x (c : Dev nD) : W3 m ρ c (Proc.devRef .tc main_v11_0) = (dat0 (V1 m ρ) c).arrAt 4 cfg0.N :=
  (show W3 m ρ c (Proc.devRef .tc main_v11_0) = W2 m ρ c (Proc.devRef .tc main_v11_0) by host_skip).trans (W2_arr m ρ c 4)
theorem W5_h (c : Dev nD) : W5 m ρ c (Proc.devRef .tc main_v20) = (dat1 (V3 m ρ) c).arrAt 5 cfg1.N :=
  (show W5 m ρ c (Proc.devRef .tc main_v20) = W4 m ρ c (Proc.devRef .tc main_v20) by host_skip).trans (W4_arr m ρ c 5)
theorem W7_x (c : Dev nD) : W7 m ρ c (Proc.devRef .tc main_v32_0) = (dat2 (V5 m ρ) c).arrAt 4 cfg2.N :=
  (show W7 m ρ c (Proc.devRef .tc main_v32_0) = W6 m ρ c (Proc.devRef .tc main_v32_0) by host_skip).trans (W6_arr m ρ c 4)

end AnyInstance

/-! ## The stretches at the ideal instance -/

/-- Neighbour aggregation as the program computes it: negative source indices wrapped, the source rows gathered, and
    scatter-added into a zero matrix at the destination rows. -/
def segsum (x : S50000x128.Idx → EReal) (src dst : IVec S800000 32) : S50000x128.Idx → EReal :=
  Host.scatterAdd (F := Ideal) scatter_S50000x128_S800000x1_S800000x128_1_0_0_1
    (broadcastInDim S50000x128 ![] bcast_S_S50000x128 (constant (F := Ideal) S_ .f32 0x00000000#32))
    (broadcastInDim S800000x1 ![0] bcast_S800000_S800000x1_0 dst)
    (Host.gather gather_S50000x128_S800000x1_S800000x128_1_0_n_n_0_1_1128 x
      (broadcastInDim S800000x1 ![0] bcast_S800000_S800000x1_0
        (select (cmpi .slt src (broadcastInDim S800000 ![] bcast_S_S800000 (constantI S_ 32 0#32)))
          (addi src (broadcastInDim S800000 ![] bcast_S_S800000 (constantI S_ 32 50000#32))) src)))

section AtIdeal
variable (m : (ℓ : Loc nD τ sig) → Buf (Elt Ideal) ℓ) (ρ : Dev nD → PrngReg)

/-! ### Region 0's windows -/

theorem V1_msg (c : Dev nD) : (V1 m ρ c main_v9 : S50000x128.Idx → EReal)
    = segsum (m ((c : Thread nD τ).loc main_arg0)) (m ((c : Thread nD τ).loc main_arg1)) (m ((c : Thread nD τ).loc main_arg2)) := by
  show StableHlo.after hostOps0 (W0 m ρ c) (Proc.devRef .tc main_v9) = _
  after_results
  rfl

theorem V1_bias (c : Dev nD) : (V1 m ρ c main_v10 : S1x128.Idx → EReal)
    = shapeCast S1x128 (m ((c : Thread nD τ).loc main_arg4) : S128.Idx → EReal) shapeCasts_S128_S1x128 := by
  show StableHlo.after hostOps0 (W0 m ρ c) (Proc.devRef .tc main_v10) = _
  after_results
  rfl

/-! ### Region 1's windows -/

theorem V3_mean (c : Dev nD) : (V3 m ρ c main_v13 : S1x128.Idx → EReal)
    = Host.divf (F := Ideal) (s := S1x128) (φ := .f32) ((dat0 (V1 m ρ) c).arrAt 5 cfg0.N) cntRow := by
  have h5 := (W2_arr m ρ c 5 : W2 m ρ c (Proc.devRef .tc main_v11_1) = (dat0 (V1 m ρ) c).arrAt 5 cfg0.N)
  show StableHlo.after hostOps1 (W2 m ρ c) (Proc.devRef .tc main_v13) = _
  generalize W2 m ρ c = W at h5 ⊢
  after_results
  rw [h5]
  all_goals rfl

theorem V3_var (c : Dev nD) : (V3 m ρ c main_v17 : S1x128.Idx → EReal)
    = subf (F := Ideal) (s := S1x128) (φ := .f32) (Host.divf (F := Ideal) (s := S1x128) (φ := .f32) ((dat0 (V1 m ρ) c).arrAt 6 cfg0.N) cntRow)
        (mulf (F := Ideal) (s := S1x128) (φ := .f32) (Host.divf (F := Ideal) (s := S1x128) (φ := .f32) ((dat0 (V1 m ρ) c).arrAt 5 cfg0.N) cntRow) (Host.divf (F := Ideal) (s := S1x128) (φ := .f32) ((dat0 (V1 m ρ) c).arrAt 5 cfg0.N) cntRow)) := by
  have h5 := (W2_arr m ρ c 5 : W2 m ρ c (Proc.devRef .tc main_v11_1) = (dat0 (V1 m ρ) c).arrAt 5 cfg0.N)
  have h6 := (W2_arr m ρ c 6 : W2 m ρ c (Proc.devRef .tc main_v11_2) = (dat0 (V1 m ρ) c).arrAt 6 cfg0.N)
  show StableHlo.after hostOps1 (W2 m ρ c) (Proc.devRef .tc main_v17) = _
  generalize W2 m ρ c = W at h5 h6 ⊢
  after_results
  rw [h5, h6]
  all_goals rfl

theorem V3_gamma (c : Dev nD) : (V3 m ρ c main_v18 : S1x128.Idx → EReal)
    = shapeCast S1x128 (m ((c : Thread nD τ).loc main_arg5) : S128.Idx → EReal) shapeCasts_S128_S1x128 := by
  have h := W2_arg5 m ρ c
  show StableHlo.after hostOps1 (W2 m ρ c) (Proc.devRef .tc main_v18) = _
  generalize W2 m ρ c = W at h ⊢
  after_results
  rw [h]
  all_goals rfl

theorem V3_beta (c : Dev nD) : (V3 m ρ c main_v19 : S1x128.Idx → EReal)
    = shapeCast S1x128 (m ((c : Thread nD τ).loc main_arg6) : S128.Idx → EReal) shapeCasts_S128_S1x128 := by
  have h := W2_arg6 m ρ c
  show StableHlo.after hostOps1 (W2 m ρ c) (Proc.devRef .tc main_v19) = _
  generalize W2 m ρ c = W at h ⊢
  after_results
  rw [h]
  all_goals rfl

/-! ### Region 2's windows -/

set_option maxHeartbeats 2000000 in
theorem V5_msg (c : Dev nD) : (V5 m ρ c main_v30 : S50000x128.Idx → EReal)
    = segsum ((dat1 (V3 m ρ) c).arrAt 5 cfg1.N) (m ((c : Thread nD τ).loc main_arg1)) (m ((c : Thread nD τ).loc main_arg2)) := by
  have h20 := (W4_arr m ρ c 5 : W4 m ρ c (Proc.devRef .tc main_v20) = (dat1 (V3 m ρ) c).arrAt 5 cfg1.N)
  have h1 := W4_arg1 m ρ c
  have h2 := W4_arg2 m ρ c
  show StableHlo.after hostOps2 (W4 m ρ c) (Proc.devRef .tc main_v30) = _
  generalize W4 m ρ c = W at h20 h1 h2 ⊢
  after_results
  rw [h20, h1, h2]
  all_goals rfl

theorem V5_bias (c : Dev nD) : (V5 m ρ c main_v31 : S1x128.Idx → EReal)
    = shapeCast S1x128 (m ((c : Thread nD τ).loc main_arg8) : S128.Idx → EReal) shapeCasts_S128_S1x128 := by
  have h := W4_arg8 m ρ c
  show StableHlo.after hostOps2 (W4 m ρ c) (Proc.devRef .tc main_v31) = _
  generalize W4 m ρ c = W at h ⊢
  after_results
  rw [h]
  all_goals rfl

/-! ### Region 3's windows -/

set_option maxHeartbeats 2000000 in
theorem V7_mean (c : Dev nD) : (V7 m ρ c main_v34 : S1x128.Idx → EReal)
    = Host.divf (F := Ideal) (s := S1x128) (φ := .f32) ((dat2 (V5 m ρ) c).arrAt 5 cfg2.N) cntRow := by
  have h5 := (W6_arr m ρ c 5 : W6 m ρ c (Proc.devRef .tc main_v32_1) = (dat2 (V5 m ρ) c).arrAt 5 cfg2.N)
  show StableHlo.after hostOps3 (W6 m ρ c) (Proc.devRef .tc main_v34) = _
  generalize W6 m ρ c = W at h5 ⊢
  after_results
  rw [h5]
  all_goals rfl

set_option maxHeartbeats 2000000 in
theorem V7_var (c : Dev nD) : (V7 m ρ c main_v38 : S1x128.Idx → EReal)
    = subf (F := Ideal) (s := S1x128) (φ := .f32) (Host.divf (F := Ideal) (s := S1x128) (φ := .f32) ((dat2 (V5 m ρ) c).arrAt 6 cfg2.N) cntRow)
        (mulf (F := Ideal) (s := S1x128) (φ := .f32) (Host.divf (F := Ideal) (s := S1x128) (φ := .f32) ((dat2 (V5 m ρ) c).arrAt 5 cfg2.N) cntRow) (Host.divf (F := Ideal) (s := S1x128) (φ := .f32) ((dat2 (V5 m ρ) c).arrAt 5 cfg2.N) cntRow)) := by
  have h5 := (W6_arr m ρ c 5 : W6 m ρ c (Proc.devRef .tc main_v32_1) = (dat2 (V5 m ρ) c).arrAt 5 cfg2.N)
  have h6 := (W6_arr m ρ c 6 : W6 m ρ c (Proc.devRef .tc main_v32_2) = (dat2 (V5 m ρ) c).arrAt 6 cfg2.N)
  show StableHlo.after hostOps3 (W6 m ρ c) (Proc.devRef .tc main_v38) = _
  generalize W6 m ρ c = W at h5 h6 ⊢
  after_results
  rw [h5, h6]
  all_goals rfl

theorem V7_gamma (c : Dev nD) : (V7 m ρ c main_v39 : S1x128.Idx → EReal)
    = shapeCast S1x128 (m ((c : Thread nD τ).loc main_arg9) : S128.Idx → EReal) shapeCasts_S128_S1x128 := by
  have h := W6_arg9 m ρ c
  show StableHlo.after hostOps3 (W6 m ρ c) (Proc.devRef .tc main_v39) = _
  generalize W6 m ρ c = W at h ⊢
  after_results
  rw [h]
  all_goals rfl

theorem V7_beta (c : Dev nD) : (V7 m ρ c main_v40 : S1x128.Idx → EReal)
    = shapeCast S1x128 (m ((c : Thread nD τ).loc main_arg10) : S128.Idx → EReal) shapeCasts_S128_S1x128 := by
  have h := W6_arg10 m ρ c
  show StableHlo.after hostOps3 (W6 m ρ c) (Proc.devRef .tc main_v40) = _
  generalize W6 m ρ c = W at h ⊢
  after_results
  rw [h]
  all_goals rfl

theorem V7_bias (c : Dev nD) : (V7 m ρ c main_v41 : S1x128.Idx → EReal)
    = shapeCast S1x128 (m ((c : Thread nD τ).loc main_arg12) : S128.Idx → EReal) shapeCasts_S128_S1x128 := by
  have h := W6_arg12 m ρ c
  show StableHlo.after hostOps3 (W6 m ρ c) (Proc.devRef .tc main_v41) = _
  generalize W6 m ρ c = W at h ⊢
  after_results
  rw [h]
  all_goals rfl

end AtIdeal

end Cert.KernelIdeal.KerHost

end
-- ==== Proof.Reg1Pay.lean ====
/- The normalise-and-clamp body read at one entry.  The body receives a block of 5000 rows of the feature matrix and
   four rows of 128 numbers (the column means, the column variances, the scales, the shifts).  At row p and column q of
   the block it leaves  max ((x p q − mean q) · rsqrt (var q + eps) · scale q + shift q) 0 :  every row operand is
   broadcast down the 5000 rows, so it is read at its one row and at column q. -/
import proofs.«108325_j57337813402032_1_alg».proof.Proof.Gen.KernelIdeal.Skeleton
import proofs.«108325_j57337813402032_1_alg».proof.Proof.Spec
import Idealize.ShloMosaic.Lib.ValueLayout
import Idealize.ShloMosaic.PureOps.Ideal.Laws

noncomputable section

namespace Cert.KernelIdeal.Reg1

open Idealize.ShloMosaic Idealize.ShloMosaic.ValueIdx Cert.KernelIdeal Cert.KernelIdeal.Gen

/-- The reciprocal square root of a vector, at an index, is that of the element. -/
theorem rsqrt_apply {s : Shape} {φ : FTy} (x : FVec Ideal s φ) (i : s.Idx) : rsqrt x i = Ideal.rsqrt (x i) := rfl

/-- One entry of the normalised, scaled, shifted and clamped block, from the entry of the block and the entries of
    the four rows in its column. -/
def bn (x mu var g be : EReal) : EReal := max ((x - mu) * Ideal.rsqrt (var + Cert.Spec.eps) * g + be) 0

/-- The body's stored value at row `p`, column `q` of the block. -/
theorem pay_apply (v0 : Vec Ideal S1x128 .f32) (v5 : Vec Ideal S5000x128 .f32) (v7 v13 v17 : Vec Ideal S1x128 .f32)
    (p : Fin 5000) (q : Fin 128) :
    k1_pay1 (F := Ideal) v0 v5 v7 v13 v17 (ix2 p q)
      = bn (v5 (ix2 p q)) (v7 (ix2 (0 : Fin 1) q)) (v0 (ix2 (0 : Fin 1) q)) (v13 (ix2 (0 : Fin 1) q)) (v17 (ix2 (0 : Fin 1) q)) := by
  unfold k1_pay1
  simp only [shapeCast_self, maximumf_apply, addf_apply, mulf_apply, subf_apply, broadcast_apply]
  rw [broadcastTo_1b_ab_apply, broadcastTo_1b_ab_apply, broadcastTo_1b_ab_apply, broadcastTo_1b_ab_apply,
    rsqrt_apply, addf_apply, broadcast_apply]
  show max _ (Ideal.ofBits .f32 0x00000000#32) = _
  rw [Ideal.ofBits_zero_f32]
  rfl

end Cert.KernelIdeal.Reg1

end
-- ==== Proof.Reg1.lean ====
/- The normalise-and-clamp region as one matrix.  The region runs over ten grid points; point t receives rows
   5000·t … 5000·t + 4999 of the feature matrix and the four whole rows (means, variances, scales, shifts), and writes
   back the same rows of the result.  Entry (p, q) of the block it leaves depends only on entry (p, q) of the feature
   block and on column q of the four rows, so it is entry (5000·t + p, q) of
     max ((x − mean) · rsqrt (var + eps) · scale + shift) 0
   taken over the whole matrix.  Row r of the array lies in the block of point r / 5000, so the ten blocks cover the
   array and the array ends holding that matrix. -/
import proofs.«108325_j57337813402032_1_alg».proof.Proof.Gen.KernelIdeal.Frame
import proofs.«108325_j57337813402032_1_alg».proof.Proof.Reg1Pay
import Idealize.ShloMosaic.Lib.Pipeline.Value

noncomputable section

namespace Cert.KernelIdeal.Reg1

open Idealize.ShloMosaic Idealize.ShloMosaic.TcCoe Idealize.SL.Sem Idealize.ShloMosaic.ValueIdx
open Idealize.ShloMosaic.Pipeline (Dat)
open Cert.KernelIdeal Cert.KernelIdeal.Gen Cert.Spec

variable (V : (c : Dev nD) → (b : Ref sig .tc) → Buf (Elt Ideal) ((c : Thread nD τ).loc b))

theorem hz : (![0, 0] : Fin 2 → Nat) = fun _ => 0 := funext fun a => by fin_cases a <;> rfl

/-- The array the region leaves: the feature matrix normalised by the given means and variances, scaled, shifted
    and clamped below at zero. -/
abbrev G (c : Dev nD) : S50000x128.Idx → EReal :=
  ofMat (bnrelu (toMat (V c (Pipeline.arrRef spec1 0) : S50000x128.Idx → EReal))
    (toRow (V c (Pipeline.arrRef spec1 1) : S1x128.Idx → EReal))
    (toRow (V c (Pipeline.arrRef spec1 2) : S1x128.Idx → EReal))
    (toRow (V c (Pipeline.arrRef spec1 3) : S1x128.Idx → EReal))
    (toRow (V c (Pipeline.arrRef spec1 4) : S1x128.Idx → EReal)))

/-- One entry of the block the body leaves is the result matrix's entry at the place `i` of the array where the
    block's entry `j` sits: the block of features agrees with the array there (`h0`), the place has the block
    entry's column (`hcol`), and each row operand is the whole row array (`h1` … `h4`). -/
theorem block_entry (A0 : S50000x128.Idx → EReal) (A1 A2 A3 A4 : S1x128.Idx → EReal)
    (x0 : Vec Ideal S5000x128 .f32) (x1 x2 x3 x4 : Vec Ideal S1x128 .f32)
    (j : S5000x128.Idx) (i : S50000x128.Idx)
    (h0 : x0 j = A0 i) (hcol : (i 1).val = (j 1).val)
    (h1 : ∀ q : Fin 128, x1 (ix2 (0 : Fin 1) q) = A1 (ix2 (0 : Fin 1) q))
    (h2 : ∀ q : Fin 128, x2 (ix2 (0 : Fin 1) q) = A2 (ix2 (0 : Fin 1) q))
    (h3 : ∀ q : Fin 128, x3 (ix2 (0 : Fin 1) q) = A3 (ix2 (0 : Fin 1) q))
    (h4 : ∀ q : Fin 128, x4 (ix2 (0 : Fin 1) q) = A4 (ix2 (0 : Fin 1) q)) :
    k1_pay1 (F := Ideal) x2 x0 x1 x3 x4 j = ofMat (bnrelu (toMat A0) (toRow A1) (toRow A2) (toRow A3) (toRow A4)) i := by
  obtain ⟨p, q, rfl⟩ : ∃ (p : Fin 5000) (q : Fin 128), j = ix2 p q := ⟨j 0, j 1, eq_ix2 j⟩
  obtain ⟨r, s, rfl⟩ : ∃ (r : Fin 50000) (s : Fin 128), i = ix2 r s := ⟨i 0, i 1, eq_ix2 i⟩
  obtain rfl : s = q := Fin.ext hcol
  rw [pay_apply, h0, h1, h2, h3, h4]
  rfl

/-- Where the blocks sit, decided over the ten grid points: the feature block and the result block of point `t` are
    both block `t` of the rows and block 0 of the columns; every row operand's block is the whole row. -/
theorem idx_facts : ∀ t : Fin cfg1.N,
    win1_0.index t (0 : Fin 2) = win1_5.index t (0 : Fin 2) ∧ win1_0.index t (1 : Fin 2) = 0 ∧ win1_5.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val :=
  (by decide +kernel : ∀ t : Fin grid1.N, _)

/-- What grid point `t` writes back is block `t` of the result matrix. -/
theorem flushed_eq (c : Dev nD) (t : Fin cfg1.N) :
    (dat1 (F := Ideal) V c).flushed 5 t = ((cfg1.win 5).blk t).view.read (Elt Ideal) (G V c) := by
  show (cfg1.win 5).cut (grid1.coords t) ((dat1 V c).after 5 t) = _
  rw [after1_5]
  unfold out1_5
  rw [View.canon_unit_zero hz]
  simp only [View.ld_unit_zero (S := S5000x128) hz, View.ld_unit_zero (S := S1x128) hz]
  obtain ⟨e0, e01, e51, e10, e11, e20, e21, e30, e31, e40, e41, e5⟩ := idx_facts t
  funext j
  refine block_entry (V c (Pipeline.arrRef spec1 0)) (V c (Pipeline.arrRef spec1 1)) (V c (Pipeline.arrRef spec1 2))
    (V c (Pipeline.arrRef spec1 3)) (V c (Pipeline.arrRef spec1 4))
    (iblk1 V c 0 t) (iblk1 V c 1 t) (iblk1 V c 2 t) (iblk1 V c 3 t) (iblk1 V c 4 t) j (((cfg1.win 5).blk t).view.emb j)
    ?_ ?_ ?_ ?_ ?_ ?_
  · show V c (Pipeline.arrRef spec1 0) (((cfg1.win 0).blk t).view.emb j) = V c (Pipeline.arrRef spec1 0) (((cfg1.win 5).blk t).view.emb j)
    refine congrArg _ (funext fun a => Fin.ext ?_)
    match a with
    | ⟨0, _⟩ => show win1_0.index t (0 : Fin 2) * 5000 + 1 * (j 0).val = win1_5.index t (0 : Fin 2) * 5000 + 1 * (j 0).val; omega
    | ⟨1, _⟩ => show win1_0.index t (1 : Fin 2) * 128 + 1 * (j 1).val = win1_5.index t (1 : Fin 2) * 128 + 1 * (j 1).val; omega
  · show win1_5.index t (1 : Fin 2) * 128 + 1 * (j 1).val = (j 1).val; omega
  · intro q
    show V c (Pipeline.arrRef spec1 1) (((cfg1.win 1).blk t).view.emb (ix2 (0 : Fin 1) q)) = V c (Pipeline.arrRef spec1 1) (ix2 (0 : Fin 1) q)
    refine congrArg _ (funext fun a => Fin.ext ?_)
    match a with
    | ⟨0, _⟩ => show win1_1.index t (0 : Fin 2) * 1 + 1 * 0 = 0; omega
    | ⟨1, _⟩ => show win1_1.index t (1 : Fin 2) * 128 + 1 * q.val = q.val; omega
  · intro q
    show V c (Pipeline.arrRef spec1 2) (((cfg1.win 2).blk t).view.emb (ix2 (0 : Fin 1) q)) = V c (Pipeline.arrRef spec1 2) (ix2 (0 : Fin 1) q)
    refine congrArg _ (funext fun a => Fin.ext ?_)
    match a with
    | ⟨0, _⟩ => show win1_2.index t (0 : Fin 2) * 1 + 1 * 0 = 0; omega
    | ⟨1, _⟩ => show win1_2.index t (1 : Fin 2) * 128 + 1 * q.val = q.val; omega
  · intro q
    show V c (Pipeline.arrRef spec1 3) (((cfg1.win 3).blk t).view.emb (ix2 (0 : Fin 1) q)) = V c (Pipeline.arrRef spec1 3) (ix2 (0 : Fin 1) q)
    refine congrArg _ (funext fun a => Fin.ext ?_)
    match a with
    | ⟨0, _⟩ => show win1_3.index t (0 : Fin 2) * 1 + 1 * 0 = 0; omega
    | ⟨1, _⟩ => show win1_3.index t (1 : Fin 2) * 128 + 1 * q.val = q.val; omega
  · intro q
    show V c (Pipeline.arrRef spec1 4) (((cfg1.win 4).blk t).view.emb (ix2 (0 : Fin 1) q)) = V c (Pipeline.arrRef spec1 4) (ix2 (0 : Fin 1) q)
    refine congrArg _ (funext fun a => Fin.ext ?_)
    match a with
    | ⟨0, _⟩ => show win1_4.index t (0 : Fin 2) * 1 + 1 * 0 = 0; omega
    | ⟨1, _⟩ => show win1_4.index t (1 : Fin 2) * 128 + 1 * q.val = q.val; omega

/-- An index of the array is in point `t`'s block iff each coordinate is in the block's range on its axis. -/
theorem mem_blk (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v20).slice (win1_5.rect t)).set ↔ _
  rw [View.set_slice_whole, Rect.mem_set_unit]
  exact Iff.rfl

/-- Every entry of the array is in some point's block: row `r` is in the block of point `r / 5000`. -/
theorem cover (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  have hN : grid1.N = 10 := N_1
  let t : Fin cfg1.N := ⟨(i 0).val / 5000, by show (i 0).val / 5000 < grid1.N; omega⟩
  obtain ⟨e0, e01, e51, e10, e11, e20, e21, e30, e31, e40, e41, e5⟩ := idx_facts t
  have e5' : win1_5.index t (0 : Fin 2) = (i 0).val / 5000 := e5
  refine ⟨t, flush1_5 t, ?_⟩
  rw [mem_blk]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-- The region's result array after the last grid point is the normalised, scaled, shifted and clamped feature
    matrix, whatever the arrays held when the region was entered. -/
theorem h_eq (c : Dev nD) :
    (dat1 (F := Ideal) V c).arrAt 5 cfg1.N
      = ofMat (bnrelu (toMat (V c (Pipeline.arrRef spec1 0) : S50000x128.Idx → EReal))
          (toRow (V c (Pipeline.arrRef spec1 1) : S1x128.Idx → EReal))
          (toRow (V c (Pipeline.arrRef spec1 2) : S1x128.Idx → EReal))
          (toRow (V c (Pipeline.arrRef spec1 3) : S1x128.Idx → EReal))
          (toRow (V c (Pipeline.arrRef spec1 4) : S1x128.Idx → EReal))) :=
  (dat1 (F := Ideal) V c).arrAt_eq_of_cover 5 (G V c) (fun t _ => flushed_eq V c t) cover

end Cert.KernelIdeal.Reg1

end
-- ==== Proof.Reg0Pay.lean ====
/- The three values one grid point of the linear-statistics kernel stores, read entry by entry over the extended
   reals: the block of the linear layer (row r of the sum of the two feature blocks against row c of the weights,
   plus the bias), and the two accumulator rows (what the row held plus the block's column sums, of the entries and of
   their squares).  A change of float format is the identity here, the matrix unit's product into a zero accumulator
   is the plain sum over the contracted coordinate, and the sublane reduction is the sum over the block's rows. -/
import proofs.«108325_j57337813402032_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Reg0

open Idealize.ShloMosaic Idealize.ShloMosaic.ValueIdx Cert.KernelIdeal Cert.KernelIdeal.Gen
open scoped BigOperators

/-- The matrix product's dimension numbers: rows of the left operand against columns of the right. -/
abbrev dotD : DotDims S5000x128 S128x128 S5000x128 := dot_S5000x128_S128x128_S5000x128_1_0_0_1_n_n

theorem lhs_row (i : S5000x128.Idx) (q : dotD.contr.Idx) : (dotD.lhsIdx i q 0).val = (i 0).val := by
  unfold DotDims.lhsIdx
  rw [dif_neg (show ¬(0 : Fin S5000x128.rank) ∈ dotD.lhsBatch by decide),
    dif_pos (show (0 : Fin S5000x128.rank) ∈ dotD.lhsNonContracting by decide)]
  rfl

theorem lhs_col (i : S5000x128.Idx) (q : dotD.contr.Idx) : (dotD.lhsIdx i q 1).val = (q ⟨0, by decide⟩).val :=
  dotD.lhsIdx_val_of_single rfl i q

theorem rhs_row (i : S5000x128.Idx) (q : dotD.contr.Idx) : (dotD.rhsIdx i q 0).val = (q ⟨0, by decide⟩).val :=
  dotD.rhsIdx_val_of_single rfl i q

theorem rhs_col (i : S5000x128.Idx) (q : dotD.contr.Idx) : (dotD.rhsIdx i q 1).val = (i 1).val := by
  unfold DotDims.rhsIdx
  rw [dif_neg (show ¬(1 : Fin S128x128.rank) ∈ dotD.rhsBatch by decide),
    dif_pos (show (1 : Fin S128x128.rank) ∈ dotD.rhsNonContracting by decide)]
  rfl

/-- The product into a zero accumulator at (r, c): the sum over k of left (r, k) times right (k, c). -/
theorem matmul_zero_apply (A : FVec Ideal S5000x128 .bf16) (B : FVec Ideal S128x128 .bf16) (r : Fin 5000) (c : Fin 128) :
    matmul dotD none A B (constant (F := Ideal) S5000x128 .f32 0x00000000#32) (ix2 r c)
      = ∑ k : Fin 128, A (ix2 r k) * B (ix2 k c) := by
  refine (Ideal.matmul_constant_zero_apply dotD none A B (ix2 r c)).trans ?_
  rw [← Equiv.sum_comp (contrEquiv1 dotD 128 rfl rfl).symm]
  refine Finset.sum_congr rfl fun k _ => ?_
  have hk := contrEquiv1_symm_val dotD 128 rfl rfl k
  have el : dotD.lhsIdx (ix2 r c) ((contrEquiv1 dotD 128 rfl rfl).symm k) = ix2 r k := funext fun a => Fin.ext (by
    match a with
    | ⟨0, _⟩ => exact lhs_row _ _
    | ⟨1, _⟩ => exact (lhs_col _ _).trans hk)
  have er : dotD.rhsIdx (ix2 r c) ((contrEquiv1 dotD 128 rfl rfl).symm k) = ix2 k c := funext fun a => Fin.ext (by
    match a with
    | ⟨0, _⟩ => exact (rhs_row _ _).trans hk
    | ⟨1, _⟩ => exact rhs_col _ _)
  rw [el, er]

/-- The linear layer's block at (r, c). -/
theorem pay3_apply (v3 v4 : Vec Ideal S5000x128 .f32) (v8 : Vec Ideal S128x128 .f32) (v12 : Vec Ideal S1x128 .f32)
    (r : Fin 5000) (c : Fin 128) :
    k0_pay3 (F := Ideal) v3 v4 v8 v12 (ix2 r c)
      = (∑ k : Fin 128, (v3 (ix2 r k) + v4 (ix2 r k)) * v8 (ix2 c k)) + v12 (ix2 0 c) := by
  unfold k0_pay3
  simp only [shapeCast_self]
  refine (addf_apply _ _ (ix2 r c)).trans ?_
  refine congrArg₂ (· + ·) ?_ ?_
  · refine (matmul_zero_apply _ _ r c).trans ?_
    refine Finset.sum_congr rfl fun k _ => ?_
    refine congrArg₂ (· * ·) rfl ?_
    exact transpose_ix2_apply _ _ k c
  · exact broadcastTo_1b_ab_apply v12 _ r c

/-- The zero row. -/
theorem pay1_apply (j : S1x128.Idx) : k0_pay1 (F := Ideal) j = 0 := by
  unfold k0_pay1
  exact Ideal.ofBits_zero_f32

theorem pay2_apply (j : S1x128.Idx) : k0_pay2 (F := Ideal) j = 0 := by
  unfold k0_pay2
  exact Ideal.ofBits_zero_f32

/-- The sublane sum of a block, kept as a row: column c's sum over the block's 5000 rows. -/
theorem colsum_apply (x : FVec Ideal S5000x128 .f32) (hacc : (0x00000000#32 : BitVec 32) = 0x00000000#32) (c : Fin 128) :
    shapeCast S1x128 (multiReduction .add [0] S128 x 0x00000000#32 reduces_S5000x128_S128 (.inl rfl) hacc)
        shapeCasts_S128_S1x128 (ix2 (0 : Fin 1) c)
      = ∑ r : Fin 5000, x (ix2 r c) := by
  refine (shapeCast_a_1a_apply _ shapeCasts_S128_S1x128 (0 : Fin 1) c).trans ?_
  refine (Ideal.multiReduction_add_single x 0x00000000#32 reduces_S5000x128_S128 (.inl rfl) hacc (ix1 c)).trans ?_
  refine Finset.sum_congr rfl fun r _ => ?_
  refine congrArg x (funext fun a => Fin.ext ?_)
  match a with
  | ⟨0, _⟩ => rfl
  | ⟨1, _⟩ => rfl

/-- The running column sums: what the row held plus the block's column sums. -/
theorem pay4_apply (v3 v4 : Vec Ideal S5000x128 .f32) (v8 : Vec Ideal S128x128 .f32) (v12 v17 : Vec Ideal S1x128 .f32)
    (c : Fin 128) :
    k0_pay4 (F := Ideal) v3 v4 v8 v12 v17 (ix2 (0 : Fin 1) c)
      = v17 (ix2 0 c) + ∑ r : Fin 5000, k0_pay3 (F := Ideal) v3 v4 v8 v12 (ix2 r c) := by
  unfold k0_pay4
  simp only [shapeCast_self]
  refine (addf_apply _ _ (ix2 (0 : Fin 1) c)).trans ?_
  exact congrArg (v17 (ix2 0 c) + ·) (colsum_apply _ rfl c)

/-- The running column sums of squares. -/
theorem pay5_apply (v3 v4 : Vec Ideal S5000x128 .f32) (v8 : Vec Ideal S128x128 .f32) (v12 v23 : Vec Ideal S1x128 .f32)
    (c : Fin 128) :
    k0_pay5 (F := Ideal) v3 v4 v8 v12 v23 (ix2 (0 : Fin 1) c)
      = v23 (ix2 0 c) + ∑ r : Fin 5000,
          k0_pay3 (F := Ideal) v3 v4 v8 v12 (ix2 r c) * k0_pay3 (F := Ideal) v3 v4 v8 v12 (ix2 r c) := by
  unfold k0_pay5
  simp only [shapeCast_self]
  refine (addf_apply _ _ (ix2 (0 : Fin 1) c)).trans ?_
  exact congrArg (v23 (ix2 0 c) + ·) (colsum_apply _ rfl c)

end Cert.KernelIdeal.Reg0

end
-- ==== Proof.Reg0Blocks.lean ====
/- The blocks one grid point of the first linear-statistics region reads, as entries of the arrays the region finds:
   point t reads rows 5000·t … 5000·t + 4999 of the feature array and of the aggregated-feature array, and the whole
   weight matrix and bias row.  So the block of the linear layer the point computes is rows 5000·t … of the linear
   layer of the whole arrays. -/
import proofs.«108325_j57337813402032_1_alg».proof.Proof.Gen.KernelIdeal.Frame
import proofs.«108325_j57337813402032_1_alg».proof.Proof.Spec
import proofs.«108325_j57337813402032_1_alg».proof.Proof.Reg0Pay

noncomputable section

namespace Cert.KernelIdeal.Reg0

open Idealize.ShloMosaic Idealize.ShloMosaic.TcCoe Idealize.SL.Sem Idealize.ShloMosaic.ValueIdx
open Idealize.ShloMosaic.Pipeline (Dat)
open Cert.KernelIdeal Cert.KernelIdeal.Gen
open scoped BigOperators

variable (V : (c : Dev nD) → (b : Ref sig .tc) → Buf (Elt Ideal) ((c : Thread nD τ).loc b))

/-- The printed index maps, decided over the grid: the two feature windows and the output block move one block of
    rows per point; the weights, the bias and the two accumulator rows stay. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

theorem N_eq : cfg0.N = 10 := N_0

/-- Row r of point t's block is row 5000·t + r of the array. -/
def rowOf (t : Fin cfg0.N) (r : Fin 5000) : Fin 50000 :=
  ⟨5000 * t.val + r.val, by have ht : t.val < 10 := lt_of_lt_of_eq t.isLt N_eq; have := r.isLt; omega⟩

/-- The four arrays the region reads, as it finds them. -/
abbrev arrH (c : Dev nD) : S50000x128.Idx → EReal := V c (Pipeline.arrRef spec0 0)
abbrev arrM (c : Dev nD) : S50000x128.Idx → EReal := V c (Pipeline.arrRef spec0 1)
abbrev arrW (c : Dev nD) : S128x128.Idx → EReal := V c (Pipeline.arrRef spec0 2)
abbrev arrB (c : Dev nD) : S1x128.Idx → EReal := V c (Pipeline.arrRef spec0 3)

/-- The linear layer of the whole arrays. -/
def X (c : Dev nD) : Cert.Spec.Mat 50000 128 :=
  Cert.Spec.lin (Cert.Spec.toMat (arrH V c)) (Cert.Spec.toMat (arrM V c)) (Cert.Spec.toMat (arrW V c))
    (Cert.Spec.toRow (arrB V c))

theorem blk_h (c : Dev nD) (t : Fin cfg0.N) (r : Fin 5000) (k : Fin 128) :
    (iblk0 V c 0 t : Vec Ideal S5000x128 .f32) (ix2 r k) = arrH V c (ix2 (rowOf t r) k) := by
  obtain ⟨e0, e1, -⟩ := idx_facts t
  unfold iblk0
  rw [View.read_apply]
  show arrH V c _ = _
  refine congrArg (arrH V c) (funext fun a => Fin.ext ?_)
  match a with
  | ⟨0, _⟩ => show win0_0.index t (0 : Fin 2) * 5000 + 1 * r.val = 5000 * t.val + r.val; rw [e0]; omega
  | ⟨1, _⟩ => show win0_0.index t (1 : Fin 2) * 128 + 1 * k.val = k.val; rw [e1]; omega

theorem blk_m (c : Dev nD) (t : Fin cfg0.N) (r : Fin 5000) (k : Fin 128) :
    (iblk0 V c 1 t : Vec Ideal S5000x128 .f32) (ix2 r k) = arrM V c (ix2 (rowOf t r) k) := by
  obtain ⟨-, -, e0, e1, -⟩ := idx_facts t
  unfold iblk0
  rw [View.read_apply]
  show arrM V c _ = _
  refine congrArg (arrM V c) (funext fun a => Fin.ext ?_)
  match a with
  | ⟨0, _⟩ => show win0_1.index t (0 : Fin 2) * 5000 + 1 * r.val = 5000 * t.val + r.val; rw [e0]; omega
  | ⟨1, _⟩ => show win0_1.index t (1 : Fin 2) * 128 + 1 * k.val = k.val; rw [e1]; omega

theorem blk_w (c : Dev nD) (t : Fin cfg0.N) (a b : Fin 128) :
    (iblk0 V c 2 t : Vec Ideal S128x128 .f32) (ix2 a b) = arrW V c (ix2 a b) := by
  obtain ⟨-, -, -, -, e0, e1, -⟩ := idx_facts t
  unfold iblk0
  rw [View.read_apply]
  show arrW V c _ = _
  refine congrArg (arrW V c) (funext fun ax => Fin.ext ?_)
  match ax with
  | ⟨0, _⟩ => show win0_2.index t (0 : Fin 2) * 128 + 1 * a.val = a.val; rw [e0]; omega
  | ⟨1, _⟩ => show win0_2.index t (1 : Fin 2) * 128 + 1 * b.val = b.val; rw [e1]; omega

theorem blk_b (c : Dev nD) (t : Fin cfg0.N) (u : Fin 1) (b : Fin 128) :
    (iblk0 V c 3 t : Vec Ideal S1x128 .f32) (ix2 u b) = arrB V c (ix2 u b) := by
  obtain ⟨-, -, -, -, -, -, e0, e1, -⟩ := idx_facts t
  unfold iblk0
  rw [View.read_apply]
  show arrB V c _ = _
  refine congrArg (arrB V c) (funext fun ax => Fin.ext ?_)
  match ax with
  | ⟨0, _⟩ => show win0_3.index t (0 : Fin 2) * 1 + 1 * u.val = u.val; rw [e0]; omega
  | ⟨1, _⟩ => show win0_3.index t (1 : Fin 2) * 128 + 1 * b.val = b.val; rw [e1]; omega

/-- The linear layer of the blocks a point reads, over any four blocks that are those rows of the arrays. -/
theorem pay3_of_blocks (c : Dev nD) (t : Fin cfg0.N) (v3 v4 : Vec Ideal S5000x128 .f32) (v8 : Vec Ideal S128x128 .f32)
    (v12 : Vec Ideal S1x128 .f32)
    (h3 : ∀ (r : Fin 5000) (k : Fin 128), v3 (ix2 r k) = arrH V c (ix2 (rowOf t r) k))
    (h4 : ∀ (r : Fin 5000) (k : Fin 128), v4 (ix2 r k) = arrM V c (ix2 (rowOf t r) k))
    (h8 : ∀ a b : Fin 128, v8 (ix2 a b) = arrW V c (ix2 a b))
    (h12 : ∀ (u : Fin 1) (b : Fin 128), v12 (ix2 u b) = arrB V c (ix2 u b))
    (r : Fin 5000) (cc : Fin 128) :
    k0_pay3 (F := Ideal) v3 v4 v8 v12 (ix2 r cc) = X V c (rowOf t r) cc := by
  refine (pay3_apply v3 v4 v8 v12 r cc).trans ?_
  unfold X Cert.Spec.lin Cert.Spec.toMat Cert.Spec.toRow
  rw [h12]
  refine congrArg (· + arrB V c (ix2 0 cc)) (Finset.sum_congr rfl fun k _ => ?_)
  rw [h3, h4, h8]

/-- The block of the linear layer point t computes is rows 5000·t … of the linear layer of the arrays. -/
theorem pay3_blocks (c : Dev nD) (t : Fin cfg0.N) (r : Fin 5000) (cc : Fin 128) :
    k0_pay3 (F := Ideal) (iblk0 V c 0 t) (iblk0 V c 1 t) (iblk0 V c 2 t) (iblk0 V c 3 t) (ix2 r cc)
      = X V c (rowOf t r) cc :=
  pay3_of_blocks V c t (iblk0 V c 0 t) (iblk0 V c 1 t) (iblk0 V c 2 t) (iblk0 V c 3 t)
    (blk_h V c t) (blk_m V c t) (blk_w V c t) (blk_b V c t) r cc

/-- The same at any entry of the block. -/
theorem pay3_blocks_at (c : Dev nD) (t : Fin cfg0.N) (j : S5000x128.Idx) :
    k0_pay3 (F := Ideal) (iblk0 V c 0 t) (iblk0 V c 1 t) (iblk0 V c 2 t) (iblk0 V c 3 t) j
      = X V c (rowOf t (j 0)) (j 1) := by
  obtain ⟨r, k, rfl⟩ : ∃ (r : Fin 5000) (k : Fin 128), j = ix2 r k := ⟨j 0, j 1, eq_ix2 j⟩
  exact pay3_blocks V c t r k

end Cert.KernelIdeal.Reg0

end
-- ==== Proof.LibBlockSum.lean ====
/- Regrouping a sum over 50000 rows into 10 consecutive blocks of 5000 rows, and the partial sums over the first
   n blocks.  Row number 5000·t + r is row r of block t.  A sum over the rows below 5000·n is the sum, over the blocks
   below n, of each block's sum; passing from n to n + 1 adds block n's sum.  Only commutativity and associativity of
   the addition are used, so the statements hold in every commutative additive monoid. -/
import Mathlib.Algebra.BigOperators.Fin
import Mathlib.Logic.Equiv.Fin.Basic

namespace Cert.RealVal

open scoped BigOperators

variable {M : Type*} [AddCommMonoid M]

/-- Row r of block t, blocks of b rows, lies among the first a·b rows. -/
theorem blk_lt {a b : ℕ} (t : Fin a) (r : Fin b) : b * t.val + r.val < a * b := by
  have h1 : t.val + 1 ≤ a := t.isLt
  have h2 : b * (t.val + 1) ≤ b * a := Nat.mul_le_mul_left b h1
  have h3 := r.isLt
  rw [Nat.mul_add, Nat.mul_one] at h2
  rw [Nat.mul_comm a b]
  omega

/-- A sum over a·b rows is the sum over the a blocks of the sums over each block's b rows. -/
theorem sum_blocks_gen (a b : ℕ) (f : Fin (a * b) → M) :
    ∑ p : Fin (a * b), f p = ∑ t : Fin a, ∑ r : Fin b, f ⟨b * t.val + r.val, blk_lt t r⟩ := by
  rw [← Fintype.sum_prod_type (f := fun x : Fin a × Fin b => f ⟨b * x.1.val + x.2.val, blk_lt x.1 x.2⟩)]
  refine (Fintype.sum_equiv finProdFinEquiv _ _ (fun x => ?_)).symm
  exact congrArg f (Fin.ext (Nat.add_comm _ _))

/-! ## Partial sums over an initial segment of a finite index range -/

/-- Nothing lies below 0. -/
theorem sum_upto_zero {N : ℕ} (F : Fin N → M) :
    ∑ t ∈ Finset.univ.filter (fun t : Fin N => t.val < 0), F t = 0 := by
  rw [Finset.sum_filter]
  exact Finset.sum_eq_zero fun t _ => if_neg (Nat.not_lt_zero _)

/-- Everything lies below the range's length. -/
theorem sum_upto_all {N : ℕ} (F : Fin N → M) :
    ∑ t ∈ Finset.univ.filter (fun t : Fin N => t.val < N), F t = ∑ t : Fin N, F t := by
  rw [Finset.sum_filter]
  exact Finset.sum_congr rfl fun t _ => if_pos t.isLt

/-- The indices below n + 1 are those below n, and n. -/
theorem sum_upto_succ {N : ℕ} (F : Fin N → M) (n : ℕ) (hn : n < N) :
    ∑ t ∈ Finset.univ.filter (fun t : Fin N => t.val < n + 1), F t
      = (∑ t ∈ Finset.univ.filter (fun t : Fin N => t.val < n), F t) + F ⟨n, hn⟩ := by
  have hset : Finset.univ.filter (fun t : Fin N => t.val < n + 1)
      = insert (⟨n, hn⟩ : Fin N) (Finset.univ.filter (fun t : Fin N => t.val < n)) := by
    ext t
    simp only [Finset.mem_filter, Finset.mem_univ, true_and, Finset.mem_insert, Fin.ext_iff]
    omega
  have hnot : (⟨n, hn⟩ : Fin N) ∉ Finset.univ.filter (fun t : Fin N => t.val < n) := by
    simp only [Finset.mem_filter, Finset.mem_univ, true_and]
    exact Nat.lt_irrefl n
  rw [hset, Finset.sum_insert hnot, add_comm]

/-! ## 50000 rows as 10 blocks of 5000 -/

/-- A sum over the 50000 rows is the sum over the 10 blocks of each block's sum over its 5000 rows. -/
theorem sum_blocks (f : Fin 50000 → M) :
    ∑ p : Fin 50000, f p = ∑ t : Fin 10, ∑ r : Fin 5000, f ⟨5000 * t.val + r.val, by omega⟩ :=
  sum_blocks_gen 10 5000 f

/-- The rows below 5000·n are the rows of the blocks below n. -/
theorem sum_blocks_upto (f : Fin 50000 → M) (n : ℕ) (hn : n ≤ 10) :
    ∑ p ∈ Finset.univ.filter (fun p : Fin 50000 => p.val < 5000 * n), f p
      = ∑ t ∈ Finset.univ.filter (fun t : Fin 10 => t.val < n),
          ∑ r : Fin 5000, f ⟨5000 * t.val + r.val, by omega⟩ := by
  rw [Finset.sum_filter, Finset.sum_filter]
  refine (sum_blocks _).trans (Finset.sum_congr rfl fun t _ => ?_)
  by_cases h : t.val < n
  · rw [if_pos h]
    refine Finset.sum_congr rfl fun r _ => if_pos ?_
    show 5000 * t.val + r.val < 5000 * n
    omega
  · rw [if_neg h]
    refine Finset.sum_eq_zero fun r _ => if_neg ?_
    show ¬ (5000 * t.val + r.val < 5000 * n)
    omega

/-- Passing from the rows below 5000·n to the rows below 5000·(n + 1) adds block n's sum. -/
theorem sum_blocks_succ (f : Fin 50000 → M) (n : ℕ) (hn : n < 10) :
    ∑ p ∈ Finset.univ.filter (fun p : Fin 50000 => p.val < 5000 * (n + 1)), f p
      = (∑ p ∈ Finset.univ.filter (fun p : Fin 50000 => p.val < 5000 * n), f p)
        + ∑ r : Fin 5000, f ⟨5000 * n + r.val, by omega⟩ := by
  rw [sum_blocks_upto f (n + 1) hn, sum_blocks_upto f n hn.le]
  exact sum_upto_succ (fun t : Fin 10 => ∑ r : Fin 5000, f ⟨5000 * t.val + r.val, by omega⟩) n hn

/-- No row lies below 0. -/
theorem sum_rows_upto_zero (f : Fin 50000 → M) :
    ∑ p ∈ Finset.univ.filter (fun p : Fin 50000 => p.val < 5000 * 0), f p = 0 :=
  sum_upto_zero f

/-- Every row lies below 5000·10. -/
theorem sum_rows_upto_ten (f : Fin 50000 → M) :
    ∑ p ∈ Finset.univ.filter (fun p : Fin 50000 => p.val < 5000 * 10), f p = ∑ p : Fin 50000, f p :=
  sum_upto_all f

end Cert.RealVal
-- ==== Proof.Reg0Pieces.lean ====
/- What one grid point of the linear-statistics kernel leaves in its three output buffers, as values of the blocks it
   loads: the block of the linear layer, and the two accumulator rows — at the first point computed from the zero
   rows the point has just stored, at the later points from the rows the point before left. -/
import proofs.«108325_j57337813402032_1_alg».proof.Proof.Gen.KernelIdeal.Frame
import Idealize.ShloMosaic.Lib.Pipeline.Value
import Idealize.ShloMosaic.Lib.Tactic

noncomputable section
namespace Cert.KernelIdeal.Reg0
open Idealize.ShloMosaic Idealize.ShloMosaic.TcCoe Idealize.SL.Sem Idealize.ShloMosaic.Tactic
open Idealize.ShloMosaic.Pipeline (Dat)
open Cert.KernelIdeal Cert.KernelIdeal.Gen

variable {F : FTy → Type} [FloatOps F]

theorem hz : (![0, 0] : Fin 2 → Nat) = fun _ => 0 := funext fun a => by fin_cases a <;> rfl

/-- First point, output block: the linear layer of the loaded blocks. -/
theorem out_A_4 (c : Dev nD) (i : grid0.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S5000x128 .f32) (h5 : a5.IsWhole) (a6 : Memref sig .tc .vmem S1x128 .f32) (h6 : a6.IsWhole) (a7 : Memref sig .tc .vmem S1x128 .f32) (h7 : a7.IsWhole) (hc : cond0_0 i) (x0 x1 : Vec F S5000x128 .f32) (x2 : Vec F S128x128 .f32) (x3 : Vec F S1x128 .f32) :
    out0_A_4 c i a1 h1 a2 h2 a3 h3 a4 h4 a5 h5 a6 h6 a7 h7 hc x0 x1 x2 x3 = k0_pay3 x0 x1 x2 x3 := by
  unfold out0_A_4
  rw [View.read_writes_eq_canon _ _ _ (cover0_A_4 c i a1 h1 a2 h2 a3 h3 a4 h4 a5 h5 a6 h6 a7 h7 hc x0 x1 x2 x3)]
  unfold kernelRun0_A
  dsimp only
  rw [View.canon_unit_zero hz]
  simp only [View.readAt_eq_ld, h1.read_unread, h2.read_unread, h3.read_unread, h4.read_unread, h6.read_unread, h7.read_unread, View.ld_unit_zero (S := S5000x128) hz, View.ld_unit_zero (S := S128x128) hz, View.ld_unit_zero (S := S1x128) hz]

/-- First point, sum row: the zero row plus the block's column sums. -/
theorem out_A_5 (c : Dev nD) (i : grid0.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S5000x128 .f32) (h5 : a5.IsWhole) (a6 : Memref sig .tc .vmem S1x128 .f32) (h6 : a6.IsWhole) (a7 : Memref sig .tc .vmem S1x128 .f32) (h7 : a7.IsWhole) (hc : cond0_0 i) (x0 x1 : Vec F S5000x128 .f32) (x2 : Vec F S128x128 .f32) (x3 : Vec F S1x128 .f32) :
    out0_A_5 c i a1 h1 a2 h2 a3 h3 a4 h4 a5 h5 a6 h6 a7 h7 hc x0 x1 x2 x3 = k0_pay4 x0 x1 x2 x3 (k0_pay1 (F := F)) := by
  unfold out0_A_5
  rw [View.read_writes_eq_canon _ _ _ (cover0_A_5 c i a1 h1 a2 h2 a3 h3 a4 h4 a5 h5 a6 h6 a7 h7 hc x0 x1 x2 x3)]
  unfold kernelRun0_A
  dsimp only
  sl_unfold_words
  rw [View.canon_cons_unit_zero (S := S1x128) hz, View.readCov_unit_zero (S := S1x128) _ hz]
  simp only [View.readAt_eq_ld, h1.read_unread, h2.read_unread, h3.read_unread, h4.read_unread, h6.read_unread, h7.read_unread, View.ld_unit_zero (S := S5000x128) hz, View.ld_unit_zero (S := S128x128) hz, View.ld_unit_zero (S := S1x128) hz]

/-- First point, sum-of-squares row. -/
theorem out_A_6 (c : Dev nD) (i : grid0.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S5000x128 .f32) (h5 : a5.IsWhole) (a6 : Memref sig .tc .vmem S1x128 .f32) (h6 : a6.IsWhole) (a7 : Memref sig .tc .vmem S1x128 .f32) (h7 : a7.IsWhole) (hc : cond0_0 i) (x0 x1 : Vec F S5000x128 .f32) (x2 : Vec F S128x128 .f32) (x3 : Vec F S1x128 .f32) :
    out0_A_6 c i a1 h1 a2 h2 a3 h3 a4 h4 a5 h5 a6 h6 a7 h7 hc x0 x1 x2 x3 = k0_pay5 x0 x1 x2 x3 (k0_pay2 (F := F)) := by
  unfold out0_A_6
  rw [View.read_writes_eq_canon _ _ _ (cover0_A_6 c i a1 h1 a2 h2 a3 h3 a4 h4 a5 h5 a6 h6 a7 h7 hc x0 x1 x2 x3)]
  unfold kernelRun0_A
  dsimp only
  sl_unfold_words
  rw [View.canon_cons_unit_zero (S := S1x128) hz, View.readCov_unit_zero (S := S1x128) _ hz]
  simp only [View.readAt_eq_ld, h1.read_unread, h2.read_unread, h3.read_unread, h4.read_unread, h6.read_unread, h7.read_unread, View.ld_unit_zero (S := S5000x128) hz, View.ld_unit_zero (S := S128x128) hz, View.ld_unit_zero (S := S1x128) hz]

/-- Later points, output block. -/
theorem out_B_4 (c : Dev nD) (i : grid0.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S5000x128 .f32) (h5 : a5.IsWhole) (a6 : Memref sig .tc .vmem S1x128 .f32) (h6 : a6.IsWhole) (a7 : Memref sig .tc .vmem S1x128 .f32) (h7 : a7.IsWhole) (hc : ¬cond0_0 i) (x0 x1 : Vec F S5000x128 .f32) (x2 : Vec F S128x128 .f32) (x3 : Vec F S1x128 .f32) (xo5 xo6 : Vec F S1x128 .f32) :
    out0_B_4 c i a1 h1 a2 h2 a3 h3 a4 h4 a5 h5 a6 h6 a7 h7 hc x0 x1 x2 x3 xo5 xo6 = k0_pay3 x0 x1 x2 x3 := by
  unfold out0_B_4
  rw [View.read_writes_eq_canon _ _ _ (cover0_B_4 c i a1 h1 a2 h2 a3 h3 a4 h4 a5 h5 a6 h6 a7 h7 hc x0 x1 x2 x3 xo5 xo6)]
  unfold kernelRun0_B
  dsimp only
  rw [View.canon_unit_zero hz]
  simp only [View.readAt_eq_ld, h1.read_unread, h2.read_unread, h3.read_unread, h4.read_unread, h6.read_unread, h7.read_unread, View.ld_unit_zero (S := S5000x128) hz, View.ld_unit_zero (S := S128x128) hz, View.ld_unit_zero (S := S1x128) hz]

/-- Later points, sum row: the row carried over plus the block's column sums. -/
theorem out_B_5 (c : Dev nD) (i : grid0.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S5000x128 .f32) (h5 : a5.IsWhole) (a6 : Memref sig .tc .vmem S1x128 .f32) (h6 : a6.IsWhole) (a7 : Memref sig .tc .vmem S1x128 .f32) (h7 : a7.IsWhole) (hc : ¬cond0_0 i) (x0 x1 : Vec F S5000x128 .f32) (x2 : Vec F S128x128 .f32) (x3 : Vec F S1x128 .f32) (xo5 xo6 : Vec F S1x128 .f32) :
    out0_B_5 c i a1 h1 a2 h2 a3 h3 a4 h4 a5 h5 a6 h6 a7 h7 hc x0 x1 x2 x3 xo5 xo6 = k0_pay4 x0 x1 x2 x3 xo5 := by
  unfold out0_B_5
  rw [View.read_writes_eq_canon _ _ _ (cover0_B_5 c i a1 h1 a2 h2 a3 h3 a4 h4 a5 h5 a6 h6 a7 h7 hc x0 x1 x2 x3 xo5 xo6)]
  unfold kernelRun0_B
  dsimp only
  rw [View.canon_unit_zero hz]
  simp only [View.readAt_eq_ld, h1.read_unread, h2.read_unread, h3.read_unread, h4.read_unread, h6.read_unread, h7.read_unread, View.ld_unit_zero (S := S5000x128) hz, View.ld_unit_zero (S := S128x128) hz, View.ld_unit_zero (S := S1x128) hz]

/-- Later points, sum-of-squares row. -/
theorem out_B_6 (c : Dev nD) (i : grid0.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S5000x128 .f32) (h5 : a5.IsWhole) (a6 : Memref sig .tc .vmem S1x128 .f32) (h6 : a6.IsWhole) (a7 : Memref sig .tc .vmem S1x128 .f32) (h7 : a7.IsWhole) (hc : ¬cond0_0 i) (x0 x1 : Vec F S5000x128 .f32) (x2 : Vec F S128x128 .f32) (x3 : Vec F S1x128 .f32) (xo5 xo6 : Vec F S1x128 .f32) :
    out0_B_6 c i a1 h1 a2 h2 a3 h3 a4 h4 a5 h5 a6 h6 a7 h7 hc x0 x1 x2 x3 xo5 xo6 = k0_pay5 x0 x1 x2 x3 xo6 := by
  unfold out0_B_6
  rw [View.read_writes_eq_canon _ _ _ (cover0_B_6 c i a1 h1 a2 h2 a3 h3 a4 h4 a5 h5 a6 h6 a7 h7 hc x0 x1 x2 x3 xo5 xo6)]
  unfold kernelRun0_B
  dsimp only
  rw [View.canon_unit_zero hz]
  simp only [View.readAt_eq_ld, h1.read_unread, h2.read_unread, h3.read_unread, h4.read_unread, h6.read_unread, h7.read_unread, View.ld_unit_zero (S := S5000x128) hz, View.ld_unit_zero (S := S128x128) hz, View.ld_unit_zero (S := S1x128) hz]

end Cert.KernelIdeal.Reg0
end
-- ==== Proof.Reg0Acc.lean ====
/- The two accumulator rows of the first linear-statistics region, point by point: after point n the sum row holds,
   column by column, the sum of the linear layer over the first 5000·(n + 1) rows, and the other row the sum of its
   squares.  The first point starts from the zero rows it stores; each later point adds its block's column sums to
   what the point before left.  Addition of extended reals is associative, so the running sum over blocks is the
   sum over rows. -/
import proofs.«108325_j57337813402032_1_alg».proof.Proof.Gen.KernelIdeal.Frame
import proofs.«108325_j57337813402032_1_alg».proof.Proof.Spec
import proofs.«108325_j57337813402032_1_alg».proof.Proof.LibBlockSum
import proofs.«108325_j57337813402032_1_alg».proof.Proof.Reg0Pay
import proofs.«108325_j57337813402032_1_alg».proof.Proof.Reg0Pieces
import proofs.«108325_j57337813402032_1_alg».proof.Proof.Reg0Blocks

noncomputable section

namespace Cert.KernelIdeal.Reg0

open Idealize.ShloMosaic Idealize.ShloMosaic.TcCoe Idealize.SL.Sem Idealize.ShloMosaic.ValueIdx
open Idealize.ShloMosaic.Pipeline (Dat)
open Cert.KernelIdeal Cert.KernelIdeal.Gen
open scoped BigOperators

variable (V : (c : Dev nD) → (b : Ref sig .tc) → Buf (Elt Ideal) ((c : Thread nD τ).loc b))

/-- The column sums of the first 5000·n rows of a matrix, as a row. -/
def rowsUpto (f : Cert.Spec.Mat 50000 128) (n : ℕ) : S1x128.Idx → EReal :=
  fun j => ∑ p ∈ Finset.univ.filter (fun p : Fin 50000 => p.val < 5000 * n), f p (j 1)

/-- The entrywise square of a matrix. -/
def sqr (f : Cert.Spec.Mat 50000 128) : Cert.Spec.Mat 50000 128 := fun p c => f p c * f p c

theorem rowsUpto_zero (f : Cert.Spec.Mat 50000 128) (j : S1x128.Idx) : rowsUpto f 0 j = 0 :=
  Cert.RealVal.sum_rows_upto_zero (fun p => f p (j 1))

theorem rowsUpto_succ (f : Cert.Spec.Mat 50000 128) (t : Fin cfg0.N) (cc : Fin 128) :
    rowsUpto f (t.val + 1) (ix2 (0 : Fin 1) cc)
      = rowsUpto f t.val (ix2 (0 : Fin 1) cc) + ∑ r : Fin 5000, f (rowOf t r) cc :=
  Cert.RealVal.sum_blocks_succ (fun p => f p cc) t.val (lt_of_lt_of_eq t.isLt N_eq)

theorem rowsUpto_ten (f : Cert.Spec.Mat 50000 128) (cc : Fin 128) :
    rowsUpto f 10 (ix2 (0 : Fin 1) cc) = ∑ p : Fin 50000, f p cc :=
  Cert.RealVal.sum_rows_upto_ten (fun p => f p cc)

/-- After the last point the row holds the sums over all rows. -/
theorem rowsUpto_last (f : Cert.Spec.Mat 50000 128) (n : ℕ) (hn : n = 9) (j : S1x128.Idx) :
    rowsUpto f (n + 1) j = ∑ p : Fin 50000, f p (j 1) := by
  subst hn
  exact Cert.RealVal.sum_rows_upto_ten (fun p => f p (j 1))

/-- What the first point leaves: the block, and the two rows from zero. -/
theorem outs_A (c : Dev nD) (t : Fin cfg0.N) (h0 : t.val % 10 = 0) :
    outsAt0 V c t.val t.isLt
      = (k0_pay3 (F := Ideal) (iblk0 V c 0 t) (iblk0 V c 1 t) (iblk0 V c 2 t) (iblk0 V c 3 t),
         k0_pay4 (F := Ideal) (iblk0 V c 0 t) (iblk0 V c 1 t) (iblk0 V c 2 t) (iblk0 V c 3 t) (k0_pay1 (F := Ideal)),
         k0_pay5 (F := Ideal) (iblk0 V c 0 t) (iblk0 V c 1 t) (iblk0 V c 2 t) (iblk0 V c 3 t) (k0_pay2 (F := Ideal))) := by
  rw [outsAt0_A V c t h0]
  exact congrArg₂ Prod.mk (out_A_4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk0 V c 0 t) (iblk0 V c 1 t) (iblk0 V c 2 t) (iblk0 V c 3 t))
    (congrArg₂ Prod.mk (out_A_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk0 V c 0 t) (iblk0 V c 1 t) (iblk0 V c 2 t) (iblk0 V c 3 t))
      (out_A_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk0 V c 0 t) (iblk0 V c 1 t) (iblk0 V c 2 t) (iblk0 V c 3 t)))

/-- What a later point leaves: the block, and the two rows from what the point before left. -/
theorem outs_B (c : Dev nD) (t : Fin cfg0.N) (h0 : ¬t.val % 10 = 0) :
    outsAt0 V c t.val t.isLt
      = (k0_pay3 (F := Ideal) (iblk0 V c 0 t) (iblk0 V c 1 t) (iblk0 V c 2 t) (iblk0 V c 3 t),
         k0_pay4 (F := Ideal) (iblk0 V c 0 t) (iblk0 V c 1 t) (iblk0 V c 2 t) (iblk0 V c 3 t) (outsAt0 V c (t.val - 1) (Nat.lt_of_le_of_lt (Nat.sub_le _ _) t.isLt)).2.1,
         k0_pay5 (F := Ideal) (iblk0 V c 0 t) (iblk0 V c 1 t) (iblk0 V c 2 t) (iblk0 V c 3 t) (outsAt0 V c (t.val - 1) (Nat.lt_of_le_of_lt (Nat.sub_le _ _) t.isLt)).2.2) := by
  rw [outsAt0_B V c t h0]
  exact congrArg₂ Prod.mk
    (out_B_4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk0 V c 0 t) (iblk0 V c 1 t) (iblk0 V c 2 t) (iblk0 V c 3 t) (outsAt0 V c (t.val - 1) (Nat.lt_of_le_of_lt (Nat.sub_le _ _) t.isLt)).2.1 (outsAt0 V c (t.val - 1) (Nat.lt_of_le_of_lt (Nat.sub_le _ _) t.isLt)).2.2)
    (congrArg₂ Prod.mk
      (out_B_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk0 V c 0 t) (iblk0 V c 1 t) (iblk0 V c 2 t) (iblk0 V c 3 t) (outsAt0 V c (t.val - 1) (Nat.lt_of_le_of_lt (Nat.sub_le _ _) t.isLt)).2.1 (outsAt0 V c (t.val - 1) (Nat.lt_of_le_of_lt (Nat.sub_le _ _) t.isLt)).2.2)
      (out_B_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk0 V c 0 t) (iblk0 V c 1 t) (iblk0 V c 2 t) (iblk0 V c 3 t) (outsAt0 V c (t.val - 1) (Nat.lt_of_le_of_lt (Nat.sub_le _ _) t.isLt)).2.1 (outsAt0 V c (t.val - 1) (Nat.lt_of_le_of_lt (Nat.sub_le _ _) t.isLt)).2.2))

/-- At every point the output block is the linear layer of the point's blocks. -/
theorem outs_block (c : Dev nD) (t : Fin cfg0.N) :
    (outsAt0 V c t.val t.isLt).1 = k0_pay3 (F := Ideal) (iblk0 V c 0 t) (iblk0 V c 1 t) (iblk0 V c 2 t) (iblk0 V c 3 t) := by
  by_cases h0 : t.val % 10 = 0
  · rw [outs_A V c t h0]
  · rw [outs_B V c t h0]

/-- One step of a row: a row holding the sums over the rows before point t, plus the column sums of a block that is
    point t's rows of f, holds the sums over the rows up to and including point t's. -/
theorem row_step (f : Cert.Spec.Mat 50000 128) (t : Fin cfg0.N) (prev : S1x128.Idx → EReal) (g : Fin 5000 → Fin 128 → EReal)
    (hprev : prev = rowsUpto f t.val) (hg : ∀ r cc, g r cc = f (rowOf t r) cc) (cc : Fin 128) :
    prev (ix2 (0 : Fin 1) cc) + ∑ r : Fin 5000, g r cc = rowsUpto f (t.val + 1) (ix2 (0 : Fin 1) cc) := by
  rw [rowsUpto_succ, hprev]
  exact congrArg (rowsUpto f t.val (ix2 (0 : Fin 1) cc) + ·) (Finset.sum_congr rfl fun r _ => hg r cc)

/-- A row is determined by its entries along the one row. -/
theorem row_ext (a b : S1x128.Idx → EReal) (h : ∀ cc : Fin 128, a (ix2 (0 : Fin 1) cc) = b (ix2 (0 : Fin 1) cc)) : a = b := by
  funext j
  obtain ⟨u, cc, rfl⟩ : ∃ (u : Fin 1) (cc : Fin 128), j = ix2 u cc := ⟨j 0, j 1, eq_ix2 j⟩
  obtain rfl : u = 0 := Subsingleton.elim _ _
  exact h cc

/-- The rows after point n: the column sums, and the column sums of squares, over the first 5000·(n + 1) rows. -/
theorem outs_rows (c : Dev nD) : ∀ (n : ℕ) (h : n < cfg0.N),
    (outsAt0 V c n h).2.1 = rowsUpto (X V c) (n + 1) ∧ (outsAt0 V c n h).2.2 = rowsUpto (sqr (X V c)) (n + 1)
  | 0, h => by
    have e : outsAt0 V c 0 h = _ := outs_A V c ⟨0, h⟩ rfl
    rw [e]
    refine ⟨row_ext _ _ fun cc => ?_, row_ext _ _ fun cc => ?_⟩
    · refine (pay4_apply _ _ _ _ _ cc).trans ?_
      exact row_step (X V c) ⟨0, h⟩ _ (fun r cc => k0_pay3 (F := Ideal) (iblk0 V c 0 ⟨0, h⟩) (iblk0 V c 1 ⟨0, h⟩) (iblk0 V c 2 ⟨0, h⟩) (iblk0 V c 3 ⟨0, h⟩) (ix2 r cc))
        (funext fun j => (pay1_apply j).trans (rowsUpto_zero _ j).symm) (fun r cc => pay3_blocks V c ⟨0, h⟩ r cc) cc
    · refine (pay5_apply _ _ _ _ _ cc).trans ?_
      exact row_step (sqr (X V c)) ⟨0, h⟩ _
        (fun r cc => k0_pay3 (F := Ideal) (iblk0 V c 0 ⟨0, h⟩) (iblk0 V c 1 ⟨0, h⟩) (iblk0 V c 2 ⟨0, h⟩) (iblk0 V c 3 ⟨0, h⟩) (ix2 r cc) * k0_pay3 (F := Ideal) (iblk0 V c 0 ⟨0, h⟩) (iblk0 V c 1 ⟨0, h⟩) (iblk0 V c 2 ⟨0, h⟩) (iblk0 V c 3 ⟨0, h⟩) (ix2 r cc))
        (funext fun j => (pay2_apply j).trans (rowsUpto_zero _ j).symm)
        (fun r cc => by rw [pay3_blocks V c ⟨0, h⟩ r cc]; rfl) cc
  | n + 1, h => by
    have hN : cfg0.N = 10 := N_eq
    have hB : ¬(⟨n + 1, h⟩ : Fin cfg0.N).val % 10 = 0 := by dsimp only; omega
    have ih := outs_rows c n (Nat.lt_of_succ_lt h)
    have e : outsAt0 V c (n + 1) h = _ := outs_B V c ⟨n + 1, h⟩ hB
    rw [e]
    refine ⟨row_ext _ _ fun cc => ?_, row_ext _ _ fun cc => ?_⟩
    · refine (pay4_apply _ _ _ _ _ cc).trans ?_
      exact row_step (X V c) ⟨n + 1, h⟩ _ (fun r cc => k0_pay3 (F := Ideal) (iblk0 V c 0 ⟨n + 1, h⟩) (iblk0 V c 1 ⟨n + 1, h⟩) (iblk0 V c 2 ⟨n + 1, h⟩) (iblk0 V c 3 ⟨n + 1, h⟩) (ix2 r cc))
        ih.1 (fun r cc => pay3_blocks V c ⟨n + 1, h⟩ r cc) cc
    · refine (pay5_apply _ _ _ _ _ cc).trans ?_
      exact row_step (sqr (X V c)) ⟨n + 1, h⟩ _
        (fun r cc => k0_pay3 (F := Ideal) (iblk0 V c 0 ⟨n + 1, h⟩) (iblk0 V c 1 ⟨n + 1, h⟩) (iblk0 V c 2 ⟨n + 1, h⟩) (iblk0 V c 3 ⟨n + 1, h⟩) (ix2 r cc) * k0_pay3 (F := Ideal) (iblk0 V c 0 ⟨n + 1, h⟩) (iblk0 V c 1 ⟨n + 1, h⟩) (iblk0 V c 2 ⟨n + 1, h⟩) (iblk0 V c 3 ⟨n + 1, h⟩) (ix2 r cc))
        ih.2 (fun r cc => by rw [pay3_blocks V c ⟨n + 1, h⟩ r cc]; rfl) cc

end Cert.KernelIdeal.Reg0

end
-- ==== Proof.Reg0Value.lean ====
/- The three arrays the first linear-statistics region leaves: the linear layer of the whole feature arrays, block by
   block (point t writes rows 5000·t …, and the ten blocks tile the 50000 rows), and the two accumulator rows, written
   back once after the last point, holding each column's sum and sum of squares over all 50000 rows. -/
import proofs.«108325_j57337813402032_1_alg».proof.Proof.Gen.KernelIdeal.Frame
import proofs.«108325_j57337813402032_1_alg».proof.Proof.Spec
import proofs.«108325_j57337813402032_1_alg».proof.Proof.Reg0Blocks
import proofs.«108325_j57337813402032_1_alg».proof.Proof.Reg0Acc
import Idealize.ShloMosaic.Lib.Pipeline.Value

noncomputable section

namespace Cert.KernelIdeal.Reg0

open Idealize.ShloMosaic Idealize.ShloMosaic.TcCoe Idealize.SL.Sem Idealize.ShloMosaic.ValueIdx
open Idealize.ShloMosaic.Pipeline (Dat)
open Cert.KernelIdeal Cert.KernelIdeal.Gen
open scoped BigOperators

variable (V : (c : Dev nD) → (b : Ref sig .tc) → Buf (Elt Ideal) ((c : Thread nD τ).loc b))

/-! ## The output block -/

/-- What point t writes back of the output is rows 5000·t … of the linear layer of the arrays. -/
theorem flushed_x (c : Dev nD) (t : Fin cfg0.N) :
    (dat0 V c).flushed 4 t = ((cfg0.win 4).blk t).view.read (Elt Ideal) (Cert.Spec.ofMat (X V c)) := by
  obtain ⟨-, -, -, -, -, -, -, -, e0, e1, -⟩ := idx_facts t
  show (cfg0.win 4).cut (grid0.coords t) ((dat0 V c).after 4 t) = _
  rw [after0_4, outs_block V c t]
  funext j
  refine (pay3_blocks_at V c t j).trans ?_
  show X V c (rowOf t (j 0)) (j 1) = Cert.Spec.ofMat (X V c) (((cfg0.win 4).blk t).view.emb j)
  unfold Cert.Spec.ofMat
  refine congrArg₂ (X V c) (Fin.ext ?_) (Fin.ext ?_)
  · show 5000 * t.val + (j 0).val = win0_4.index t (0 : Fin 2) * 5000 + 1 * (j 0).val
    rw [e0]; omega
  · show (j 1).val = win0_4.index t (1 : Fin 2) * 128 + 1 * (j 1).val
    rw [e1]; omega

/-- Every row lies in the block of the point its number divided by 5000 names. -/
theorem cover_x (i : S50000x128.Idx) :
    ∃ t : Fin cfg0.N, (cfg0.win 4).flush t = true ∧ i ∈ ((cfg0.win 4).blk t).view.set := by
  have h0 : (i 0).val < 50000 := (i 0).isLt
  have h1 : (i 1).val < 128 := (i 1).isLt
  have ht : (i 0).val / 5000 < cfg0.N := lt_of_lt_of_eq (by omega : (i 0).val / 5000 < 10) N_eq.symm
  obtain ⟨-, -, -, -, -, -, -, -, e0, e1, -⟩ := idx_facts ⟨(i 0).val / 5000, ht⟩
  refine ⟨⟨(i 0).val / 5000, ht⟩, flush0_4 _, ?_⟩
  show i ∈ ((View.whole main_v11_0).slice (win0_4.rect ⟨(i 0).val / 5000, ht⟩)).set
  rw [View.set_slice_whole, Rect.mem_set_unit]
  intro a
  match a with
  | ⟨0, _⟩ =>
    show win0_4.index ⟨(i 0).val / 5000, ht⟩ (0 : Fin 2) * 5000 ≤ (i 0).val
      ∧ (i 0).val < win0_4.index ⟨(i 0).val / 5000, ht⟩ (0 : Fin 2) * 5000 + 5000
    rw [e0]; dsimp only; omega
  | ⟨1, _⟩ =>
    show win0_4.index ⟨(i 0).val / 5000, ht⟩ (1 : Fin 2) * 128 ≤ (i 1).val
      ∧ (i 1).val < win0_4.index ⟨(i 0).val / 5000, ht⟩ (1 : Fin 2) * 128 + 128
    rw [e1]; omega

/-- The output array after the region: the linear layer of the arrays the region found. -/
theorem x_eq' (c : Dev nD) : (dat0 (F := Ideal) V c).arrAt 4 cfg0.N = Cert.Spec.ofMat (X V c) :=
  (dat0 V c).arrAt_eq_of_cover 4 (Cert.Spec.ofMat (X V c)) (fun t _ => flushed_x V c t) cover_x

/-! ## The two accumulator rows -/

/-- After the last point a row of running sums, read at any entry of its one row, is the column's sum over all
    rows. -/
theorem row_last_read (f : Cert.Spec.Mat 50000 128) (g : Cert.Spec.Row 128)
    (hg : ∀ cc : Fin 128, g cc = ∑ p : Fin 50000, f p cc) (n : ℕ) (hn : n = 9) (j i : S1x128.Idx)
    (hi : (j 1).val = (i 1).val) : rowsUpto f (n + 1) j = Cert.Spec.ofRow g i :=
  calc rowsUpto f (n + 1) j = ∑ p : Fin 50000, f p (j 1) := rowsUpto_last f n hn j
    _ = ∑ p : Fin 50000, f p (i 1) := congrArg (fun q : Fin 128 => ∑ p : Fin 50000, f p q) (Fin.ext hi)
    _ = g (i 1) := (hg (i 1)).symm

theorem colsum_apply' (f : Cert.Spec.Mat 50000 128) (cc : Fin 128) :
    Cert.Spec.colsum f cc = ∑ p : Fin 50000, f p cc := by
  unfold Cert.Spec.colsum; rfl

theorem colsumsq_apply' (f : Cert.Spec.Mat 50000 128) (cc : Fin 128) :
    Cert.Spec.colsumsq f cc = ∑ p : Fin 50000, sqr f p cc := by
  unfold Cert.Spec.colsumsq sqr; rfl

-- from here on the running sums are used through their lemmas only
attribute [local irreducible] rowsUpto

/-- The one write-back of the sum row, after the last point, writes the column sums over all rows. -/
theorem flushed_sum (c : Dev nD) (t : Fin cfg0.N) (hf : (cfg0.win 5).flush t = true) :
    (dat0 V c).flushed 5 t
      = ((cfg0.win 5).blk t).view.read (Elt Ideal) (Cert.Spec.ofRow (Cert.Spec.colsum (X V c))) := by
  have h9 : t.val % 10 = 9 := (flush0_5 t).mp hf
  have ht : t.val < 10 := lt_of_lt_of_eq t.isLt N_eq
  obtain ⟨-, -, -, -, -, -, -, -, -, -, e0, e1, -⟩ := idx_facts t
  have hg := colsum_apply' (X V c)
  generalize Cert.Spec.colsum (X V c) = g at hg ⊢
  show (cfg0.win 5).cut (grid0.coords t) ((dat0 V c).after 5 t) = _
  rw [after0_5, (outs_rows V c t.val t.isLt).1]
  funext j
  have hi : (j 1).val = ((((cfg0.win 5).blk t).view.emb j) 1).val := by
    show (j 1).val = win0_5.index t (1 : Fin 2) * 128 + 1 * (j 1).val
    rw [e1]; omega
  have k := row_last_read (X V c) g hg t.val (by omega) j (((cfg0.win 5).blk t).view.emb j) hi
  exact k

theorem cover_sum (i : S1x128.Idx) :
    ∃ t : Fin cfg0.N, (cfg0.win 5).flush t = true ∧ i ∈ ((cfg0.win 5).blk t).view.set := by
  have h0 : (i 0).val < 1 := (i 0).isLt
  have h1 : (i 1).val < 128 := (i 1).isLt
  obtain ⟨-, -, -, -, -, -, -, -, -, -, e0, e1, -⟩ := idx_facts t0_9
  refine ⟨t0_9, (flush0_5 t0_9).mpr rfl, ?_⟩
  show i ∈ ((View.whole main_v11_1).slice (win0_5.rect t0_9)).set
  rw [View.set_slice_whole, Rect.mem_set_unit]
  intro a
  match a with
  | ⟨0, _⟩ =>
    show win0_5.index t0_9 (0 : Fin 2) * 1 ≤ (i 0).val ∧ (i 0).val < win0_5.index t0_9 (0 : Fin 2) * 1 + 1
    rw [e0]; omega
  | ⟨1, _⟩ =>
    show win0_5.index t0_9 (1 : Fin 2) * 128 ≤ (i 1).val ∧ (i 1).val < win0_5.index t0_9 (1 : Fin 2) * 128 + 128
    rw [e1]; omega

/-- The sum row after the region: each column's sum of the linear layer over all rows. -/
theorem sum_eq' (c : Dev nD) :
    (dat0 (F := Ideal) V c).arrAt 5 cfg0.N = Cert.Spec.ofRow (Cert.Spec.colsum (X V c)) :=
  (dat0 V c).arrAt_eq_of_cover 5 (Cert.Spec.ofRow (Cert.Spec.colsum (X V c))) (flushed_sum V c) cover_sum

/-- The one write-back of the sum-of-squares row writes the column sums of squares over all rows. -/
theorem flushed_sumsq (c : Dev nD) (t : Fin cfg0.N) (hf : (cfg0.win 6).flush t = true) :
    (dat0 V c).flushed 6 t
      = ((cfg0.win 6).blk t).view.read (Elt Ideal) (Cert.Spec.ofRow (Cert.Spec.colsumsq (X V c))) := by
  have h9 : t.val % 10 = 9 := (flush0_6 t).mp hf
  have ht : t.val < 10 := lt_of_lt_of_eq t.isLt N_eq
  obtain ⟨-, -, -, -, -, -, -, -, -, -, -, -, e0, e1⟩ := idx_facts t
  have hg := colsumsq_apply' (X V c)
  generalize Cert.Spec.colsumsq (X V c) = g at hg ⊢
  show (cfg0.win 6).cut (grid0.coords t) ((dat0 V c).after 6 t) = _
  rw [after0_6, (outs_rows V c t.val t.isLt).2]
  funext j
  have hi : (j 1).val = ((((cfg0.win 6).blk t).view.emb j) 1).val := by
    show (j 1).val = win0_6.index t (1 : Fin 2) * 128 + 1 * (j 1).val
    rw [e1]; omega
  have k := row_last_read (sqr (X V c)) g hg t.val (by omega) j (((cfg0.win 6).blk t).view.emb j) hi
  exact k

theorem cover_sumsq (i : S1x128.Idx) :
    ∃ t : Fin cfg0.N, (cfg0.win 6).flush t = true ∧ i ∈ ((cfg0.win 6).blk t).view.set := by
  have h0 : (i 0).val < 1 := (i 0).isLt
  have h1 : (i 1).val < 128 := (i 1).isLt
  obtain ⟨-, -, -, -, -, -, -, -, -, -, -, -, e0, e1⟩ := idx_facts t0_9
  refine ⟨t0_9, (flush0_6 t0_9).mpr rfl, ?_⟩
  show i ∈ ((View.whole main_v11_2).slice (win0_6.rect t0_9)).set
  rw [View.set_slice_whole, Rect.mem_set_unit]
  intro a
  match a with
  | ⟨0, _⟩ =>
    show win0_6.index t0_9 (0 : Fin 2) * 1 ≤ (i 0).val ∧ (i 0).val < win0_6.index t0_9 (0 : Fin 2) * 1 + 1
    rw [e0]; omega
  | ⟨1, _⟩ =>
    show win0_6.index t0_9 (1 : Fin 2) * 128 ≤ (i 1).val ∧ (i 1).val < win0_6.index t0_9 (1 : Fin 2) * 128 + 128
    rw [e1]; omega

/-- The sum-of-squares row after the region. -/
theorem sumsq_eq' (c : Dev nD) :
    (dat0 (F := Ideal) V c).arrAt 6 cfg0.N = Cert.Spec.ofRow (Cert.Spec.colsumsq (X V c)) :=
  (dat0 V c).arrAt_eq_of_cover 6 (Cert.Spec.ofRow (Cert.Spec.colsumsq (X V c))) (flushed_sumsq V c) cover_sumsq

/-! ## The same, with the linear layer written out over the arrays the region finds -/

theorem x_eq (c : Dev nD) :
    (dat0 (F := Ideal) V c).arrAt 4 cfg0.N
      = Cert.Spec.ofMat (Cert.Spec.lin
          (Cert.Spec.toMat (V c (Pipeline.arrRef spec0 0) : S50000x128.Idx → EReal))
          (Cert.Spec.toMat (V c (Pipeline.arrRef spec0 1) : S50000x128.Idx → EReal))
          (Cert.Spec.toMat (V c (Pipeline.arrRef spec0 2) : S128x128.Idx → EReal))
          (Cert.Spec.toRow (V c (Pipeline.arrRef spec0 3) : S1x128.Idx → EReal))) :=
  x_eq' V c

theorem sum_eq (c : Dev nD) :
    (dat0 (F := Ideal) V c).arrAt 5 cfg0.N
      = Cert.Spec.ofRow (Cert.Spec.colsum (Cert.Spec.lin
          (Cert.Spec.toMat (V c (Pipeline.arrRef spec0 0) : S50000x128.Idx → EReal))
          (Cert.Spec.toMat (V c (Pipeline.arrRef spec0 1) : S50000x128.Idx → EReal))
          (Cert.Spec.toMat (V c (Pipeline.arrRef spec0 2) : S128x128.Idx → EReal))
          (Cert.Spec.toRow (V c (Pipeline.arrRef spec0 3) : S1x128.Idx → EReal)))) :=
  sum_eq' V c

theorem sumsq_eq (c : Dev nD) :
    (dat0 (F := Ideal) V c).arrAt 6 cfg0.N
      = Cert.Spec.ofRow (Cert.Spec.colsumsq (Cert.Spec.lin
          (Cert.Spec.toMat (V c (Pipeline.arrRef spec0 0) : S50000x128.Idx → EReal))
          (Cert.Spec.toMat (V c (Pipeline.arrRef spec0 1) : S50000x128.Idx → EReal))
          (Cert.Spec.toMat (V c (Pipeline.arrRef spec0 2) : S128x128.Idx → EReal))
          (Cert.Spec.toRow (V c (Pipeline.arrRef spec0 3) : S1x128.Idx → EReal)))) :=
  sumsq_eq' V c

end Cert.KernelIdeal.Reg0

end
-- ==== Proof.Reg2Pay.lean ====
/- The three values one grid point of the second layer's linear-statistics kernel stores, read entry by entry over the extended
   reals: the block of the linear layer (row r of the sum of the two feature blocks against row c of the weights,
   plus the bias), and the two accumulator rows (what the row held plus the block's column sums, of the entries and of
   their squares).  A change of float format is the identity here, the matrix unit's product into a zero accumulator
   is the plain sum over the contracted coordinate, and the sublane reduction is the sum over the block's rows. -/
import proofs.«108325_j57337813402032_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Reg2

open Idealize.ShloMosaic Idealize.ShloMosaic.ValueIdx Cert.KernelIdeal Cert.KernelIdeal.Gen
open scoped BigOperators

/-- The matrix product's dimension numbers: rows of the left operand against columns of the right. -/
abbrev dotD : DotDims S5000x128 S128x128 S5000x128 := dot_S5000x128_S128x128_S5000x128_1_0_0_1_n_n

theorem lhs_row (i : S5000x128.Idx) (q : dotD.contr.Idx) : (dotD.lhsIdx i q 0).val = (i 0).val := by
  unfold DotDims.lhsIdx
  rw [dif_neg (show ¬(0 : Fin S5000x128.rank) ∈ dotD.lhsBatch by decide),
    dif_pos (show (0 : Fin S5000x128.rank) ∈ dotD.lhsNonContracting by decide)]
  rfl

theorem lhs_col (i : S5000x128.Idx) (q : dotD.contr.Idx) : (dotD.lhsIdx i q 1).val = (q ⟨0, by decide⟩).val :=
  dotD.lhsIdx_val_of_single rfl i q

theorem rhs_row (i : S5000x128.Idx) (q : dotD.contr.Idx) : (dotD.rhsIdx i q 0).val = (q ⟨0, by decide⟩).val :=
  dotD.rhsIdx_val_of_single rfl i q

theorem rhs_col (i : S5000x128.Idx) (q : dotD.contr.Idx) : (dotD.rhsIdx i q 1).val = (i 1).val := by
  unfold DotDims.rhsIdx
  rw [dif_neg (show ¬(1 : Fin S128x128.rank) ∈ dotD.rhsBatch by decide),
    dif_pos (show (1 : Fin S128x128.rank) ∈ dotD.rhsNonContracting by decide)]
  rfl

/-- The product into a zero accumulator at (r, c): the sum over k of left (r, k) times right (k, c). -/
theorem matmul_zero_apply (A : FVec Ideal S5000x128 .bf16) (B : FVec Ideal S128x128 .bf16) (r : Fin 5000) (c : Fin 128) :
    matmul dotD none A B (constant (F := Ideal) S5000x128 .f32 0x00000000#32) (ix2 r c)
      = ∑ k : Fin 128, A (ix2 r k) * B (ix2 k c) := by
  refine (Ideal.matmul_constant_zero_apply dotD none A B (ix2 r c)).trans ?_
  rw [← Equiv.sum_comp (contrEquiv1 dotD 128 rfl rfl).symm]
  refine Finset.sum_congr rfl fun k _ => ?_
  have hk := contrEquiv1_symm_val dotD 128 rfl rfl k
  have el : dotD.lhsIdx (ix2 r c) ((contrEquiv1 dotD 128 rfl rfl).symm k) = ix2 r k := funext fun a => Fin.ext (by
    match a with
    | ⟨0, _⟩ => exact lhs_row _ _
    | ⟨1, _⟩ => exact (lhs_col _ _).trans hk)
  have er : dotD.rhsIdx (ix2 r c) ((contrEquiv1 dotD 128 rfl rfl).symm k) = ix2 k c := funext fun a => Fin.ext (by
    match a with
    | ⟨0, _⟩ => exact (rhs_row _ _).trans hk
    | ⟨1, _⟩ => exact rhs_col _ _)
  rw [el, er]

/-- The linear layer's block at (r, c). -/
theorem pay3_apply (v3 v4 : Vec Ideal S5000x128 .f32) (v8 : Vec Ideal S128x128 .f32) (v12 : Vec Ideal S1x128 .f32)
    (r : Fin 5000) (c : Fin 128) :
    k2_pay3 (F := Ideal) v3 v4 v8 v12 (ix2 r c)
      = (∑ k : Fin 128, (v3 (ix2 r k) + v4 (ix2 r k)) * v8 (ix2 c k)) + v12 (ix2 0 c) := by
  unfold k2_pay3
  simp only [shapeCast_self]
  refine (addf_apply _ _ (ix2 r c)).trans ?_
  refine congrArg₂ (· + ·) ?_ ?_
  · refine (matmul_zero_apply _ _ r c).trans ?_
    refine Finset.sum_congr rfl fun k _ => ?_
    refine congrArg₂ (· * ·) rfl ?_
    exact transpose_ix2_apply _ _ k c
  · exact broadcastTo_1b_ab_apply v12 _ r c

/-- The zero row. -/
theorem pay1_apply (j : S1x128.Idx) : k2_pay1 (F := Ideal) j = 0 := by
  unfold k2_pay1
  exact Ideal.ofBits_zero_f32

theorem pay2_apply (j : S1x128.Idx) : k2_pay2 (F := Ideal) j = 0 := by
  unfold k2_pay2
  exact Ideal.ofBits_zero_f32

/-- The sublane sum of a block, kept as a row: column c's sum over the block's 5000 rows. -/
theorem colsum_apply (x : FVec Ideal S5000x128 .f32) (hacc : (0x00000000#32 : BitVec 32) = 0x00000000#32) (c : Fin 128) :
    shapeCast S1x128 (multiReduction .add [0] S128 x 0x00000000#32 reduces_S5000x128_S128 (.inl rfl) hacc)
        shapeCasts_S128_S1x128 (ix2 (0 : Fin 1) c)
      = ∑ r : Fin 5000, x (ix2 r c) := by
  refine (shapeCast_a_1a_apply _ shapeCasts_S128_S1x128 (0 : Fin 1) c).trans ?_
  refine (Ideal.multiReduction_add_single x 0x00000000#32 reduces_S5000x128_S128 (.inl rfl) hacc (ix1 c)).trans ?_
  refine Finset.sum_congr rfl fun r _ => ?_
  refine congrArg x (funext fun a => Fin.ext ?_)
  match a with
  | ⟨0, _⟩ => rfl
  | ⟨1, _⟩ => rfl

/-- The running column sums: what the row held plus the block's column sums. -/
theorem pay4_apply (v3 v4 : Vec Ideal S5000x128 .f32) (v8 : Vec Ideal S128x128 .f32) (v12 v17 : Vec Ideal S1x128 .f32)
    (c : Fin 128) :
    k2_pay4 (F := Ideal) v3 v4 v8 v12 v17 (ix2 (0 : Fin 1) c)
      = v17 (ix2 0 c) + ∑ r : Fin 5000, k2_pay3 (F := Ideal) v3 v4 v8 v12 (ix2 r c) := by
  unfold k2_pay4
  simp only [shapeCast_self]
  refine (addf_apply _ _ (ix2 (0 : Fin 1) c)).trans ?_
  exact congrArg (v17 (ix2 0 c) + ·) (colsum_apply _ rfl c)

/-- The running column sums of squares. -/
theorem pay5_apply (v3 v4 : Vec Ideal S5000x128 .f32) (v8 : Vec Ideal S128x128 .f32) (v12 v23 : Vec Ideal S1x128 .f32)
    (c : Fin 128) :
    k2_pay5 (F := Ideal) v3 v4 v8 v12 v23 (ix2 (0 : Fin 1) c)
      = v23 (ix2 0 c) + ∑ r : Fin 5000,
          k2_pay3 (F := Ideal) v3 v4 v8 v12 (ix2 r c) * k2_pay3 (F := Ideal) v3 v4 v8 v12 (ix2 r c) := by
  unfold k2_pay5
  simp only [shapeCast_self]
  refine (addf_apply _ _ (ix2 (0 : Fin 1) c)).trans ?_
  exact congrArg (v23 (ix2 0 c) + ·) (colsum_apply _ rfl c)

end Cert.KernelIdeal.Reg2

end
-- ==== Proof.Reg2Blocks.lean ====
/- The blocks one grid point of the second linear-statistics region reads, as entries of the arrays the region finds:
   point t reads rows 5000·t … 5000·t + 4999 of the feature array and of the aggregated-feature array, and the whole
   weight matrix and bias row.  So the block of the linear layer the point computes is rows 5000·t … of the linear
   layer of the whole arrays. -/
import proofs.«108325_j57337813402032_1_alg».proof.Proof.Gen.KernelIdeal.Frame
import proofs.«108325_j57337813402032_1_alg».proof.Proof.Spec
import proofs.«108325_j57337813402032_1_alg».proof.Proof.Reg2Pay

noncomputable section

namespace Cert.KernelIdeal.Reg2

open Idealize.ShloMosaic Idealize.ShloMosaic.TcCoe Idealize.SL.Sem Idealize.ShloMosaic.ValueIdx
open Idealize.ShloMosaic.Pipeline (Dat)
open Cert.KernelIdeal Cert.KernelIdeal.Gen
open scoped BigOperators

variable (V : (c : Dev nD) → (b : Ref sig .tc) → Buf (Elt Ideal) ((c : Thread nD τ).loc b))

/-- The printed index maps, decided over the grid: the two feature windows and the output block move one block of
    rows per point; the weights, the bias and the two accumulator rows stay. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0 :=
  (by decide +kernel : ∀ t : Fin grid2.N, _)

theorem N_eq : cfg2.N = 10 := N_2

/-- Row r of point t's block is row 5000·t + r of the array. -/
def rowOf (t : Fin cfg2.N) (r : Fin 5000) : Fin 50000 :=
  ⟨5000 * t.val + r.val, by have ht : t.val < 10 := lt_of_lt_of_eq t.isLt N_eq; have := r.isLt; omega⟩

/-- The four arrays the region reads, as it finds them. -/
abbrev arrH (c : Dev nD) : S50000x128.Idx → EReal := V c (Pipeline.arrRef spec2 0)
abbrev arrM (c : Dev nD) : S50000x128.Idx → EReal := V c (Pipeline.arrRef spec2 1)
abbrev arrW (c : Dev nD) : S128x128.Idx → EReal := V c (Pipeline.arrRef spec2 2)
abbrev arrB (c : Dev nD) : S1x128.Idx → EReal := V c (Pipeline.arrRef spec2 3)

/-- The linear layer of the whole arrays. -/
def X (c : Dev nD) : Cert.Spec.Mat 50000 128 :=
  Cert.Spec.lin (Cert.Spec.toMat (arrH V c)) (Cert.Spec.toMat (arrM V c)) (Cert.Spec.toMat (arrW V c))
    (Cert.Spec.toRow (arrB V c))

theorem blk_h (c : Dev nD) (t : Fin cfg2.N) (r : Fin 5000) (k : Fin 128) :
    (iblk2 V c 0 t : Vec Ideal S5000x128 .f32) (ix2 r k) = arrH V c (ix2 (rowOf t r) k) := by
  obtain ⟨e0, e1, -⟩ := idx_facts t
  unfold iblk2
  rw [View.read_apply]
  show arrH V c _ = _
  refine congrArg (arrH V c) (funext fun a => Fin.ext ?_)
  match a with
  | ⟨0, _⟩ => show win2_0.index t (0 : Fin 2) * 5000 + 1 * r.val = 5000 * t.val + r.val; rw [e0]; omega
  | ⟨1, _⟩ => show win2_0.index t (1 : Fin 2) * 128 + 1 * k.val = k.val; rw [e1]; omega

theorem blk_m (c : Dev nD) (t : Fin cfg2.N) (r : Fin 5000) (k : Fin 128) :
    (iblk2 V c 1 t : Vec Ideal S5000x128 .f32) (ix2 r k) = arrM V c (ix2 (rowOf t r) k) := by
  obtain ⟨-, -, e0, e1, -⟩ := idx_facts t
  unfold iblk2
  rw [View.read_apply]
  show arrM V c _ = _
  refine congrArg (arrM V c) (funext fun a => Fin.ext ?_)
  match a with
  | ⟨0, _⟩ => show win2_1.index t (0 : Fin 2) * 5000 + 1 * r.val = 5000 * t.val + r.val; rw [e0]; omega
  | ⟨1, _⟩ => show win2_1.index t (1 : Fin 2) * 128 + 1 * k.val = k.val; rw [e1]; omega

theorem blk_w (c : Dev nD) (t : Fin cfg2.N) (a b : Fin 128) :
    (iblk2 V c 2 t : Vec Ideal S128x128 .f32) (ix2 a b) = arrW V c (ix2 a b) := by
  obtain ⟨-, -, -, -, e0, e1, -⟩ := idx_facts t
  unfold iblk2
  rw [View.read_apply]
  show arrW V c _ = _
  refine congrArg (arrW V c) (funext fun ax => Fin.ext ?_)
  match ax with
  | ⟨0, _⟩ => show win2_2.index t (0 : Fin 2) * 128 + 1 * a.val = a.val; rw [e0]; omega
  | ⟨1, _⟩ => show win2_2.index t (1 : Fin 2) * 128 + 1 * b.val = b.val; rw [e1]; omega

theorem blk_b (c : Dev nD) (t : Fin cfg2.N) (u : Fin 1) (b : Fin 128) :
    (iblk2 V c 3 t : Vec Ideal S1x128 .f32) (ix2 u b) = arrB V c (ix2 u b) := by
  obtain ⟨-, -, -, -, -, -, e0, e1, -⟩ := idx_facts t
  unfold iblk2
  rw [View.read_apply]
  show arrB V c _ = _
  refine congrArg (arrB V c) (funext fun ax => Fin.ext ?_)
  match ax with
  | ⟨0, _⟩ => show win2_3.index t (0 : Fin 2) * 1 + 1 * u.val = u.val; rw [e0]; omega
  | ⟨1, _⟩ => show win2_3.index t (1 : Fin 2) * 128 + 1 * b.val = b.val; rw [e1]; omega

/-- The linear layer of the blocks a point reads, over any four blocks that are those rows of the arrays. -/
theorem pay3_of_blocks (c : Dev nD) (t : Fin cfg2.N) (v3 v4 : Vec Ideal S5000x128 .f32) (v8 : Vec Ideal S128x128 .f32)
    (v12 : Vec Ideal S1x128 .f32)
    (h3 : ∀ (r : Fin 5000) (k : Fin 128), v3 (ix2 r k) = arrH V c (ix2 (rowOf t r) k))
    (h4 : ∀ (r : Fin 5000) (k : Fin 128), v4 (ix2 r k) = arrM V c (ix2 (rowOf t r) k))
    (h8 : ∀ a b : Fin 128, v8 (ix2 a b) = arrW V c (ix2 a b))
    (h12 : ∀ (u : Fin 1) (b : Fin 128), v12 (ix2 u b) = arrB V c (ix2 u b))
    (r : Fin 5000) (cc : Fin 128) :
    k2_pay3 (F := Ideal) v3 v4 v8 v12 (ix2 r cc) = X V c (rowOf t r) cc := by
  refine (pay3_apply v3 v4 v8 v12 r cc).trans ?_
  unfold X Cert.Spec.lin Cert.Spec.toMat Cert.Spec.toRow
  rw [h12]
  refine congrArg (· + arrB V c (ix2 0 cc)) (Finset.sum_congr rfl fun k _ => ?_)
  rw [h3, h4, h8]

/-- The block of the linear layer point t computes is rows 5000·t … of the linear layer of the arrays. -/
theorem pay3_blocks (c : Dev nD) (t : Fin cfg2.N) (r : Fin 5000) (cc : Fin 128) :
    k2_pay3 (F := Ideal) (iblk2 V c 0 t) (iblk2 V c 1 t) (iblk2 V c 2 t) (iblk2 V c 3 t) (ix2 r cc)
      = X V c (rowOf t r) cc :=
  pay3_of_blocks V c t (iblk2 V c 0 t) (iblk2 V c 1 t) (iblk2 V c 2 t) (iblk2 V c 3 t)
    (blk_h V c t) (blk_m V c t) (blk_w V c t) (blk_b V c t) r cc

/-- The same at any entry of the block. -/
theorem pay3_blocks_at (c : Dev nD) (t : Fin cfg2.N) (j : S5000x128.Idx) :
    k2_pay3 (F := Ideal) (iblk2 V c 0 t) (iblk2 V c 1 t) (iblk2 V c 2 t) (iblk2 V c 3 t) j
      = X V c (rowOf t (j 0)) (j 1) := by
  obtain ⟨r, k, rfl⟩ : ∃ (r : Fin 5000) (k : Fin 128), j = ix2 r k := ⟨j 0, j 1, eq_ix2 j⟩
  exact pay3_blocks V c t r k

end Cert.KernelIdeal.Reg2

end
-- ==== Proof.Reg2Pieces.lean ====
/- What one grid point of the second layer's linear-statistics kernel leaves in its three output buffers, as values of the blocks it
   loads: the block of the linear layer, and the two accumulator rows — at the first point computed from the zero
   rows the point has just stored, at the later points from the rows the point before left. -/
import proofs.«108325_j57337813402032_1_alg».proof.Proof.Gen.KernelIdeal.Frame
import Idealize.ShloMosaic.Lib.Pipeline.Value
import Idealize.ShloMosaic.Lib.Tactic

noncomputable section
namespace Cert.KernelIdeal.Reg2
open Idealize.ShloMosaic Idealize.ShloMosaic.TcCoe Idealize.SL.Sem Idealize.ShloMosaic.Tactic
open Idealize.ShloMosaic.Pipeline (Dat)
open Cert.KernelIdeal Cert.KernelIdeal.Gen

variable {F : FTy → Type} [FloatOps F]

theorem hz : (![0, 0] : Fin 2 → Nat) = fun _ => 0 := funext fun a => by fin_cases a <;> rfl

/-- First point, output block: the linear layer of the loaded blocks. -/
theorem out_A_4 (c : Dev nD) (i : grid2.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S5000x128 .f32) (h5 : a5.IsWhole) (a6 : Memref sig .tc .vmem S1x128 .f32) (h6 : a6.IsWhole) (a7 : Memref sig .tc .vmem S1x128 .f32) (h7 : a7.IsWhole) (hc : cond2_0 i) (x0 x1 : Vec F S5000x128 .f32) (x2 : Vec F S128x128 .f32) (x3 : Vec F S1x128 .f32) :
    out2_A_4 c i a1 h1 a2 h2 a3 h3 a4 h4 a5 h5 a6 h6 a7 h7 hc x0 x1 x2 x3 = k2_pay3 x0 x1 x2 x3 := by
  unfold out2_A_4
  rw [View.read_writes_eq_canon _ _ _ (cover2_A_4 c i a1 h1 a2 h2 a3 h3 a4 h4 a5 h5 a6 h6 a7 h7 hc x0 x1 x2 x3)]
  unfold kernelRun2_A
  dsimp only
  rw [View.canon_unit_zero hz]
  simp only [View.readAt_eq_ld, h1.read_unread, h2.read_unread, h3.read_unread, h4.read_unread, h6.read_unread, h7.read_unread, View.ld_unit_zero (S := S5000x128) hz, View.ld_unit_zero (S := S128x128) hz, View.ld_unit_zero (S := S1x128) hz]

/-- First point, sum row: the zero row plus the block's column sums. -/
theorem out_A_5 (c : Dev nD) (i : grid2.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S5000x128 .f32) (h5 : a5.IsWhole) (a6 : Memref sig .tc .vmem S1x128 .f32) (h6 : a6.IsWhole) (a7 : Memref sig .tc .vmem S1x128 .f32) (h7 : a7.IsWhole) (hc : cond2_0 i) (x0 x1 : Vec F S5000x128 .f32) (x2 : Vec F S128x128 .f32) (x3 : Vec F S1x128 .f32) :
    out2_A_5 c i a1 h1 a2 h2 a3 h3 a4 h4 a5 h5 a6 h6 a7 h7 hc x0 x1 x2 x3 = k2_pay4 x0 x1 x2 x3 (k2_pay1 (F := F)) := by
  unfold out2_A_5
  rw [View.read_writes_eq_canon _ _ _ (cover2_A_5 c i a1 h1 a2 h2 a3 h3 a4 h4 a5 h5 a6 h6 a7 h7 hc x0 x1 x2 x3)]
  unfold kernelRun2_A
  dsimp only
  sl_unfold_words
  rw [View.canon_cons_unit_zero (S := S1x128) hz, View.readCov_unit_zero (S := S1x128) _ hz]
  simp only [View.readAt_eq_ld, h1.read_unread, h2.read_unread, h3.read_unread, h4.read_unread, h6.read_unread, h7.read_unread, View.ld_unit_zero (S := S5000x128) hz, View.ld_unit_zero (S := S128x128) hz, View.ld_unit_zero (S := S1x128) hz]

/-- First point, sum-of-squares row. -/
theorem out_A_6 (c : Dev nD) (i : grid2.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S5000x128 .f32) (h5 : a5.IsWhole) (a6 : Memref sig .tc .vmem S1x128 .f32) (h6 : a6.IsWhole) (a7 : Memref sig .tc .vmem S1x128 .f32) (h7 : a7.IsWhole) (hc : cond2_0 i) (x0 x1 : Vec F S5000x128 .f32) (x2 : Vec F S128x128 .f32) (x3 : Vec F S1x128 .f32) :
    out2_A_6 c i a1 h1 a2 h2 a3 h3 a4 h4 a5 h5 a6 h6 a7 h7 hc x0 x1 x2 x3 = k2_pay5 x0 x1 x2 x3 (k2_pay2 (F := F)) := by
  unfold out2_A_6
  rw [View.read_writes_eq_canon _ _ _ (cover2_A_6 c i a1 h1 a2 h2 a3 h3 a4 h4 a5 h5 a6 h6 a7 h7 hc x0 x1 x2 x3)]
  unfold kernelRun2_A
  dsimp only
  sl_unfold_words
  rw [View.canon_cons_unit_zero (S := S1x128) hz, View.readCov_unit_zero (S := S1x128) _ hz]
  simp only [View.readAt_eq_ld, h1.read_unread, h2.read_unread, h3.read_unread, h4.read_unread, h6.read_unread, h7.read_unread, View.ld_unit_zero (S := S5000x128) hz, View.ld_unit_zero (S := S128x128) hz, View.ld_unit_zero (S := S1x128) hz]

/-- Later points, output block. -/
theorem out_B_4 (c : Dev nD) (i : grid2.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S5000x128 .f32) (h5 : a5.IsWhole) (a6 : Memref sig .tc .vmem S1x128 .f32) (h6 : a6.IsWhole) (a7 : Memref sig .tc .vmem S1x128 .f32) (h7 : a7.IsWhole) (hc : ¬cond2_0 i) (x0 x1 : Vec F S5000x128 .f32) (x2 : Vec F S128x128 .f32) (x3 : Vec F S1x128 .f32) (xo5 xo6 : Vec F S1x128 .f32) :
    out2_B_4 c i a1 h1 a2 h2 a3 h3 a4 h4 a5 h5 a6 h6 a7 h7 hc x0 x1 x2 x3 xo5 xo6 = k2_pay3 x0 x1 x2 x3 := by
  unfold out2_B_4
  rw [View.read_writes_eq_canon _ _ _ (cover2_B_4 c i a1 h1 a2 h2 a3 h3 a4 h4 a5 h5 a6 h6 a7 h7 hc x0 x1 x2 x3 xo5 xo6)]
  unfold kernelRun2_B
  dsimp only
  rw [View.canon_unit_zero hz]
  simp only [View.readAt_eq_ld, h1.read_unread, h2.read_unread, h3.read_unread, h4.read_unread, h6.read_unread, h7.read_unread, View.ld_unit_zero (S := S5000x128) hz, View.ld_unit_zero (S := S128x128) hz, View.ld_unit_zero (S := S1x128) hz]

/-- Later points, sum row: the row carried over plus the block's column sums. -/
theorem out_B_5 (c : Dev nD) (i : grid2.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S5000x128 .f32) (h5 : a5.IsWhole) (a6 : Memref sig .tc .vmem S1x128 .f32) (h6 : a6.IsWhole) (a7 : Memref sig .tc .vmem S1x128 .f32) (h7 : a7.IsWhole) (hc : ¬cond2_0 i) (x0 x1 : Vec F S5000x128 .f32) (x2 : Vec F S128x128 .f32) (x3 : Vec F S1x128 .f32) (xo5 xo6 : Vec F S1x128 .f32) :
    out2_B_5 c i a1 h1 a2 h2 a3 h3 a4 h4 a5 h5 a6 h6 a7 h7 hc x0 x1 x2 x3 xo5 xo6 = k2_pay4 x0 x1 x2 x3 xo5 := by
  unfold out2_B_5
  rw [View.read_writes_eq_canon _ _ _ (cover2_B_5 c i a1 h1 a2 h2 a3 h3 a4 h4 a5 h5 a6 h6 a7 h7 hc x0 x1 x2 x3 xo5 xo6)]
  unfold kernelRun2_B
  dsimp only
  rw [View.canon_unit_zero hz]
  simp only [View.readAt_eq_ld, h1.read_unread, h2.read_unread, h3.read_unread, h4.read_unread, h6.read_unread, h7.read_unread, View.ld_unit_zero (S := S5000x128) hz, View.ld_unit_zero (S := S128x128) hz, View.ld_unit_zero (S := S1x128) hz]

/-- Later points, sum-of-squares row. -/
theorem out_B_6 (c : Dev nD) (i : grid2.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S5000x128 .f32) (h5 : a5.IsWhole) (a6 : Memref sig .tc .vmem S1x128 .f32) (h6 : a6.IsWhole) (a7 : Memref sig .tc .vmem S1x128 .f32) (h7 : a7.IsWhole) (hc : ¬cond2_0 i) (x0 x1 : Vec F S5000x128 .f32) (x2 : Vec F S128x128 .f32) (x3 : Vec F S1x128 .f32) (xo5 xo6 : Vec F S1x128 .f32) :
    out2_B_6 c i a1 h1 a2 h2 a3 h3 a4 h4 a5 h5 a6 h6 a7 h7 hc x0 x1 x2 x3 xo5 xo6 = k2_pay5 x0 x1 x2 x3 xo6 := by
  unfold out2_B_6
  rw [View.read_writes_eq_canon _ _ _ (cover2_B_6 c i a1 h1 a2 h2 a3 h3 a4 h4 a5 h5 a6 h6 a7 h7 hc x0 x1 x2 x3 xo5 xo6)]
  unfold kernelRun2_B
  dsimp only
  rw [View.canon_unit_zero hz]
  simp only [View.readAt_eq_ld, h1.read_unread, h2.read_unread, h3.read_unread, h4.read_unread, h6.read_unread, h7.read_unread, View.ld_unit_zero (S := S5000x128) hz, View.ld_unit_zero (S := S128x128) hz, View.ld_unit_zero (S := S1x128) hz]

end Cert.KernelIdeal.Reg2
end
-- ==== Proof.Reg2Acc.lean ====
/- The two accumulator rows of the second linear-statistics region, point by point: after point n the sum row holds,
   column by column, the sum of the linear layer over the first 5000·(n + 1) rows, and the other row the sum of its
   squares.  The first point starts from the zero rows it stores; each later point adds its block's column sums to
   what the point before left.  Addition of extended reals is associative, so the running sum over blocks is the
   sum over rows. -/
import proofs.«108325_j57337813402032_1_alg».proof.Proof.Gen.KernelIdeal.Frame
import proofs.«108325_j57337813402032_1_alg».proof.Proof.Spec
import proofs.«108325_j57337813402032_1_alg».proof.Proof.LibBlockSum
import proofs.«108325_j57337813402032_1_alg».proof.Proof.Reg2Pay
import proofs.«108325_j57337813402032_1_alg».proof.Proof.Reg2Pieces
import proofs.«108325_j57337813402032_1_alg».proof.Proof.Reg2Blocks

noncomputable section

namespace Cert.KernelIdeal.Reg2

open Idealize.ShloMosaic Idealize.ShloMosaic.TcCoe Idealize.SL.Sem Idealize.ShloMosaic.ValueIdx
open Idealize.ShloMosaic.Pipeline (Dat)
open Cert.KernelIdeal Cert.KernelIdeal.Gen
open scoped BigOperators

variable (V : (c : Dev nD) → (b : Ref sig .tc) → Buf (Elt Ideal) ((c : Thread nD τ).loc b))

/-- The column sums of the first 5000·n rows of a matrix, as a row. -/
def rowsUpto (f : Cert.Spec.Mat 50000 128) (n : ℕ) : S1x128.Idx → EReal :=
  fun j => ∑ p ∈ Finset.univ.filter (fun p : Fin 50000 => p.val < 5000 * n), f p (j 1)

/-- The entrywise square of a matrix. -/
def sqr (f : Cert.Spec.Mat 50000 128) : Cert.Spec.Mat 50000 128 := fun p c => f p c * f p c

theorem rowsUpto_zero (f : Cert.Spec.Mat 50000 128) (j : S1x128.Idx) : rowsUpto f 0 j = 0 :=
  Cert.RealVal.sum_rows_upto_zero (fun p => f p (j 1))

theorem rowsUpto_succ (f : Cert.Spec.Mat 50000 128) (t : Fin cfg2.N) (cc : Fin 128) :
    rowsUpto f (t.val + 1) (ix2 (0 : Fin 1) cc)
      = rowsUpto f t.val (ix2 (0 : Fin 1) cc) + ∑ r : Fin 5000, f (rowOf t r) cc :=
  Cert.RealVal.sum_blocks_succ (fun p => f p cc) t.val (lt_of_lt_of_eq t.isLt N_eq)

theorem rowsUpto_ten (f : Cert.Spec.Mat 50000 128) (cc : Fin 128) :
    rowsUpto f 10 (ix2 (0 : Fin 1) cc) = ∑ p : Fin 50000, f p cc :=
  Cert.RealVal.sum_rows_upto_ten (fun p => f p cc)

/-- After the last point the row holds the sums over all rows. -/
theorem rowsUpto_last (f : Cert.Spec.Mat 50000 128) (n : ℕ) (hn : n = 9) (j : S1x128.Idx) :
    rowsUpto f (n + 1) j = ∑ p : Fin 50000, f p (j 1) := by
  subst hn
  exact Cert.RealVal.sum_rows_upto_ten (fun p => f p (j 1))

/-- What the first point leaves: the block, and the two rows from zero. -/
theorem outs_A (c : Dev nD) (t : Fin cfg2.N) (h0 : t.val % 10 = 0) :
    outsAt2 V c t.val t.isLt
      = (k2_pay3 (F := Ideal) (iblk2 V c 0 t) (iblk2 V c 1 t) (iblk2 V c 2 t) (iblk2 V c 3 t),
         k2_pay4 (F := Ideal) (iblk2 V c 0 t) (iblk2 V c 1 t) (iblk2 V c 2 t) (iblk2 V c 3 t) (k2_pay1 (F := Ideal)),
         k2_pay5 (F := Ideal) (iblk2 V c 0 t) (iblk2 V c 1 t) (iblk2 V c 2 t) (iblk2 V c 3 t) (k2_pay2 (F := Ideal))) := by
  rw [outsAt2_A V c t h0]
  exact congrArg₂ Prod.mk (out_A_4 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) ((hcond2_0 t).mpr h0) (iblk2 V c 0 t) (iblk2 V c 1 t) (iblk2 V c 2 t) (iblk2 V c 3 t))
    (congrArg₂ Prod.mk (out_A_5 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) ((hcond2_0 t).mpr h0) (iblk2 V c 0 t) (iblk2 V c 1 t) (iblk2 V c 2 t) (iblk2 V c 3 t))
      (out_A_6 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) ((hcond2_0 t).mpr h0) (iblk2 V c 0 t) (iblk2 V c 1 t) (iblk2 V c 2 t) (iblk2 V c 3 t)))

/-- What a later point leaves: the block, and the two rows from what the point before left. -/
theorem outs_B (c : Dev nD) (t : Fin cfg2.N) (h0 : ¬t.val % 10 = 0) :
    outsAt2 V c t.val t.isLt
      = (k2_pay3 (F := Ideal) (iblk2 V c 0 t) (iblk2 V c 1 t) (iblk2 V c 2 t) (iblk2 V c 3 t),
         k2_pay4 (F := Ideal) (iblk2 V c 0 t) (iblk2 V c 1 t) (iblk2 V c 2 t) (iblk2 V c 3 t) (outsAt2 V c (t.val - 1) (Nat.lt_of_le_of_lt (Nat.sub_le _ _) t.isLt)).2.1,
         k2_pay5 (F := Ideal) (iblk2 V c 0 t) (iblk2 V c 1 t) (iblk2 V c 2 t) (iblk2 V c 3 t) (outsAt2 V c (t.val - 1) (Nat.lt_of_le_of_lt (Nat.sub_le _ _) t.isLt)).2.2) := by
  rw [outsAt2_B V c t h0]
  exact congrArg₂ Prod.mk
    (out_B_4 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (fun h => h0 ((hcond2_0 t).mp h)) (iblk2 V c 0 t) (iblk2 V c 1 t) (iblk2 V c 2 t) (iblk2 V c 3 t) (outsAt2 V c (t.val - 1) (Nat.lt_of_le_of_lt (Nat.sub_le _ _) t.isLt)).2.1 (outsAt2 V c (t.val - 1) (Nat.lt_of_le_of_lt (Nat.sub_le _ _) t.isLt)).2.2)
    (congrArg₂ Prod.mk
      (out_B_5 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (fun h => h0 ((hcond2_0 t).mp h)) (iblk2 V c 0 t) (iblk2 V c 1 t) (iblk2 V c 2 t) (iblk2 V c 3 t) (outsAt2 V c (t.val - 1) (Nat.lt_of_le_of_lt (Nat.sub_le _ _) t.isLt)).2.1 (outsAt2 V c (t.val - 1) (Nat.lt_of_le_of_lt (Nat.sub_le _ _) t.isLt)).2.2)
      (out_B_6 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (fun h => h0 ((hcond2_0 t).mp h)) (iblk2 V c 0 t) (iblk2 V c 1 t) (iblk2 V c 2 t) (iblk2 V c 3 t) (outsAt2 V c (t.val - 1) (Nat.lt_of_le_of_lt (Nat.sub_le _ _) t.isLt)).2.1 (outsAt2 V c (t.val - 1) (Nat.lt_of_le_of_lt (Nat.sub_le _ _) t.isLt)).2.2))

/-- At every point the output block is the linear layer of the point's blocks. -/
theorem outs_block (c : Dev nD) (t : Fin cfg2.N) :
    (outsAt2 V c t.val t.isLt).1 = k2_pay3 (F := Ideal) (iblk2 V c 0 t) (iblk2 V c 1 t) (iblk2 V c 2 t) (iblk2 V c 3 t) := by
  by_cases h0 : t.val % 10 = 0
  · rw [outs_A V c t h0]
  · rw [outs_B V c t h0]

/-- One step of a row: a row holding the sums over the rows before point t, plus the column sums of a block that is
    point t's rows of f, holds the sums over the rows up to and including point t's. -/
theorem row_step (f : Cert.Spec.Mat 50000 128) (t : Fin cfg2.N) (prev : S1x128.Idx → EReal) (g : Fin 5000 → Fin 128 → EReal)
    (hprev : prev = rowsUpto f t.val) (hg : ∀ r cc, g r cc = f (rowOf t r) cc) (cc : Fin 128) :
    prev (ix2 (0 : Fin 1) cc) + ∑ r : Fin 5000, g r cc = rowsUpto f (t.val + 1) (ix2 (0 : Fin 1) cc) := by
  rw [rowsUpto_succ, hprev]
  exact congrArg (rowsUpto f t.val (ix2 (0 : Fin 1) cc) + ·) (Finset.sum_congr rfl fun r _ => hg r cc)

/-- A row is determined by its entries along the one row. -/
theorem row_ext (a b : S1x128.Idx → EReal) (h : ∀ cc : Fin 128, a (ix2 (0 : Fin 1) cc) = b (ix2 (0 : Fin 1) cc)) : a = b := by
  funext j
  obtain ⟨u, cc, rfl⟩ : ∃ (u : Fin 1) (cc : Fin 128), j = ix2 u cc := ⟨j 0, j 1, eq_ix2 j⟩
  obtain rfl : u = 0 := Subsingleton.elim _ _
  exact h cc

/-- The rows after point n: the column sums, and the column sums of squares, over the first 5000·(n + 1) rows. -/
theorem outs_rows (c : Dev nD) : ∀ (n : ℕ) (h : n < cfg2.N),
    (outsAt2 V c n h).2.1 = rowsUpto (X V c) (n + 1) ∧ (outsAt2 V c n h).2.2 = rowsUpto (sqr (X V c)) (n + 1)
  | 0, h => by
    have e : outsAt2 V c 0 h = _ := outs_A V c ⟨0, h⟩ rfl
    rw [e]
    refine ⟨row_ext _ _ fun cc => ?_, row_ext _ _ fun cc => ?_⟩
    · refine (pay4_apply _ _ _ _ _ cc).trans ?_
      exact row_step (X V c) ⟨0, h⟩ _ (fun r cc => k2_pay3 (F := Ideal) (iblk2 V c 0 ⟨0, h⟩) (iblk2 V c 1 ⟨0, h⟩) (iblk2 V c 2 ⟨0, h⟩) (iblk2 V c 3 ⟨0, h⟩) (ix2 r cc))
        (funext fun j => (pay1_apply j).trans (rowsUpto_zero _ j).symm) (fun r cc => pay3_blocks V c ⟨0, h⟩ r cc) cc
    · refine (pay5_apply _ _ _ _ _ cc).trans ?_
      exact row_step (sqr (X V c)) ⟨0, h⟩ _
        (fun r cc => k2_pay3 (F := Ideal) (iblk2 V c 0 ⟨0, h⟩) (iblk2 V c 1 ⟨0, h⟩) (iblk2 V c 2 ⟨0, h⟩) (iblk2 V c 3 ⟨0, h⟩) (ix2 r cc) * k2_pay3 (F := Ideal) (iblk2 V c 0 ⟨0, h⟩) (iblk2 V c 1 ⟨0, h⟩) (iblk2 V c 2 ⟨0, h⟩) (iblk2 V c 3 ⟨0, h⟩) (ix2 r cc))
        (funext fun j => (pay2_apply j).trans (rowsUpto_zero _ j).symm)
        (fun r cc => by rw [pay3_blocks V c ⟨0, h⟩ r cc]; rfl) cc
  | n + 1, h => by
    have hN : cfg2.N = 10 := N_eq
    have hB : ¬(⟨n + 1, h⟩ : Fin cfg2.N).val % 10 = 0 := by dsimp only; omega
    have ih := outs_rows c n (Nat.lt_of_succ_lt h)
    have e : outsAt2 V c (n + 1) h = _ := outs_B V c ⟨n + 1, h⟩ hB
    rw [e]
    refine ⟨row_ext _ _ fun cc => ?_, row_ext _ _ fun cc => ?_⟩
    · refine (pay4_apply _ _ _ _ _ cc).trans ?_
      exact row_step (X V c) ⟨n + 1, h⟩ _ (fun r cc => k2_pay3 (F := Ideal) (iblk2 V c 0 ⟨n + 1, h⟩) (iblk2 V c 1 ⟨n + 1, h⟩) (iblk2 V c 2 ⟨n + 1, h⟩) (iblk2 V c 3 ⟨n + 1, h⟩) (ix2 r cc))
        ih.1 (fun r cc => pay3_blocks V c ⟨n + 1, h⟩ r cc) cc
    · refine (pay5_apply _ _ _ _ _ cc).trans ?_
      exact row_step (sqr (X V c)) ⟨n + 1, h⟩ _
        (fun r cc => k2_pay3 (F := Ideal) (iblk2 V c 0 ⟨n + 1, h⟩) (iblk2 V c 1 ⟨n + 1, h⟩) (iblk2 V c 2 ⟨n + 1, h⟩) (iblk2 V c 3 ⟨n + 1, h⟩) (ix2 r cc) * k2_pay3 (F := Ideal) (iblk2 V c 0 ⟨n + 1, h⟩) (iblk2 V c 1 ⟨n + 1, h⟩) (iblk2 V c 2 ⟨n + 1, h⟩) (iblk2 V c 3 ⟨n + 1, h⟩) (ix2 r cc))
        ih.2 (fun r cc => by rw [pay3_blocks V c ⟨n + 1, h⟩ r cc]; rfl) cc

end Cert.KernelIdeal.Reg2

end
-- ==== Proof.Reg2Value.lean ====
/- The three arrays the second linear-statistics region leaves: the linear layer of the whole feature arrays, block by
   block (point t writes rows 5000·t …, and the ten blocks tile the 50000 rows), and the two accumulator rows, written
   back once after the last point, holding each column's sum and sum of squares over all 50000 rows. -/
import proofs.«108325_j57337813402032_1_alg».proof.Proof.Gen.KernelIdeal.Frame
import proofs.«108325_j57337813402032_1_alg».proof.Proof.Spec
import proofs.«108325_j57337813402032_1_alg».proof.Proof.Reg2Blocks
import proofs.«108325_j57337813402032_1_alg».proof.Proof.Reg2Acc
import Idealize.ShloMosaic.Lib.Pipeline.Value

noncomputable section

namespace Cert.KernelIdeal.Reg2

open Idealize.ShloMosaic Idealize.ShloMosaic.TcCoe Idealize.SL.Sem Idealize.ShloMosaic.ValueIdx
open Idealize.ShloMosaic.Pipeline (Dat)
open Cert.KernelIdeal Cert.KernelIdeal.Gen
open scoped BigOperators

variable (V : (c : Dev nD) → (b : Ref sig .tc) → Buf (Elt Ideal) ((c : Thread nD τ).loc b))

/-! ## The output block -/

/-- What point t writes back of the output is rows 5000·t … of the linear layer of the arrays. -/
theorem flushed_x (c : Dev nD) (t : Fin cfg2.N) :
    (dat2 V c).flushed 4 t = ((cfg2.win 4).blk t).view.read (Elt Ideal) (Cert.Spec.ofMat (X V c)) := by
  obtain ⟨-, -, -, -, -, -, -, -, e0, e1, -⟩ := idx_facts t
  show (cfg2.win 4).cut (grid2.coords t) ((dat2 V c).after 4 t) = _
  rw [after2_4, outs_block V c t]
  funext j
  refine (pay3_blocks_at V c t j).trans ?_
  show X V c (rowOf t (j 0)) (j 1) = Cert.Spec.ofMat (X V c) (((cfg2.win 4).blk t).view.emb j)
  unfold Cert.Spec.ofMat
  refine congrArg₂ (X V c) (Fin.ext ?_) (Fin.ext ?_)
  · show 5000 * t.val + (j 0).val = win2_4.index t (0 : Fin 2) * 5000 + 1 * (j 0).val
    rw [e0]; omega
  · show (j 1).val = win2_4.index t (1 : Fin 2) * 128 + 1 * (j 1).val
    rw [e1]; omega

/-- Every row lies in the block of the point its number divided by 5000 names. -/
theorem cover_x (i : S50000x128.Idx) :
    ∃ t : Fin cfg2.N, (cfg2.win 4).flush t = true ∧ i ∈ ((cfg2.win 4).blk t).view.set := by
  have h0 : (i 0).val < 50000 := (i 0).isLt
  have h1 : (i 1).val < 128 := (i 1).isLt
  have ht : (i 0).val / 5000 < cfg2.N := lt_of_lt_of_eq (by omega : (i 0).val / 5000 < 10) N_eq.symm
  obtain ⟨-, -, -, -, -, -, -, -, e0, e1, -⟩ := idx_facts ⟨(i 0).val / 5000, ht⟩
  refine ⟨⟨(i 0).val / 5000, ht⟩, flush2_4 _, ?_⟩
  show i ∈ ((View.whole main_v32_0).slice (win2_4.rect ⟨(i 0).val / 5000, ht⟩)).set
  rw [View.set_slice_whole, Rect.mem_set_unit]
  intro a
  match a with
  | ⟨0, _⟩ =>
    show win2_4.index ⟨(i 0).val / 5000, ht⟩ (0 : Fin 2) * 5000 ≤ (i 0).val
      ∧ (i 0).val < win2_4.index ⟨(i 0).val / 5000, ht⟩ (0 : Fin 2) * 5000 + 5000
    rw [e0]; dsimp only; omega
  | ⟨1, _⟩ =>
    show win2_4.index ⟨(i 0).val / 5000, ht⟩ (1 : Fin 2) * 128 ≤ (i 1).val
      ∧ (i 1).val < win2_4.index ⟨(i 0).val / 5000, ht⟩ (1 : Fin 2) * 128 + 128
    rw [e1]; omega

/-- The output array after the region: the linear layer of the arrays the region found. -/
theorem x_eq' (c : Dev nD) : (dat2 (F := Ideal) V c).arrAt 4 cfg2.N = Cert.Spec.ofMat (X V c) :=
  (dat2 V c).arrAt_eq_of_cover 4 (Cert.Spec.ofMat (X V c)) (fun t _ => flushed_x V c t) cover_x

/-! ## The two accumulator rows -/

/-- After the last point a row of running sums, read at any entry of its one row, is the column's sum over all
    rows. -/
theorem row_last_read (f : Cert.Spec.Mat 50000 128) (g : Cert.Spec.Row 128)
    (hg : ∀ cc : Fin 128, g cc = ∑ p : Fin 50000, f p cc) (n : ℕ) (hn : n = 9) (j i : S1x128.Idx)
    (hi : (j 1).val = (i 1).val) : rowsUpto f (n + 1) j = Cert.Spec.ofRow g i :=
  calc rowsUpto f (n + 1) j = ∑ p : Fin 50000, f p (j 1) := rowsUpto_last f n hn j
    _ = ∑ p : Fin 50000, f p (i 1) := congrArg (fun q : Fin 128 => ∑ p : Fin 50000, f p q) (Fin.ext hi)
    _ = g (i 1) := (hg (i 1)).symm

theorem colsum_apply' (f : Cert.Spec.Mat 50000 128) (cc : Fin 128) :
    Cert.Spec.colsum f cc = ∑ p : Fin 50000, f p cc := by
  unfold Cert.Spec.colsum; rfl

theorem colsumsq_apply' (f : Cert.Spec.Mat 50000 128) (cc : Fin 128) :
    Cert.Spec.colsumsq f cc = ∑ p : Fin 50000, sqr f p cc := by
  unfold Cert.Spec.colsumsq sqr; rfl

-- from here on the running sums are used through their lemmas only
attribute [local irreducible] rowsUpto

/-- The one write-back of the sum row, after the last point, writes the column sums over all rows. -/
theorem flushed_sum (c : Dev nD) (t : Fin cfg2.N) (hf : (cfg2.win 5).flush t = true) :
    (dat2 V c).flushed 5 t
      = ((cfg2.win 5).blk t).view.read (Elt Ideal) (Cert.Spec.ofRow (Cert.Spec.colsum (X V c))) := by
  have h9 : t.val % 10 = 9 := (flush2_5 t).mp hf
  have ht : t.val < 10 := lt_of_lt_of_eq t.isLt N_eq
  obtain ⟨-, -, -, -, -, -, -, -, -, -, e0, e1, -⟩ := idx_facts t
  have hg := colsum_apply' (X V c)
  generalize Cert.Spec.colsum (X V c) = g at hg ⊢
  show (cfg2.win 5).cut (grid2.coords t) ((dat2 V c).after 5 t) = _
  rw [after2_5, (outs_rows V c t.val t.isLt).1]
  funext j
  have hi : (j 1).val = ((((cfg2.win 5).blk t).view.emb j) 1).val := by
    show (j 1).val = win2_5.index t (1 : Fin 2) * 128 + 1 * (j 1).val
    rw [e1]; omega
  have k := row_last_read (X V c) g hg t.val (by omega) j (((cfg2.win 5).blk t).view.emb j) hi
  exact k

theorem cover_sum (i : S1x128.Idx) :
    ∃ t : Fin cfg2.N, (cfg2.win 5).flush t = true ∧ i ∈ ((cfg2.win 5).blk t).view.set := by
  have h0 : (i 0).val < 1 := (i 0).isLt
  have h1 : (i 1).val < 128 := (i 1).isLt
  obtain ⟨-, -, -, -, -, -, -, -, -, -, e0, e1, -⟩ := idx_facts t2_9
  refine ⟨t2_9, (flush2_5 t2_9).mpr rfl, ?_⟩
  show i ∈ ((View.whole main_v32_1).slice (win2_5.rect t2_9)).set
  rw [View.set_slice_whole, Rect.mem_set_unit]
  intro a
  match a with
  | ⟨0, _⟩ =>
    show win2_5.index t2_9 (0 : Fin 2) * 1 ≤ (i 0).val ∧ (i 0).val < win2_5.index t2_9 (0 : Fin 2) * 1 + 1
    rw [e0]; omega
  | ⟨1, _⟩ =>
    show win2_5.index t2_9 (1 : Fin 2) * 128 ≤ (i 1).val ∧ (i 1).val < win2_5.index t2_9 (1 : Fin 2) * 128 + 128
    rw [e1]; omega

/-- The sum row after the region: each column's sum of the linear layer over all rows. -/
theorem sum_eq' (c : Dev nD) :
    (dat2 (F := Ideal) V c).arrAt 5 cfg2.N = Cert.Spec.ofRow (Cert.Spec.colsum (X V c)) :=
  (dat2 V c).arrAt_eq_of_cover 5 (Cert.Spec.ofRow (Cert.Spec.colsum (X V c))) (flushed_sum V c) cover_sum

/-- The one write-back of the sum-of-squares row writes the column sums of squares over all rows. -/
theorem flushed_sumsq (c : Dev nD) (t : Fin cfg2.N) (hf : (cfg2.win 6).flush t = true) :
    (dat2 V c).flushed 6 t
      = ((cfg2.win 6).blk t).view.read (Elt Ideal) (Cert.Spec.ofRow (Cert.Spec.colsumsq (X V c))) := by
  have h9 : t.val % 10 = 9 := (flush2_6 t).mp hf
  have ht : t.val < 10 := lt_of_lt_of_eq t.isLt N_eq
  obtain ⟨-, -, -, -, -, -, -, -, -, -, -, -, e0, e1⟩ := idx_facts t
  have hg := colsumsq_apply' (X V c)
  generalize Cert.Spec.colsumsq (X V c) = g at hg ⊢
  show (cfg2.win 6).cut (grid2.coords t) ((dat2 V c).after 6 t) = _
  rw [after2_6, (outs_rows V c t.val t.isLt).2]
  funext j
  have hi : (j 1).val = ((((cfg2.win 6).blk t).view.emb j) 1).val := by
    show (j 1).val = win2_6.index t (1 : Fin 2) * 128 + 1 * (j 1).val
    rw [e1]; omega
  have k := row_last_read (sqr (X V c)) g hg t.val (by omega) j (((cfg2.win 6).blk t).view.emb j) hi
  exact k

theorem cover_sumsq (i : S1x128.Idx) :
    ∃ t : Fin cfg2.N, (cfg2.win 6).flush t = true ∧ i ∈ ((cfg2.win 6).blk t).view.set := by
  have h0 : (i 0).val < 1 := (i 0).isLt
  have h1 : (i 1).val < 128 := (i 1).isLt
  obtain ⟨-, -, -, -, -, -, -, -, -, -, -, -, e0, e1⟩ := idx_facts t2_9
  refine ⟨t2_9, (flush2_6 t2_9).mpr rfl, ?_⟩
  show i ∈ ((View.whole main_v32_2).slice (win2_6.rect t2_9)).set
  rw [View.set_slice_whole, Rect.mem_set_unit]
  intro a
  match a with
  | ⟨0, _⟩ =>
    show win2_6.index t2_9 (0 : Fin 2) * 1 ≤ (i 0).val ∧ (i 0).val < win2_6.index t2_9 (0 : Fin 2) * 1 + 1
    rw [e0]; omega
  | ⟨1, _⟩ =>
    show win2_6.index t2_9 (1 : Fin 2) * 128 ≤ (i 1).val ∧ (i 1).val < win2_6.index t2_9 (1 : Fin 2) * 128 + 128
    rw [e1]; omega

/-- The sum-of-squares row after the region. -/
theorem sumsq_eq' (c : Dev nD) :
    (dat2 (F := Ideal) V c).arrAt 6 cfg2.N = Cert.Spec.ofRow (Cert.Spec.colsumsq (X V c)) :=
  (dat2 V c).arrAt_eq_of_cover 6 (Cert.Spec.ofRow (Cert.Spec.colsumsq (X V c))) (flushed_sumsq V c) cover_sumsq

/-! ## The same, with the linear layer written out over the arrays the region finds -/

theorem x_eq (c : Dev nD) :
    (dat2 (F := Ideal) V c).arrAt 4 cfg2.N
      = Cert.Spec.ofMat (Cert.Spec.lin
          (Cert.Spec.toMat (V c (Pipeline.arrRef spec2 0) : S50000x128.Idx → EReal))
          (Cert.Spec.toMat (V c (Pipeline.arrRef spec2 1) : S50000x128.Idx → EReal))
          (Cert.Spec.toMat (V c (Pipeline.arrRef spec2 2) : S128x128.Idx → EReal))
          (Cert.Spec.toRow (V c (Pipeline.arrRef spec2 3) : S1x128.Idx → EReal))) :=
  x_eq' V c

theorem sum_eq (c : Dev nD) :
    (dat2 (F := Ideal) V c).arrAt 5 cfg2.N
      = Cert.Spec.ofRow (Cert.Spec.colsum (Cert.Spec.lin
          (Cert.Spec.toMat (V c (Pipeline.arrRef spec2 0) : S50000x128.Idx → EReal))
          (Cert.Spec.toMat (V c (Pipeline.arrRef spec2 1) : S50000x128.Idx → EReal))
          (Cert.Spec.toMat (V c (Pipeline.arrRef spec2 2) : S128x128.Idx → EReal))
          (Cert.Spec.toRow (V c (Pipeline.arrRef spec2 3) : S1x128.Idx → EReal)))) :=
  sum_eq' V c

theorem sumsq_eq (c : Dev nD) :
    (dat2 (F := Ideal) V c).arrAt 6 cfg2.N
      = Cert.Spec.ofRow (Cert.Spec.colsumsq (Cert.Spec.lin
          (Cert.Spec.toMat (V c (Pipeline.arrRef spec2 0) : S50000x128.Idx → EReal))
          (Cert.Spec.toMat (V c (Pipeline.arrRef spec2 1) : S50000x128.Idx → EReal))
          (Cert.Spec.toMat (V c (Pipeline.arrRef spec2 2) : S128x128.Idx → EReal))
          (Cert.Spec.toRow (V c (Pipeline.arrRef spec2 3) : S1x128.Idx → EReal)))) :=
  sumsq_eq' V c

end Cert.KernelIdeal.Reg2

end
-- ==== Proof.Reg3Pay.lean ====
/- The last region's arithmetic at one entry.  The block of 5000 rows is normalised column by column with the given
   mean and variance rows, scaled, shifted and clamped below at zero; the result is multiplied by the transposed
   128 by 128 weight matrix, the bias row is added, and the sum is clamped below at zero again.  Entry (p, c) of the
   result therefore depends on row p of the block, on the five rows of 128 numbers, and on row c of the weights. -/
import proofs.«108325_j57337813402032_1_alg».proof.Proof.Gen.KernelIdeal.Skeleton
import proofs.«108325_j57337813402032_1_alg».proof.Proof.Spec
import Idealize.ShloMosaic.Lib.ValueLayout
import Idealize.ShloMosaic.Lib.Pipeline.Value
import Idealize.ShloMosaic.PureOps.Ideal.Laws

noncomputable section

namespace Cert.KernelIdeal.Reg3

open Idealize.ShloMosaic Idealize.ShloMosaic.ValueIdx Cert.KernelIdeal Cert.KernelIdeal.Gen
open scoped BigOperators

/-- The reciprocal square root of a vector, read at an index. -/
theorem rsqrt_apply {s : Shape} {φ : FTy} (a : FVec Ideal s φ) (i : s.Idx) : rsqrt a i = Ideal.rsqrt (a i) := rfl

/-- The block times the (already transposed) weights, into a zero accumulator: entry (p, c) is the sum over k of
    the block's (p, k) times the operand's (k, c). -/
theorem mm_apply (A : FVec Ideal S5000x128 .bf16) (B : FVec Ideal S128x128 .bf16) (p : Fin 5000) (c : Fin 128) :
    matmul dot_S5000x128_S128x128_S5000x128_1_0_0_1_n_n none A B (constant S5000x128 .f32 0x00000000#32) (ix2 p c)
      = ∑ k : Fin 128, A (ix2 p k) * B (ix2 k c) := by
  show FloatOps.matmul dot_S5000x128_S128x128_S5000x128_1_0_0_1_n_n none A B (constant S5000x128 .f32 0x00000000#32) (ix2 p c) = _
  rw [Ideal.matmul_constant_zero_apply,
    ← Equiv.sum_comp (contrEquiv1 dot_S5000x128_S128x128_S5000x128_1_0_0_1_n_n 128 rfl rfl).symm]
  refine Finset.sum_congr rfl fun k _ => ?_
  have ck := contrEquiv1_symm_val dot_S5000x128_S128x128_S5000x128_1_0_0_1_n_n 128 rfl rfl k
  have l2 : dot_S5000x128_S128x128_S5000x128_1_0_0_1_n_n.lhsIdx (ix2 p c) ((contrEquiv1 _ 128 rfl rfl).symm k) = ix2 p k := by
    funext ax; apply Fin.ext
    match ax with
    | ⟨0, _⟩ => simp [DotDims.lhsIdx, dot_S5000x128_S128x128_S5000x128_1_0_0_1_n_n]; rfl
    | ⟨1, _⟩ => simp [DotDims.lhsIdx, dot_S5000x128_S128x128_S5000x128_1_0_0_1_n_n]; exact ck
  have r2 : dot_S5000x128_S128x128_S5000x128_1_0_0_1_n_n.rhsIdx (ix2 p c) ((contrEquiv1 _ 128 rfl rfl).symm k) = ix2 k c := by
    funext ax; apply Fin.ext
    match ax with
    | ⟨0, _⟩ => simp [DotDims.rhsIdx, dot_S5000x128_S128x128_S5000x128_1_0_0_1_n_n]; exact ck
    | ⟨1, _⟩ => simp [DotDims.rhsIdx, dot_S5000x128_S128x128_S5000x128_1_0_0_1_n_n]; rfl
  rw [l2, r2]

/-- The transposed weights at (k, c) are the weights at (c, k). -/
theorem wT_apply (W : FVec Ideal S128x128 .bf16) (k c : Fin 128) :
    transpose S128x128 [1, 0] W transposes_S128x128_p1_0_S128x128 (ix2 k c) = W (ix2 c k) :=
  transpose_ix2_apply W transposes_S128x128_p1_0_S128x128 k c

/-- The zero word denotes the extended real 0. -/
theorem zero_word : FloatOps.ofBits (F := Ideal) FTy.f32 0x00000000#32 = (0 : EReal) := Ideal.ofBits_zero_f32

/-- Entry (p, c) of what the body stores: the normalised, scaled, shifted and clamped row p of the block, times row c
    of the weights, plus the bias at c, clamped below at zero. -/
theorem pay_apply (v0 : Vec Ideal S1x128 .f32) (v5 : Vec Ideal S5000x128 .f32) (v7 v13 v17 : Vec Ideal S1x128 .f32)
    (v24 : Vec Ideal S128x128 .f32) (v28 : Vec Ideal S1x128 .f32) (p : Fin 5000) (c : Fin 128) :
    k3_pay1 (F := Ideal) v0 v5 v7 v13 v17 v24 v28 (ix2 p c)
      = max ((∑ k : Fin 128,
              max ((v5 (ix2 p k) - v7 (ix2 0 k)) * Ideal.rsqrt (v0 (ix2 0 k) + Cert.Spec.eps) * v13 (ix2 0 k)
                    + v17 (ix2 0 k)) 0 * v24 (ix2 c k)) + v28 (ix2 0 c)) 0 := by
  unfold k3_pay1
  simp only [maximumf_apply, addf_apply, broadcast_apply, shapeCast_self, broadcastTo_1b_ab_apply]
  rw [mm_apply]
  simp only [truncf_apply, transpose_ix2_apply, maximumf_apply, addf_apply, mulf_apply, subf_apply, broadcast_apply,
    broadcastTo_1b_ab_apply, rsqrt_apply, zero_word]
  refine congrArg (fun s : EReal => max (s + v28 (ix2 0 c)) 0) (Finset.sum_congr rfl fun k _ => ?_)
  exact congrArg (fun w : EReal => _ * w) (wT_apply (truncf FTy.bf16 v24 bitsLt_bf16_f32) k c)

end Cert.KernelIdeal.Reg3

end
-- ==== Proof.Reg3Blocks.lean ====
/- Where the last region's blocks sit in their arrays.  Over the ten grid points, the block of features and the block
   of results at point t are rows 5000·t … 5000·t + 4999; the blocks of the four rows, of the weights and of the bias
   are the whole arrays at every point.  So an entry of a block is the array's entry at the matching place. -/
import proofs.«108325_j57337813402032_1_alg».proof.Proof.Gen.KernelIdeal.Frame
import Idealize.ShloMosaic.Lib.Pipeline.Value
import Idealize.ShloMosaic.Lib.ValueIdx

noncomputable section

namespace Cert.KernelIdeal.Reg3

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

/-- Where the blocks sit, decided over the ten grid points: the feature block and the result block of point `t` are
    block `t` of the rows and block 0 of the columns; every other operand's block is the whole operand. -/
theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = t.val ∧ win3_7.index t (1 : Fin 2) = 0 :=
  (by decide +kernel : ∀ t : Fin grid3.N, _)

/-- A grid point's number is below ten. -/
theorem point_lt (t : Fin cfg3.N) : t.val < 10 := by
  have h : t.val < grid3.N := t.isLt
  have hN : grid3.N = 10 := N_3
  omega

/-- Row p of the feature block at point t is row 5000·t + p of the feature array. -/
theorem blk0_apply (c : Dev nD) (t : Fin cfg3.N) (p : Fin 5000) (k : Fin 128) (r : Fin 50000)
    (hr : r.val = 5000 * t.val + p.val) :
    (iblk3 V c 0 t : Vec Ideal S5000x128 .f32) (ix2 p k)
      = (V c (Pipeline.arrRef spec3 0) : S50000x128.Idx → EReal) (ix2 r k) := by
  obtain ⟨e00, e01, -⟩ := idx_facts t
  show V c (Pipeline.arrRef spec3 0) (((cfg3.win 0).blk t).view.emb (ix2 p k)) = V c (Pipeline.arrRef spec3 0) (ix2 r k)
  refine congrArg _ (funext fun a => Fin.ext ?_)
  match a with
  | ⟨0, _⟩ => show win3_0.index t (0 : Fin 2) * 5000 + 1 * p.val = r.val; omega
  | ⟨1, _⟩ => show win3_0.index t (1 : Fin 2) * 128 + 1 * k.val = k.val; omega

/-- The block of means is the whole row of means. -/
theorem blk1_apply (c : Dev nD) (t : Fin cfg3.N) (k : Fin 128) :
    (iblk3 V c 1 t : Vec Ideal S1x128 .f32) (ix2 (0 : Fin 1) k)
      = (V c (Pipeline.arrRef spec3 1) : S1x128.Idx → EReal) (ix2 (0 : Fin 1) k) := by
  obtain ⟨-, -, e10, e11, -⟩ := idx_facts t
  show V c (Pipeline.arrRef spec3 1) (((cfg3.win 1).blk t).view.emb (ix2 (0 : Fin 1) k)) = V c (Pipeline.arrRef spec3 1) (ix2 (0 : Fin 1) k)
  refine congrArg _ (funext fun a => Fin.ext ?_)
  match a with
  | ⟨0, _⟩ => show win3_1.index t (0 : Fin 2) * 1 + 1 * 0 = 0; omega
  | ⟨1, _⟩ => show win3_1.index t (1 : Fin 2) * 128 + 1 * k.val = k.val; omega

/-- The block of variances is the whole row of variances. -/
theorem blk2_apply (c : Dev nD) (t : Fin cfg3.N) (k : Fin 128) :
    (iblk3 V c 2 t : Vec Ideal S1x128 .f32) (ix2 (0 : Fin 1) k)
      = (V c (Pipeline.arrRef spec3 2) : S1x128.Idx → EReal) (ix2 (0 : Fin 1) k) := by
  obtain ⟨-, -, -, -, e20, e21, -⟩ := idx_facts t
  show V c (Pipeline.arrRef spec3 2) (((cfg3.win 2).blk t).view.emb (ix2 (0 : Fin 1) k)) = V c (Pipeline.arrRef spec3 2) (ix2 (0 : Fin 1) k)
  refine congrArg _ (funext fun a => Fin.ext ?_)
  match a with
  | ⟨0, _⟩ => show win3_2.index t (0 : Fin 2) * 1 + 1 * 0 = 0; omega
  | ⟨1, _⟩ => show win3_2.index t (1 : Fin 2) * 128 + 1 * k.val = k.val; omega

/-- The block of scales is the whole row of scales. -/
theorem blk3_apply (c : Dev nD) (t : Fin cfg3.N) (k : Fin 128) :
    (iblk3 V c 3 t : Vec Ideal S1x128 .f32) (ix2 (0 : Fin 1) k)
      = (V c (Pipeline.arrRef spec3 3) : S1x128.Idx → EReal) (ix2 (0 : Fin 1) k) := by
  obtain ⟨-, -, -, -, -, -, e30, e31, -⟩ := idx_facts t
  show V c (Pipeline.arrRef spec3 3) (((cfg3.win 3).blk t).view.emb (ix2 (0 : Fin 1) k)) = V c (Pipeline.arrRef spec3 3) (ix2 (0 : Fin 1) k)
  refine congrArg _ (funext fun a => Fin.ext ?_)
  match a with
  | ⟨0, _⟩ => show win3_3.index t (0 : Fin 2) * 1 + 1 * 0 = 0; omega
  | ⟨1, _⟩ => show win3_3.index t (1 : Fin 2) * 128 + 1 * k.val = k.val; omega

/-- The block of shifts is the whole row of shifts. -/
theorem blk4_apply (c : Dev nD) (t : Fin cfg3.N) (k : Fin 128) :
    (iblk3 V c 4 t : Vec Ideal S1x128 .f32) (ix2 (0 : Fin 1) k)
      = (V c (Pipeline.arrRef spec3 4) : S1x128.Idx → EReal) (ix2 (0 : Fin 1) k) := by
  obtain ⟨-, -, -, -, -, -, -, -, e40, e41, -⟩ := idx_facts t
  show V c (Pipeline.arrRef spec3 4) (((cfg3.win 4).blk t).view.emb (ix2 (0 : Fin 1) k)) = V c (Pipeline.arrRef spec3 4) (ix2 (0 : Fin 1) k)
  refine congrArg _ (funext fun a => Fin.ext ?_)
  match a with
  | ⟨0, _⟩ => show win3_4.index t (0 : Fin 2) * 1 + 1 * 0 = 0; omega
  | ⟨1, _⟩ => show win3_4.index t (1 : Fin 2) * 128 + 1 * k.val = k.val; omega

/-- The block of weights is the whole weight matrix. -/
theorem blk5_apply (c : Dev nD) (t : Fin cfg3.N) (a b : Fin 128) :
    (iblk3 V c 5 t : Vec Ideal S128x128 .f32) (ix2 a b)
      = (V c (Pipeline.arrRef spec3 5) : S128x128.Idx → EReal) (ix2 a b) := by
  obtain ⟨-, -, -, -, -, -, -, -, -, -, e50, e51, -⟩ := idx_facts t
  show V c (Pipeline.arrRef spec3 5) (((cfg3.win 5).blk t).view.emb (ix2 a b)) = V c (Pipeline.arrRef spec3 5) (ix2 a b)
  refine congrArg _ (funext fun d => Fin.ext ?_)
  match d with
  | ⟨0, _⟩ => show win3_5.index t (0 : Fin 2) * 128 + 1 * a.val = a.val; omega
  | ⟨1, _⟩ => show win3_5.index t (1 : Fin 2) * 128 + 1 * b.val = b.val; omega

/-- The block of the bias is the whole bias row. -/
theorem blk6_apply (c : Dev nD) (t : Fin cfg3.N) (k : Fin 128) :
    (iblk3 V c 6 t : Vec Ideal S1x128 .f32) (ix2 (0 : Fin 1) k)
      = (V c (Pipeline.arrRef spec3 6) : S1x128.Idx → EReal) (ix2 (0 : Fin 1) k) := by
  obtain ⟨-, -, -, -, -, -, -, -, -, -, -, -, e60, e61, -⟩ := idx_facts t
  show V c (Pipeline.arrRef spec3 6) (((cfg3.win 6).blk t).view.emb (ix2 (0 : Fin 1) k)) = V c (Pipeline.arrRef spec3 6) (ix2 (0 : Fin 1) k)
  refine congrArg _ (funext fun a => Fin.ext ?_)
  match a with
  | ⟨0, _⟩ => show win3_6.index t (0 : Fin 2) * 1 + 1 * 0 = 0; omega
  | ⟨1, _⟩ => show win3_6.index t (1 : Fin 2) * 128 + 1 * k.val = k.val; omega

/-- Entry (p, q) of the result block at point t sits at entry (5000·t + p, q) of the result array. -/
theorem out_emb (t : Fin cfg3.N) (p : Fin 5000) (q : Fin 128) (r : Fin 50000) (hr : r.val = 5000 * t.val + p.val) :
    ((cfg3.win 7).blk t).view.emb (ix2 p q) = (ix2 r q : S50000x128.Idx) := by
  obtain ⟨-, -, -, -, -, -, -, -, -, -, -, -, -, -, e70, e71⟩ := idx_facts t
  funext a; apply Fin.ext
  match a with
  | ⟨0, _⟩ => show win3_7.index t (0 : Fin 2) * 5000 + 1 * p.val = r.val; omega
  | ⟨1, _⟩ => show win3_7.index t (1 : Fin 2) * 128 + 1 * q.val = q.val; omega

end Cert.KernelIdeal.Reg3

end
-- ==== Proof.Reg3.lean ====
/- The last region as one matrix.  The region runs over ten grid points; point t receives rows
   5000·t … 5000·t + 4999 of the feature matrix, the four whole rows (means, variances, scales, shifts), the whole
   128 by 128 weight matrix and the whole bias row, and writes back the same rows of the result.  Entry (p, q) of the
   block it leaves depends only on row p of the feature block, on the four rows, on row q of the weights and on
   entry q of the bias, so it is entry (5000·t + p, q) of
     max (max ((x − mean) · rsqrt (var + eps) · scale + shift) 0 · Wᵀ + bias) 0
   taken over the whole matrix.  Row r of the array lies in the block of point r / 5000, so the ten blocks cover the
   array and the array ends holding that matrix. -/
import proofs.«108325_j57337813402032_1_alg».proof.Proof.Gen.KernelIdeal.Frame
import proofs.«108325_j57337813402032_1_alg».proof.Proof.Reg3Pay
import proofs.«108325_j57337813402032_1_alg».proof.Proof.Reg3Blocks
import Idealize.ShloMosaic.Lib.Pipeline.Value

noncomputable section

namespace Cert.KernelIdeal.Reg3

open Idealize.ShloMosaic Idealize.ShloMosaic.TcCoe Idealize.SL.Sem Idealize.ShloMosaic.ValueIdx
open Idealize.ShloMosaic.Pipeline (Dat)
open Cert.KernelIdeal Cert.KernelIdeal.Gen Cert.Spec

variable (V : (c : Dev nD) → (b : Ref sig .tc) → Buf (Elt Ideal) ((c : Thread nD τ).loc b))

theorem hz : (![0, 0] : Fin 2 → Nat) = fun _ => 0 := funext fun a => by fin_cases a <;> rfl

/-- The array the region leaves: the feature matrix normalised by the given means and variances, scaled, shifted and
    clamped below at zero, then multiplied by the transposed weights, the bias added, and clamped below at zero. -/
abbrev G (c : Dev nD) : S50000x128.Idx → EReal :=
  ofMat (relu (lin1 (bnrelu (toMat (V c (Pipeline.arrRef spec3 0) : S50000x128.Idx → EReal))
      (toRow (V c (Pipeline.arrRef spec3 1) : S1x128.Idx → EReal))
      (toRow (V c (Pipeline.arrRef spec3 2) : S1x128.Idx → EReal))
      (toRow (V c (Pipeline.arrRef spec3 3) : S1x128.Idx → EReal))
      (toRow (V c (Pipeline.arrRef spec3 4) : S1x128.Idx → EReal)))
    (toMat (V c (Pipeline.arrRef spec3 5) : S128x128.Idx → EReal))
    (toRow (V c (Pipeline.arrRef spec3 6) : S1x128.Idx → EReal))))

/-- One entry of the block the body leaves is the result matrix's entry in row `r` of the array, when row `p` of the
    block of features is row `r` of the array (`h0`) and every other operand is its whole array (`h1` … `h6`). -/
theorem block_entry (A0 : S50000x128.Idx → EReal) (A1 A2 A3 A4 : S1x128.Idx → EReal) (A5 : S128x128.Idx → EReal)
    (A6 : S1x128.Idx → EReal)
    (x0 : Vec Ideal S5000x128 .f32) (x1 x2 x3 x4 : Vec Ideal S1x128 .f32) (x5 : Vec Ideal S128x128 .f32)
    (x6 : Vec Ideal S1x128 .f32)
    (p : Fin 5000) (q : Fin 128) (r : Fin 50000)
    (h0 : ∀ k : Fin 128, x0 (ix2 p k) = A0 (ix2 r k))
    (h1 : ∀ k : Fin 128, x1 (ix2 (0 : Fin 1) k) = A1 (ix2 (0 : Fin 1) k))
    (h2 : ∀ k : Fin 128, x2 (ix2 (0 : Fin 1) k) = A2 (ix2 (0 : Fin 1) k))
    (h3 : ∀ k : Fin 128, x3 (ix2 (0 : Fin 1) k) = A3 (ix2 (0 : Fin 1) k))
    (h4 : ∀ k : Fin 128, x4 (ix2 (0 : Fin 1) k) = A4 (ix2 (0 : Fin 1) k))
    (h5 : ∀ a b : Fin 128, x5 (ix2 a b) = A5 (ix2 a b))
    (h6 : ∀ k : Fin 128, x6 (ix2 (0 : Fin 1) k) = A6 (ix2 (0 : Fin 1) k)) :
    k3_pay1 (F := Ideal) x2 x0 x1 x3 x4 x5 x6 (ix2 p q)
      = ofMat (relu (lin1 (bnrelu (toMat A0) (toRow A1) (toRow A2) (toRow A3) (toRow A4)) (toMat A5) (toRow A6)))
          (ix2 r q) := by
  rw [pay_apply, h6]
  simp only [h0, h1, h2, h3, h4, h5]
  rfl

/-- What grid point `t` writes back is block `t` of the result matrix. -/
theorem flushed_eq (c : Dev nD) (t : Fin cfg3.N) :
    (dat3 (F := Ideal) V c).flushed 7 t = ((cfg3.win 7).blk t).view.read (Elt Ideal) (G V c) := by
  show (cfg3.win 7).cut (grid3.coords t) ((dat3 V c).after 7 t) = _
  rw [after3_7]
  unfold out3_7
  rw [View.canon_unit_zero hz]
  simp only [View.ld_unit_zero (S := S5000x128) hz, View.ld_unit_zero (S := S1x128) hz,
    View.ld_unit_zero (S := S128x128) hz]
  have ht : t.val < 10 := point_lt t
  funext j
  obtain ⟨p, q, rfl⟩ : ∃ (p : Fin 5000) (q : Fin 128), j = ix2 p q := ⟨j 0, j 1, eq_ix2 j⟩
  show _ = G V c (((cfg3.win 7).blk t).view.emb (ix2 p q))
  rw [out_emb t p q ⟨5000 * t.val + p.val, by omega⟩ rfl]
  exact block_entry (V c (Pipeline.arrRef spec3 0)) (V c (Pipeline.arrRef spec3 1)) (V c (Pipeline.arrRef spec3 2))
    (V c (Pipeline.arrRef spec3 3)) (V c (Pipeline.arrRef spec3 4)) (V c (Pipeline.arrRef spec3 5))
    (V c (Pipeline.arrRef spec3 6))
    (iblk3 V c 0 t) (iblk3 V c 1 t) (iblk3 V c 2 t) (iblk3 V c 3 t) (iblk3 V c 4 t) (iblk3 V c 5 t) (iblk3 V c 6 t)
    p q ⟨5000 * t.val + p.val, by omega⟩
    (fun k => blk0_apply V c t p k _ rfl) (fun k => blk1_apply V c t k) (fun k => blk2_apply V c t k)
    (fun k => blk3_apply V c t k) (fun k => blk4_apply V c t k) (fun a b => blk5_apply V c t a b)
    (fun k => blk6_apply V c t k)

/-- An index of the array is in point `t`'s block iff each coordinate is in the block's range on its axis. -/
theorem mem_blk (t : Fin cfg3.N) (i : S50000x128.Idx) :
    i ∈ ((cfg3.win 7).blk t).view.set ↔ ∀ a : Fin 2, win3_7.index t a * S5000x128.size a ≤ (i a).val ∧ (i a).val < win3_7.index t a * S5000x128.size a + S5000x128.size a := by
  show i ∈ ((View.whole main_v42).slice (win3_7.rect t)).set ↔ _
  rw [View.set_slice_whole, Rect.mem_set_unit]
  exact Iff.rfl

/-- Every entry of the array is in some point's block: row `r` is in the block of point `r / 5000`. -/
theorem cover (i : S50000x128.Idx) :
    ∃ t : Fin cfg3.N, (cfg3.win 7).flush t = true ∧ i ∈ ((cfg3.win 7).blk t).view.set := by
  have hi0 : (i 0).val < 50000 := (i 0).isLt
  have hi1 : (i 1).val < 128 := (i 1).isLt
  have hN : grid3.N = 10 := N_3
  let t : Fin cfg3.N := ⟨(i 0).val / 5000, by show (i 0).val / 5000 < grid3.N; omega⟩
  obtain ⟨e00, e01, e10, e11, e20, e21, e30, e31, e40, e41, e50, e51, e60, e61, e70, e71⟩ := idx_facts t
  have e70' : win3_7.index t (0 : Fin 2) = (i 0).val / 5000 := e70
  refine ⟨t, flush3_7 t, ?_⟩
  rw [mem_blk]
  intro a
  match a with
  | ⟨0, _⟩ => show win3_7.index t (0 : Fin 2) * 5000 ≤ (i 0).val ∧ (i 0).val < win3_7.index t (0 : Fin 2) * 5000 + 5000; omega
  | ⟨1, _⟩ => show win3_7.index t (1 : Fin 2) * 128 ≤ (i 1).val ∧ (i 1).val < win3_7.index t (1 : Fin 2) * 128 + 128; omega

/-- The region's result array after the last grid point is that matrix, whatever the arrays held when the region was
    entered. -/
theorem out_eq (c : Dev nD) :
    (dat3 (F := Ideal) V c).arrAt 7 cfg3.N
      = ofMat (relu (lin1 (bnrelu (toMat (V c (Pipeline.arrRef spec3 0) : S50000x128.Idx → EReal))
            (toRow (V c (Pipeline.arrRef spec3 1) : S1x128.Idx → EReal))
            (toRow (V c (Pipeline.arrRef spec3 2) : S1x128.Idx → EReal))
            (toRow (V c (Pipeline.arrRef spec3 3) : S1x128.Idx → EReal))
            (toRow (V c (Pipeline.arrRef spec3 4) : S1x128.Idx → EReal)))
          (toMat (V c (Pipeline.arrRef spec3 5) : S128x128.Idx → EReal))
          (toRow (V c (Pipeline.arrRef spec3 6) : S1x128.Idx → EReal)))) :=
  (dat3 (F := Ideal) V c).arrAt_eq_of_cover 7 (G V c) (fun t _ => flushed_eq V c t) cover

end Cert.KernelIdeal.Reg3

end
-- ==== Proof.KerVal.lean ====
/- The kernel program's result as the network of the specification: each region's output arrays, read off its
   pipeline as whole-array functions of the arrays the region finds, composed with what the host stretches put in
   those arrays.  Layer one: x1 = (h + aggregated h)·W1ᵀ + b1 with its column sums; mean and variance rows; h1 the
   normalised, scaled, shifted and clamped x1.  Layer two the same from h1; the last region normalises, clamps,
   multiplies by W2bᵀ, adds the bias and clamps. -/
import proofs.«108325_j57337813402032_1_alg».proof.Proof.KerHost
import proofs.«108325_j57337813402032_1_alg».proof.Proof.Reg1
import proofs.«108325_j57337813402032_1_alg».proof.Proof.Reg0Value
import proofs.«108325_j57337813402032_1_alg».proof.Proof.Reg2Value
import proofs.«108325_j57337813402032_1_alg».proof.Proof.Reg3

set_option maxRecDepth 16384
-- reading a buffer's array type off the program's signature unfolds a lookup that is long for the late buffers
set_option maxHeartbeats 8000000

noncomputable section

namespace Cert.KernelIdeal.KerVal

open Idealize.ShloMosaic Idealize.ShloMosaic.TcCoe Idealize.SL.Sem
open Cert.KernelIdeal Cert.KernelIdeal.Gen Cert.KernelIdeal.KerRowOps Cert.KernelIdeal.KerHost Cert.Spec

variable (m : (ℓ : Loc nD τ sig) → Buf (Elt Ideal) ℓ) (ρ : Dev nD → PrngReg) (c : Dev nD)

/-- The aggregation of neighbour features over the launch memory's edge lists, on matrices. -/
def aggK : Mat 50000 128 → Mat 50000 128 :=
  fun x => toMat (segsum (ofMat x) (m ((c : Thread nD τ).loc main_arg1)) (m ((c : Thread nD τ).loc main_arg2)))

/-- The network over the launch memory's arrays, with the variance as the kernel forms it. -/
def kerNet : Mat 50000 128 :=
  net (aggK m c) varSq (toMat (m ((c : Thread nD τ).loc main_arg0) : S50000x128.Idx → EReal))
    (toMat (m ((c : Thread nD τ).loc main_arg3) : S128x128.Idx → EReal)) (toRow1 (m ((c : Thread nD τ).loc main_arg4) : S128.Idx → EReal))
    (toRow1 (m ((c : Thread nD τ).loc main_arg5) : S128.Idx → EReal)) (toRow1 (m ((c : Thread nD τ).loc main_arg6) : S128.Idx → EReal))
    (toMat (m ((c : Thread nD τ).loc main_arg7) : S128x128.Idx → EReal)) (toRow1 (m ((c : Thread nD τ).loc main_arg8) : S128.Idx → EReal))
    (toRow1 (m ((c : Thread nD τ).loc main_arg9) : S128.Idx → EReal)) (toRow1 (m ((c : Thread nD τ).loc main_arg10) : S128.Idx → EReal))
    (toMat (m ((c : Thread nD τ).loc main_arg11) : S128x128.Idx → EReal)) (toRow1 (m ((c : Thread nD τ).loc main_arg12) : S128.Idx → EReal))

/-- Layer one before normalisation: (h + aggregated h)·W1ᵀ + b1. -/
def X1 : Mat 50000 128 :=
  lin (toMat (m ((c : Thread nD τ).loc main_arg0) : S50000x128.Idx → EReal)) (aggK m c (toMat (m ((c : Thread nD τ).loc main_arg0) : S50000x128.Idx → EReal))) (toMat (m ((c : Thread nD τ).loc main_arg3) : S128x128.Idx → EReal)) (toRow1 (m ((c : Thread nD τ).loc main_arg4) : S128.Idx → EReal))
/-- Layer one's output. -/
def H1 : Mat 50000 128 :=
  bnrelu (X1 m c) (mean (X1 m c)) (varSq (X1 m c)) (toRow1 (m ((c : Thread nD τ).loc main_arg5) : S128.Idx → EReal)) (toRow1 (m ((c : Thread nD τ).loc main_arg6) : S128.Idx → EReal))
/-- Layer two before normalisation: (h1 + aggregated h1)·W2aᵀ + b2a. -/
def X2 : Mat 50000 128 :=
  lin (H1 m c) (aggK m c (H1 m c)) (toMat (m ((c : Thread nD τ).loc main_arg7) : S128x128.Idx → EReal)) (toRow1 (m ((c : Thread nD τ).loc main_arg8) : S128.Idx → EReal))

theorem kerNet_eq : kerNet m c = relu (lin1 (bnrelu (X2 m c) (mean (X2 m c)) (varSq (X2 m c)) (toRow1 (m ((c : Thread nD τ).loc main_arg9) : S128.Idx → EReal)) (toRow1 (m ((c : Thread nD τ).loc main_arg10) : S128.Idx → EReal)))
    (toMat (m ((c : Thread nD τ).loc main_arg11) : S128x128.Idx → EReal)) (toRow1 (m ((c : Thread nD τ).loc main_arg12) : S128.Idx → EReal))) := rfl

/-! ## Region 0 over the launch memory -/

theorem lin0_eq : lin (toMat (V1 m ρ c (Pipeline.arrRef spec0 0) : S50000x128.Idx → EReal)) (toMat (V1 m ρ c (Pipeline.arrRef spec0 1) : S50000x128.Idx → EReal)) (toMat (V1 m ρ c (Pipeline.arrRef spec0 2) : S128x128.Idx → EReal)) (toRow (V1 m ρ c (Pipeline.arrRef spec0 3) : S1x128.Idx → EReal)) = X1 m c := by
  have e0 : (V1 m ρ c (Pipeline.arrRef spec0 0) : S50000x128.Idx → EReal) = m ((c : Thread nD τ).loc main_arg0) := W1_arg0 m ρ c
  have e1 : (V1 m ρ c (Pipeline.arrRef spec0 1) : S50000x128.Idx → EReal) = _ := V1_msg m ρ c
  have e2 : (V1 m ρ c (Pipeline.arrRef spec0 2) : S128x128.Idx → EReal) = m ((c : Thread nD τ).loc main_arg3) := W1_arg3 m ρ c
  have e3 : (V1 m ρ c (Pipeline.arrRef spec0 3) : S1x128.Idx → EReal) = _ := V1_bias m ρ c
  rw [e0, e1, e2, e3, toRow_reshape]
  unfold X1 aggK
  rw [ofMat_toMat]

/-! ## Rows the host stretches form -/

/-- The mean row from a sum row. -/
theorem mean_row (s : Row 128) :
    toRow (Host.divf (F := Ideal) (s := S1x128) (φ := .f32) (ofRow s) cntRow) = fun c => Ideal.div (s c) cnt := by
  funext c; rfl

/-- The variance row from the sum row and the squares' sum row. -/
theorem var_row (s q : Row 128) :
    toRow (subf (F := Ideal) (s := S1x128) (φ := .f32) (Host.divf (F := Ideal) (s := S1x128) (φ := .f32) (ofRow q) cntRow)
        (mulf (F := Ideal) (s := S1x128) (φ := .f32) (Host.divf (F := Ideal) (s := S1x128) (φ := .f32) (ofRow s) cntRow)
          (Host.divf (F := Ideal) (s := S1x128) (φ := .f32) (ofRow s) cntRow)))
      = fun c => Ideal.div (q c) cnt - Ideal.div (s c) cnt * Ideal.div (s c) cnt := by
  funext c; rfl

theorem mean_unfold (x : Mat 50000 128) : mean x = fun c => Ideal.div (colsum x c) cnt := rfl
theorem varSq_unfold (x : Mat 50000 128) :
    varSq x = fun c => Ideal.div (colsumsq x c) cnt - Ideal.div (colsum x c) cnt * Ideal.div (colsum x c) cnt := rfl

theorem x1_eq : (dat0 (V1 m ρ) c).arrAt 4 cfg0.N = ofMat (X1 m c) :=
  (Cert.KernelIdeal.Reg0.x_eq (V1 m ρ) c).trans (congrArg ofMat (lin0_eq m ρ c))
theorem s1_eq : (dat0 (V1 m ρ) c).arrAt 5 cfg0.N = ofRow (colsum (X1 m c)) :=
  (Cert.KernelIdeal.Reg0.sum_eq (V1 m ρ) c).trans (congrArg (fun x => ofRow (colsum x)) (lin0_eq m ρ c))
theorem q1_eq : (dat0 (V1 m ρ) c).arrAt 6 cfg0.N = ofRow (colsumsq (X1 m c)) :=
  (Cert.KernelIdeal.Reg0.sumsq_eq (V1 m ρ) c).trans (congrArg (fun x => ofRow (colsumsq x)) (lin0_eq m ρ c))

/-! ## Region 1 -/

theorem bn1_eq : bnrelu (toMat (V3 m ρ c (Pipeline.arrRef spec1 0) : S50000x128.Idx → EReal)) (toRow (V3 m ρ c (Pipeline.arrRef spec1 1) : S1x128.Idx → EReal)) (toRow (V3 m ρ c (Pipeline.arrRef spec1 2) : S1x128.Idx → EReal)) (toRow (V3 m ρ c (Pipeline.arrRef spec1 3) : S1x128.Idx → EReal)) (toRow (V3 m ρ c (Pipeline.arrRef spec1 4) : S1x128.Idx → EReal)) = H1 m c := by
  have e0 : (V3 m ρ c (Pipeline.arrRef spec1 0) : S50000x128.Idx → EReal) = ofMat (X1 m c) := (W3_x m ρ c).trans (x1_eq m ρ c)
  have e1 : toRow (V3 m ρ c (Pipeline.arrRef spec1 1) : S1x128.Idx → EReal) = mean (X1 m c) := by
    rw [show (V3 m ρ c (Pipeline.arrRef spec1 1) : S1x128.Idx → EReal) = _ from V3_mean m ρ c, s1_eq m ρ c, mean_row, mean_unfold]
  have e2 : toRow (V3 m ρ c (Pipeline.arrRef spec1 2) : S1x128.Idx → EReal) = varSq (X1 m c) := by
    rw [show (V3 m ρ c (Pipeline.arrRef spec1 2) : S1x128.Idx → EReal) = _ from V3_var m ρ c, s1_eq m ρ c, q1_eq m ρ c, var_row, varSq_unfold]
  have e3 : toRow (V3 m ρ c (Pipeline.arrRef spec1 3) : S1x128.Idx → EReal) = toRow1 (m ((c : Thread nD τ).loc main_arg5) : S128.Idx → EReal) := by
    rw [show (V3 m ρ c (Pipeline.arrRef spec1 3) : S1x128.Idx → EReal) = _ from V3_gamma m ρ c, toRow_reshape]
  have e4 : toRow (V3 m ρ c (Pipeline.arrRef spec1 4) : S1x128.Idx → EReal) = toRow1 (m ((c : Thread nD τ).loc main_arg6) : S128.Idx → EReal) := by
    rw [show (V3 m ρ c (Pipeline.arrRef spec1 4) : S1x128.Idx → EReal) = _ from V3_beta m ρ c, toRow_reshape]
  rw [e0, e1, e2, e3, e4, toMat_ofMat]
  rfl

theorem h1_eq : (dat1 (V3 m ρ) c).arrAt 5 cfg1.N = ofMat (H1 m c) :=
  (Cert.KernelIdeal.Reg1.h_eq (V3 m ρ) c).trans (congrArg ofMat (bn1_eq m ρ c))

/-! ## Region 2 -/

theorem lin2_eq : lin (toMat (V5 m ρ c (Pipeline.arrRef spec2 0) : S50000x128.Idx → EReal)) (toMat (V5 m ρ c (Pipeline.arrRef spec2 1) : S50000x128.Idx → EReal)) (toMat (V5 m ρ c (Pipeline.arrRef spec2 2) : S128x128.Idx → EReal)) (toRow (V5 m ρ c (Pipeline.arrRef spec2 3) : S1x128.Idx → EReal)) = X2 m c := by
  have e0 : (V5 m ρ c (Pipeline.arrRef spec2 0) : S50000x128.Idx → EReal) = ofMat (H1 m c) := (W5_h m ρ c).trans (h1_eq m ρ c)
  have e1 : (V5 m ρ c (Pipeline.arrRef spec2 1) : S50000x128.Idx → EReal) = segsum (ofMat (H1 m c)) (m ((c : Thread nD τ).loc main_arg1)) (m ((c : Thread nD τ).loc main_arg2)) := by
    rw [show (V5 m ρ c (Pipeline.arrRef spec2 1) : S50000x128.Idx → EReal) = _ from V5_msg m ρ c, h1_eq m ρ c]
  have e2 : (V5 m ρ c (Pipeline.arrRef spec2 2) : S128x128.Idx → EReal) = m ((c : Thread nD τ).loc main_arg7) := W5_arg7 m ρ c
  have e3 : (V5 m ρ c (Pipeline.arrRef spec2 3) : S1x128.Idx → EReal) = _ := V5_bias m ρ c
  rw [e0, e1, e2, e3, toRow_reshape, toMat_ofMat]
  rfl

theorem x2_eq : (dat2 (V5 m ρ) c).arrAt 4 cfg2.N = ofMat (X2 m c) :=
  (Cert.KernelIdeal.Reg2.x_eq (V5 m ρ) c).trans (congrArg ofMat (lin2_eq m ρ c))
theorem s2_eq : (dat2 (V5 m ρ) c).arrAt 5 cfg2.N = ofRow (colsum (X2 m c)) :=
  (Cert.KernelIdeal.Reg2.sum_eq (V5 m ρ) c).trans (congrArg (fun x => ofRow (colsum x)) (lin2_eq m ρ c))
theorem q2_eq : (dat2 (V5 m ρ) c).arrAt 6 cfg2.N = ofRow (colsumsq (X2 m c)) :=
  (Cert.KernelIdeal.Reg2.sumsq_eq (V5 m ρ) c).trans (congrArg (fun x => ofRow (colsumsq x)) (lin2_eq m ρ c))

/-! ## Region 3 -/

theorem out3_eq : relu (lin1 (bnrelu (toMat (V7 m ρ c (Pipeline.arrRef spec3 0) : S50000x128.Idx → EReal)) (toRow (V7 m ρ c (Pipeline.arrRef spec3 1) : S1x128.Idx → EReal)) (toRow (V7 m ρ c (Pipeline.arrRef spec3 2) : S1x128.Idx → EReal)) (toRow (V7 m ρ c (Pipeline.arrRef spec3 3) : S1x128.Idx → EReal)) (toRow (V7 m ρ c (Pipeline.arrRef spec3 4) : S1x128.Idx → EReal))) (toMat (V7 m ρ c (Pipeline.arrRef spec3 5) : S128x128.Idx → EReal)) (toRow (V7 m ρ c (Pipeline.arrRef spec3 6) : S1x128.Idx → EReal))) = kerNet m c := by
  have e0 : (V7 m ρ c (Pipeline.arrRef spec3 0) : S50000x128.Idx → EReal) = ofMat (X2 m c) := (W7_x m ρ c).trans (x2_eq m ρ c)
  have e1 : toRow (V7 m ρ c (Pipeline.arrRef spec3 1) : S1x128.Idx → EReal) = mean (X2 m c) := by
    rw [show (V7 m ρ c (Pipeline.arrRef spec3 1) : S1x128.Idx → EReal) = _ from V7_mean m ρ c, s2_eq m ρ c, mean_row, mean_unfold]
  have e2 : toRow (V7 m ρ c (Pipeline.arrRef spec3 2) : S1x128.Idx → EReal) = varSq (X2 m c) := by
    rw [show (V7 m ρ c (Pipeline.arrRef spec3 2) : S1x128.Idx → EReal) = _ from V7_var m ρ c, s2_eq m ρ c, q2_eq m ρ c, var_row, varSq_unfold]
  have e3 : toRow (V7 m ρ c (Pipeline.arrRef spec3 3) : S1x128.Idx → EReal) = toRow1 (m ((c : Thread nD τ).loc main_arg9) : S128.Idx → EReal) := by
    rw [show (V7 m ρ c (Pipeline.arrRef spec3 3) : S1x128.Idx → EReal) = _ from V7_gamma m ρ c, toRow_reshape]
  have e4 : toRow (V7 m ρ c (Pipeline.arrRef spec3 4) : S1x128.Idx → EReal) = toRow1 (m ((c : Thread nD τ).loc main_arg10) : S128.Idx → EReal) := by
    rw [show (V7 m ρ c (Pipeline.arrRef spec3 4) : S1x128.Idx → EReal) = _ from V7_beta m ρ c, toRow_reshape]
  have e5 : (V7 m ρ c (Pipeline.arrRef spec3 5) : S128x128.Idx → EReal) = m ((c : Thread nD τ).loc main_arg11) := W7_arg11 m ρ c
  have e6 : toRow (V7 m ρ c (Pipeline.arrRef spec3 6) : S1x128.Idx → EReal) = toRow1 (m ((c : Thread nD τ).loc main_arg12) : S128.Idx → EReal) := by
    rw [show (V7 m ρ c (Pipeline.arrRef spec3 6) : S1x128.Idx → EReal) = _ from V7_bias m ρ c, toRow_reshape]
  rw [e0, e1, e2, e3, e4, e5, e6, toMat_ofMat, kerNet_eq]

/-- The result array the last region leaves is the network of the launch memory's arrays. -/
theorem out_val : (dat3 (V7 m ρ) c).arrAt 7 cfg3.N = ofMat (kerNet m c) :=
  (Cert.KernelIdeal.Reg3.out_eq (V7 m ρ) c).trans (congrArg ofMat (out3_eq m ρ c))

end Cert.KernelIdeal.KerVal

end
-- ==== Proof.RefStages.lean ====
/- The reference's network, stage by stage, as pure functions of array contents, for any float values.
   Each stage lists the reference's operations in their printed order, one binding an operation, a called
   function's operations standing where it is called.  A layer is: gather the rows of the features named by the
   first index list, add them up into the rows named by the second (starting from zeros), add the features,
   multiply by the transposed weights, add the bias (`stLin`); the column means (`stMean`) and the column
   variances as means of squared deviations (`stVar`); normalise, scale, shift and clamp below at zero (`stBn`).
   The last stage is a linear map and a clamp (`stOut`).  `refOut` composes them as the reference does. -/
import proofs.«108325_j57337813402032_1_alg».proof.Proof.Gen.ReferenceIdeal

noncomputable section

namespace Cert.RefSide

open Cert.ReferenceIdeal Cert.ReferenceIdeal.Gen Idealize.ShloMosaic

variable {F : FTy → Type} [FloatOps F]

/-- Contents of a feature array, 50000 rows of 128 floats. -/
abbrev Feat (F : FTy → Type) : Type := (⟨S50000x128, .f32⟩ : BufTy).Contents (Elt F)
/-- Contents of an index list, 800000 integers. -/
abbrev Idx8 (F : FTy → Type) : Type := (⟨S800000, .i32⟩ : BufTy).Contents (Elt F)
/-- Contents of an index list as a column. -/
abbrev Idx81 (F : FTy → Type) : Type := (⟨S800000x1, .i32⟩ : BufTy).Contents (Elt F)
/-- Contents of a weight matrix, 128 by 128 floats. -/
abbrev Wt (F : FTy → Type) : Type := (⟨S128x128, .f32⟩ : BufTy).Contents (Elt F)
/-- Contents of a row of 128 floats. -/
abbrev Vec128 (F : FTy → Type) : Type := (⟨S128, .f32⟩ : BufTy).Contents (Elt F)
/-- Contents of a row of 128 floats kept as a 1 by 128 array. -/
abbrev Row128 (F : FTy → Type) : Type := (⟨S1x128, .f32⟩ : BufTy).Contents (Elt F)
/-- Contents of a single float. -/
abbrev Sc (F : FTy → Type) : Type := (⟨S_, .f32⟩ : BufTy).Contents (Elt F)
/-- Contents of a single integer. -/
abbrev ScI (F : FTy → Type) : Type := (⟨S_, .i32⟩ : BufTy).Contents (Elt F)

/-- One layer's linear part: `(h + segment_sum(h[s], d)) · Wᵀ + b`.  Negative entries of `s` are first moved up by
    50000, as the reference's indexing does. -/
def stLin (h : Feat F) (s d : Idx8 F) (W : Wt F) (b : Vec128 F) : Feat F :=
  have c : ScI F := constantI S_ 32 0#32
  have v0 : Idx8 F := broadcastInDim S800000 ![] bcast_S_S800000 c
  have v1 : (⟨S800000, .i1⟩ : BufTy).Contents (Elt F) := cmpi .slt s v0
  have c_0 : ScI F := constantI S_ 32 50000#32
  have v2 : Idx8 F := broadcastInDim S800000 ![] bcast_S_S800000 c_0
  have v3 : Idx8 F := addi s v2
  have v4 : Idx8 F := select v1 v3 s
  have v5 : Idx81 F := broadcastInDim S800000x1 ![0] bcast_S800000_S800000x1_0 v4
  have v6 : (⟨S800000x128, .f32⟩ : BufTy).Contents (Elt F) :=
    Host.gather gather_S50000x128_S800000x1_S800000x128_1_0_n_n_0_1_1128 h v5
  have cst : Sc F := constant S_ .f32 0x00000000#32
  have v7 : Feat F := broadcastInDim S50000x128 ![] bcast_S_S50000x128 cst
  have v8 : Idx81 F := broadcastInDim S800000x1 ![0] bcast_S800000_S800000x1_0 d
  have v9 : Feat F := Host.scatterAdd scatter_S50000x128_S800000x1_S800000x128_1_0_0_1 v7 v8 v6
  have v10 : Feat F := addf h v9
  have v11 : Wt F := transpose S128x128 [1, 0] W transposes_S128x128_S128x128_1_0
  have v12 : Feat F := Host.dotGeneral dot_S50000x128_S128x128_S50000x128_1_0_0_1_n_n none v10 v11
  have v13 : Row128 F := broadcastInDim S1x128 ![1] bcast_S128_S1x128_1 b
  have v14 : Feat F := broadcastInDim S50000x128 ![0, 1] bcast_S1x128_S50000x128_0_1 v13
  addf v12 v14

/-- The column means: each column's sum over the 50000 rows, divided by 50000. -/
def stMean (x : Feat F) : Vec128 F :=
  have cst_1 : Sc F := constant S_ .f32 0x00000000#32
  have v16 : Vec128 F := Host.reduceAdd x cst_1 reducesTo_S50000x128_S128_d0 h_S_
  have cst_2 : Sc F := constant S_ .f32 0x47435000#32
  have v17 : Vec128 F := broadcastInDim S128 ![] bcast_S_S128 cst_2
  Host.divf v16 v17

/-- The column variances: the sum of the squared deviations from the column mean, divided by 50000 minus the
    correction 0, and kept where that divisor is positive (else the not-a-number word). -/
def stVar (x : Feat F) : Vec128 F :=
  have c_3 : ScI F := constantI S_ 32 0#32
  have cst : Sc F := constant S_ .f32 0x00000000#32
  have v0 : Vec128 F := Host.reduceAdd x cst reducesTo_S50000x128_S128_d0 h_S_
  have v1 : Row128 F := broadcastInDim S1x128 ![1] bcast_S128_S1x128_1 v0
  have cst_0 : Sc F := constant S_ .f32 0x47435000#32
  have v2 : Row128 F := broadcastInDim S1x128 ![] bcast_S_S1x128 cst_0
  have v3 : Row128 F := Host.divf v1 v2
  have v4 : Feat F := broadcastInDim S50000x128 ![0, 1] bcast_S1x128_S50000x128_0_1 v3
  have v5 : Feat F := subf x v4
  have v6 : Feat F := mulf v5 v5
  have v7 : Sc F := sitofp .f32 c_3
  have cst_1 : Sc F := constant S_ .f32 0x47435000#32
  have v8 : Sc F := subf cst_1 v7
  have cst_2 : Sc F := constant S_ .f32 0x00000000#32
  have v9 : Vec128 F := Host.reduceAdd v6 cst_2 reducesTo_S50000x128_S128_d0 h_S_
  have v10 : Vec128 F := broadcastInDim S128 ![] bcast_S_S128 v8
  have v11 : Vec128 F := Host.divf v9 v10
  have cst_3 : Sc F := constant S_ .f32 0x00000000#32
  have v12 : (⟨S_, .i1⟩ : BufTy).Contents (Elt F) := cmpf .ogt v8 cst_3
  have cst_4 : Sc F := constant S_ .f32 0x7FC00000#32
  have w0 : Sc F := id cst_4
  have w1 : Vec128 F := broadcastInDim S128 ![] bcast_S_S128 w0
  select (broadcastInDim S128 ![] bcast_S_S128 v12) v11 w1

/-- Normalise by a given mean and variance, scale by `g`, shift by `be`, clamp below at zero:
    `max ((x − mu) · rsqrt(var + eps) · g + be) 0`, entry by entry, the rows broadcast down the columns. -/
def stBn (x : Feat F) (mu var g be : Vec128 F) : Feat F :=
  have v20 : Row128 F := broadcastInDim S1x128 ![1] bcast_S128_S1x128_1 mu
  have v21 : Feat F := broadcastInDim S50000x128 ![0, 1] bcast_S1x128_S50000x128_0_1 v20
  have v22 : Feat F := subf x v21
  have cst_4 : Sc F := constant S_ .f32 0x3727C5AC#32
  have v23 : Vec128 F := broadcastInDim S128 ![] bcast_S_S128 cst_4
  have v24 : Vec128 F := addf var v23
  have v25 : Vec128 F := Host.rsqrt v24
  have v26 : Row128 F := broadcastInDim S1x128 ![1] bcast_S128_S1x128_1 v25
  have v27 : Feat F := broadcastInDim S50000x128 ![0, 1] bcast_S1x128_S50000x128_0_1 v26
  have v28 : Feat F := mulf v22 v27
  have v29 : Row128 F := broadcastInDim S1x128 ![1] bcast_S128_S1x128_1 g
  have v30 : Feat F := broadcastInDim S50000x128 ![0, 1] bcast_S1x128_S50000x128_0_1 v29
  have v31 : Feat F := mulf v28 v30
  have v32 : Row128 F := broadcastInDim S1x128 ![1] bcast_S128_S1x128_1 be
  have v33 : Feat F := broadcastInDim S50000x128 ![0, 1] bcast_S1x128_S50000x128_0_1 v32
  have v34 : Feat F := addf v31 v33
  have z : Sc F := constant S_ .f32 0x00000000#32
  have z0 : Feat F := broadcastInDim S50000x128 ![] bcast_S_S50000x128 z
  maximumf v34 z0

/-- The last stage: `max (y · Wᵀ + b) 0`. -/
def stOut (y : Feat F) (W : Wt F) (b : Vec128 F) : Feat F :=
  have v72 : Wt F := transpose S128x128 [1, 0] W transposes_S128x128_S128x128_1_0
  have v73 : Feat F := Host.dotGeneral dot_S50000x128_S128x128_S50000x128_1_0_0_1_n_n none y v72
  have v74 : Row128 F := broadcastInDim S1x128 ![1] bcast_S128_S1x128_1 b
  have v75 : Feat F := broadcastInDim S50000x128 ![0, 1] bcast_S1x128_S50000x128_0_1 v74
  have v76 : Feat F := addf v73 v75
  have z : Sc F := constant S_ .f32 0x00000000#32
  have z0 : Feat F := broadcastInDim S50000x128 ![] bcast_S_S50000x128 z
  maximumf v76 z0

/-- The reference's result as a function of its thirteen argument arrays: two layers and the last stage. -/
def refOut (a0 : Feat F) (a1 a2 : Idx8 F) (a3 : Wt F) (a4 a5 a6 : Vec128 F) (a7 : Wt F) (a8 a9 a10 : Vec128 F)
    (a11 : Wt F) (a12 : Vec128 F) : Feat F :=
  let x1 := stLin a0 a1 a2 a3 a4
  let h1 := stBn x1 (stMean x1) (stVar x1) a5 a6
  let x2 := stLin h1 a1 a2 a7 a8
  let y := stBn x2 (stMean x2) (stVar x2) a9 a10
  stOut y a11 a12

end Cert.RefSide

end
-- ==== Proof.RefOps.lean ====
/- The reference's 140 operations as lists, in the printed order, a called function's operations standing where it
   is called (over that call's own buffers).  They are cut where the network's stages end: the first layer's linear
   part, its column statistics, its normalisation and clamp; the same three for the second layer (whose linear part
   is printed across the two halves of the program, hence two lists); and the last linear map with its clamp. -/
import proofs.«108325_j57337813402032_1_alg».proof.Proof.Gen.ReferenceIdeal
import proofs.«108325_j57337813402032_1_alg».proof.Proof.RefStages
import Idealize.ShloMosaic.Lib.StableHlo.Run

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

/-- Contents of the gathered rows, 800000 rows of 128 floats. -/
abbrev Gath (F : FTy → Type) : Type := (⟨S800000x128, .f32⟩ : BufTy).Contents (Elt F)
/-- Contents of a list of 800000 truth values. -/
abbrev Bit8 (F : FTy → Type) : Type := (⟨S800000, .i1⟩ : BufTy).Contents (Elt F)

/-- The first layer's linear part, into `%15`. -/
abbrev C1 : List (HloOp τ sig (Elt F)) :=
  [ nullary main_c (constantI S_ 32 0#32),
    unary main_c main_v0 (broadcastInDim S800000 ![] bcast_S_S800000 : ScI F → Idx8 F),
    binary main_arg1 main_v0 main_v1 (cmpi .slt : Idx8 F → Idx8 F → Bit8 F),
    nullary main_c_0 (constantI S_ 32 50000#32),
    unary main_c_0 main_v2 (broadcastInDim S800000 ![] bcast_S_S800000 : ScI F → Idx8 F),
    binary main_arg1 main_v2 main_v3 (addi : Idx8 F → Idx8 F → Idx8 F),
    ternary main_v1 main_v3 main_arg1 main_v4 (select : Bit8 F → Idx8 F → Idx8 F → Idx8 F),
    unary main_v4 main_v5 (broadcastInDim S800000x1 ![0] bcast_S800000_S800000x1_0 : Idx8 F → Idx81 F),
    binary main_arg0 main_v5 main_v6 ((fun x i => Host.gather gather_S50000x128_S800000x1_S800000x128_1_0_n_n_0_1_1128 x i) : Feat F → Idx81 F → Gath F),
    nullary main_cst (constant S_ .f32 0x00000000#32),
    unary main_cst main_v7 (broadcastInDim S50000x128 ![] bcast_S_S50000x128 : Sc F → Feat F),
    unary main_arg2 main_v8 (broadcastInDim S800000x1 ![0] bcast_S800000_S800000x1_0 : Idx8 F → Idx81 F),
    ternary main_v7 main_v8 main_v6 main_v9 ((fun x i u => Host.scatterAdd scatter_S50000x128_S800000x1_S800000x128_1_0_0_1 x i u) : Feat F → Idx81 F → Gath F → Feat F),
    binary main_arg0 main_v9 main_v10 (addf : Feat F → Feat F → Feat F),
    unary main_arg3 main_v11 ((transpose S128x128 [1, 0] · transposes_S128x128_S128x128_1_0) : Wt F → Wt F),
    binary main_v10 main_v11 main_v12 ((fun l r => Host.dotGeneral dot_S50000x128_S128x128_S50000x128_1_0_0_1_n_n none l r) : Feat F → Wt F → Feat F),
    unary main_arg4 main_v13 (broadcastInDim S1x128 ![1] bcast_S128_S1x128_1 : Vec128 F → Row128 F),
    unary main_v13 main_v14 (broadcastInDim S50000x128 ![0, 1] bcast_S1x128_S50000x128_0_1 : Row128 F → Feat F),
    binary main_v12 main_v14 main_v15 (addf : Feat F → Feat F → Feat F) ]

/-- The first layer's column means, into `%18`, and (the called variance function) variances, into `%19`. -/
abbrev C2 : List (HloOp τ sig (Elt F)) :=
  [ nullary main_cst_1 (constant S_ .f32 0x00000000#32),
    binary main_v15 main_cst_1 main_v16 ((fun x v => Host.reduceAdd x v reducesTo_S50000x128_S128_d0 h_S_) : Feat F → Sc F → Vec128 F),
    nullary main_cst_2 (constant S_ .f32 0x47435000#32),
    unary main_cst_2 main_v17 (broadcastInDim S128 ![] bcast_S_S128 : Sc F → Vec128 F),
    binary main_v16 main_v17 main_v18 (Host.divf : Vec128 F → Vec128 F → Vec128 F),
    nullary main_c_3 (constantI S_ 32 0#32),
    TRef.nullary main_call0.cst (constant S_ .f32 0x00000000#32),
    TRef.binary (.of main_v15 : TRef sig ⟨S50000x128, .f32⟩) main_call0.cst main_call0.v0 (fun x v => Host.reduceAdd x v reducesTo_S50000x128_S128_d0 h_S_),
    TRef.unary main_call0.v0 main_call0.v1 (broadcastInDim S1x128 ![1] bcast_S128_S1x128_1),
    TRef.nullary main_call0.cst_0 (constant S_ .f32 0x47435000#32),
    TRef.unary main_call0.cst_0 main_call0.v2 (broadcastInDim S1x128 ![] bcast_S_S1x128),
    TRef.binary main_call0.v1 main_call0.v2 main_call0.v3 Host.divf,
    TRef.unary main_call0.v3 main_call0.v4 (broadcastInDim S50000x128 ![0, 1] bcast_S1x128_S50000x128_0_1),
    TRef.binary (.of main_v15 : TRef sig ⟨S50000x128, .f32⟩) main_call0.v4 main_call0.v5 subf,
    TRef.binary main_call0.v5 main_call0.v5 main_call0.v6 mulf,
    TRef.unary (.of main_c_3 : TRef sig ⟨S_, .i32⟩) main_call0.v7 (sitofp .f32),
    TRef.nullary main_call0.cst_1 (constant S_ .f32 0x47435000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S50000x128_S128_d0 h_S_),
    TRef.unary main_call0.v8 main_call0.v10 (broadcastInDim S128 ![] bcast_S_S128),
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    TRef.unary main_call0.cst_4 main_call0.call0.v0 id,
    TRef.unary main_call0.call0.v0 main_call0.call0.v1 (broadcastInDim S128 ![] bcast_S_S128),
    TRef.ternary main_call0.v12 main_call0.v11 main_call0.call0.v1 main_call0.call0.v2 (fun p a b => select (broadcastInDim S128 ![] bcast_S_S128 p) a b) ]

/-- The first layer's normalisation, scale, shift and (the called clamp) clamp, into `%35`. -/
abbrev C3 : List (HloOp τ sig (Elt F)) :=
  [ unary main_v18 main_v20 (broadcastInDim S1x128 ![1] bcast_S128_S1x128_1 : Vec128 F → Row128 F),
    unary main_v20 main_v21 (broadcastInDim S50000x128 ![0, 1] bcast_S1x128_S50000x128_0_1 : Row128 F → Feat F),
    binary main_v15 main_v21 main_v22 (subf : Feat F → Feat F → Feat F),
    nullary main_cst_4 (constant S_ .f32 0x3727C5AC#32),
    unary main_cst_4 main_v23 (broadcastInDim S128 ![] bcast_S_S128 : Sc F → Vec128 F),
    binary main_v19 main_v23 main_v24 (addf : Vec128 F → Vec128 F → Vec128 F),
    unary main_v24 main_v25 (Host.rsqrt : Vec128 F → Vec128 F),
    unary main_v25 main_v26 (broadcastInDim S1x128 ![1] bcast_S128_S1x128_1 : Vec128 F → Row128 F),
    unary main_v26 main_v27 (broadcastInDim S50000x128 ![0, 1] bcast_S1x128_S50000x128_0_1 : Row128 F → Feat F),
    binary main_v22 main_v27 main_v28 (mulf : Feat F → Feat F → Feat F),
    unary main_arg5 main_v29 (broadcastInDim S1x128 ![1] bcast_S128_S1x128_1 : Vec128 F → Row128 F),
    unary main_v29 main_v30 (broadcastInDim S50000x128 ![0, 1] bcast_S1x128_S50000x128_0_1 : Row128 F → Feat F),
    binary main_v28 main_v30 main_v31 (mulf : Feat F → Feat F → Feat F),
    unary main_arg6 main_v32 (broadcastInDim S1x128 ![1] bcast_S128_S1x128_1 : Vec128 F → Row128 F),
    unary main_v32 main_v33 (broadcastInDim S50000x128 ![0, 1] bcast_S1x128_S50000x128_0_1 : Row128 F → Feat F),
    binary main_v31 main_v33 main_v34 (addf : Feat F → Feat F → Feat F),
    TRef.nullary main_call1.cst (constant S_ .f32 0x00000000#32),
    TRef.unary main_call1.cst main_call1.v0 (broadcastInDim S50000x128 ![] bcast_S_S50000x128),
    TRef.binary (.of main_v34 : TRef sig ⟨S50000x128, .f32⟩) main_call1.v0 main_call1.v1 maximumf ]

/-- The second layer's linear part up to the bias row `%49` (where the printed program's first half ends). -/
abbrev C4a : List (HloOp τ sig (Elt F)) :=
  [ nullary main_c_5 (constantI S_ 32 0#32),
    unary main_c_5 main_v36 (broadcastInDim S800000 ![] bcast_S_S800000 : ScI F → Idx8 F),
    binary main_arg1 main_v36 main_v37 (cmpi .slt : Idx8 F → Idx8 F → Bit8 F),
    nullary main_c_6 (constantI S_ 32 50000#32),
    unary main_c_6 main_v38 (broadcastInDim S800000 ![] bcast_S_S800000 : ScI F → Idx8 F),
    binary main_arg1 main_v38 main_v39 (addi : Idx8 F → Idx8 F → Idx8 F),
    ternary main_v37 main_v39 main_arg1 main_v40 (select : Bit8 F → Idx8 F → Idx8 F → Idx8 F),
    unary main_v40 main_v41 (broadcastInDim S800000x1 ![0] bcast_S800000_S800000x1_0 : Idx8 F → Idx81 F),
    binary main_v35 main_v41 main_v42 ((fun x i => Host.gather gather_S50000x128_S800000x1_S800000x128_1_0_n_n_0_1_1128 x i) : Feat F → Idx81 F → Gath F),
    nullary main_cst_7 (constant S_ .f32 0x00000000#32),
    unary main_cst_7 main_v43 (broadcastInDim S50000x128 ![] bcast_S_S50000x128 : Sc F → Feat F),
    unary main_arg2 main_v44 (broadcastInDim S800000x1 ![0] bcast_S800000_S800000x1_0 : Idx8 F → Idx81 F),
    ternary main_v43 main_v44 main_v42 main_v45 ((fun x i u => Host.scatterAdd scatter_S50000x128_S800000x1_S800000x128_1_0_0_1 x i u) : Feat F → Idx81 F → Gath F → Feat F),
    binary main_v35 main_v45 main_v46 (addf : Feat F → Feat F → Feat F),
    unary main_arg7 main_v47 ((transpose S128x128 [1, 0] · transposes_S128x128_S128x128_1_0) : Wt F → Wt F),
    binary main_v46 main_v47 main_v48 ((fun l r => Host.dotGeneral dot_S50000x128_S128x128_S50000x128_1_0_0_1_n_n none l r) : Feat F → Wt F → Feat F),
    unary main_arg8 main_v49 (broadcastInDim S1x128 ![1] bcast_S128_S1x128_1 : Vec128 F → Row128 F) ]

/-- The rest of the second layer's linear part, into `%51`. -/
abbrev C4b : List (HloOp τ sig (Elt F)) :=
  [ unary main_v49 main_v50 (broadcastInDim S50000x128 ![0, 1] bcast_S1x128_S50000x128_0_1 : Row128 F → Feat F),
    binary main_v48 main_v50 main_v51 (addf : Feat F → Feat F → Feat F) ]

/-- The second layer's column means, into `%54`, and variances, into `%55`. -/
abbrev C5 : List (HloOp τ sig (Elt F)) :=
  [ nullary main_cst_8 (constant S_ .f32 0x00000000#32),
    binary main_v51 main_cst_8 main_v52 ((fun x v => Host.reduceAdd x v reducesTo_S50000x128_S128_d0 h_S_) : Feat F → Sc F → Vec128 F),
    nullary main_cst_9 (constant S_ .f32 0x47435000#32),
    unary main_cst_9 main_v53 (broadcastInDim S128 ![] bcast_S_S128 : Sc F → Vec128 F),
    binary main_v52 main_v53 main_v54 (Host.divf : Vec128 F → Vec128 F → Vec128 F),
    nullary main_c_10 (constantI S_ 32 0#32),
    TRef.nullary main_call2.cst (constant S_ .f32 0x00000000#32),
    TRef.binary (.of main_v51 : TRef sig ⟨S50000x128, .f32⟩) main_call2.cst main_call2.v0 (fun x v => Host.reduceAdd x v reducesTo_S50000x128_S128_d0 h_S_),
    TRef.unary main_call2.v0 main_call2.v1 (broadcastInDim S1x128 ![1] bcast_S128_S1x128_1),
    TRef.nullary main_call2.cst_0 (constant S_ .f32 0x47435000#32),
    TRef.unary main_call2.cst_0 main_call2.v2 (broadcastInDim S1x128 ![] bcast_S_S1x128),
    TRef.binary main_call2.v1 main_call2.v2 main_call2.v3 Host.divf,
    TRef.unary main_call2.v3 main_call2.v4 (broadcastInDim S50000x128 ![0, 1] bcast_S1x128_S50000x128_0_1),
    TRef.binary (.of main_v51 : TRef sig ⟨S50000x128, .f32⟩) main_call2.v4 main_call2.v5 subf,
    TRef.binary main_call2.v5 main_call2.v5 main_call2.v6 mulf,
    TRef.unary (.of main_c_10 : TRef sig ⟨S_, .i32⟩) main_call2.v7 (sitofp .f32),
    TRef.nullary main_call2.cst_1 (constant S_ .f32 0x47435000#32),
    TRef.binary main_call2.cst_1 main_call2.v7 main_call2.v8 subf,
    TRef.nullary main_call2.cst_2 (constant S_ .f32 0x00000000#32),
    TRef.binary main_call2.v6 main_call2.cst_2 main_call2.v9 (fun x v => Host.reduceAdd x v reducesTo_S50000x128_S128_d0 h_S_),
    TRef.unary main_call2.v8 main_call2.v10 (broadcastInDim S128 ![] bcast_S_S128),
    TRef.binary main_call2.v9 main_call2.v10 main_call2.v11 Host.divf,
    TRef.nullary main_call2.cst_3 (constant S_ .f32 0x00000000#32),
    TRef.binary main_call2.v8 main_call2.cst_3 main_call2.v12 (cmpf .ogt),
    TRef.nullary main_call2.cst_4 (constant S_ .f32 0x7FC00000#32),
    TRef.unary main_call2.cst_4 main_call2.call0.v0 id,
    TRef.unary main_call2.call0.v0 main_call2.call0.v1 (broadcastInDim S128 ![] bcast_S_S128),
    TRef.ternary main_call2.v12 main_call2.v11 main_call2.call0.v1 main_call2.call0.v2 (fun p a b => select (broadcastInDim S128 ![] bcast_S_S128 p) a b) ]

/-- The second layer's normalisation and clamp, into `%71`, then the last linear map and clamp, into `%77`. -/
abbrev C6 : List (HloOp τ sig (Elt F)) :=
  [ unary main_v54 main_v56 (broadcastInDim S1x128 ![1] bcast_S128_S1x128_1 : Vec128 F → Row128 F),
    unary main_v56 main_v57 (broadcastInDim S50000x128 ![0, 1] bcast_S1x128_S50000x128_0_1 : Row128 F → Feat F),
    binary main_v51 main_v57 main_v58 (subf : Feat F → Feat F → Feat F),
    nullary main_cst_11 (constant S_ .f32 0x3727C5AC#32),
    unary main_cst_11 main_v59 (broadcastInDim S128 ![] bcast_S_S128 : Sc F → Vec128 F),
    binary main_v55 main_v59 main_v60 (addf : Vec128 F → Vec128 F → Vec128 F),
    unary main_v60 main_v61 (Host.rsqrt : Vec128 F → Vec128 F),
    unary main_v61 main_v62 (broadcastInDim S1x128 ![1] bcast_S128_S1x128_1 : Vec128 F → Row128 F),
    unary main_v62 main_v63 (broadcastInDim S50000x128 ![0, 1] bcast_S1x128_S50000x128_0_1 : Row128 F → Feat F),
    binary main_v58 main_v63 main_v64 (mulf : Feat F → Feat F → Feat F),
    unary main_arg9 main_v65 (broadcastInDim S1x128 ![1] bcast_S128_S1x128_1 : Vec128 F → Row128 F),
    unary main_v65 main_v66 (broadcastInDim S50000x128 ![0, 1] bcast_S1x128_S50000x128_0_1 : Row128 F → Feat F),
    binary main_v64 main_v66 main_v67 (mulf : Feat F → Feat F → Feat F),
    unary main_arg10 main_v68 (broadcastInDim S1x128 ![1] bcast_S128_S1x128_1 : Vec128 F → Row128 F),
    unary main_v68 main_v69 (broadcastInDim S50000x128 ![0, 1] bcast_S1x128_S50000x128_0_1 : Row128 F → Feat F),
    binary main_v67 main_v69 main_v70 (addf : Feat F → Feat F → Feat F),
    TRef.nullary main_call3.cst (constant S_ .f32 0x00000000#32),
    TRef.unary main_call3.cst main_call3.v0 (broadcastInDim S50000x128 ![] bcast_S_S50000x128),
    TRef.binary (.of main_v70 : TRef sig ⟨S50000x128, .f32⟩) main_call3.v0 main_call3.v1 maximumf,
    unary main_arg11 main_v72 ((transpose S128x128 [1, 0] · transposes_S128x128_S128x128_1_0) : Wt F → Wt F),
    binary main_v71 main_v72 main_v73 ((fun l r => Host.dotGeneral dot_S50000x128_S128x128_S50000x128_1_0_0_1_n_n none l r) : Feat F → Wt F → Feat F),
    unary main_arg12 main_v74 (broadcastInDim S1x128 ![1] bcast_S128_S1x128_1 : Vec128 F → Row128 F),
    unary main_v74 main_v75 (broadcastInDim S50000x128 ![0, 1] bcast_S1x128_S50000x128_0_1 : Row128 F → Feat F),
    binary main_v73 main_v75 main_v76 (addf : Feat F → Feat F → Feat F),
    TRef.nullary main_call4.cst (constant S_ .f32 0x00000000#32),
    TRef.unary main_call4.cst main_call4.v0 (broadcastInDim S50000x128 ![] bcast_S_S50000x128),
    TRef.binary (.of main_v76 : TRef sig ⟨S50000x128, .f32⟩) main_call4.v0 main_call4.v1 maximumf ]

/-- The printed program's first half. -/
abbrev P0 : List (HloOp τ sig (Elt F)) := C1 ++ (C2 ++ (C3 ++ C4a))
/-- The printed program's second half. -/
abbrev P1 : List (HloOp τ sig (Elt F)) := C4b ++ (C5 ++ C6)
/-- All of the reference's operations, in order. -/
abbrev ops : List (HloOp τ sig (Elt F)) := P0 ++ P1

end Cert.RefSide

end
-- ==== Proof.RefMainEq.lean ====
/- The reference's program is the straight line of its operations: each half of the printed program is the
   sequence of its half of the list (the called functions unfold at their calls), and two sequences run one after
   the other are the sequence of the concatenated list. -/
import proofs.«108325_j57337813402032_1_alg».proof.Proof.RefOps

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
theorem main_part0_eq (c : Dev nD) : main_part0 (F := F) c = seq P0 := rfl

set_option maxRecDepth 8192 in
set_option maxHeartbeats 4000000 in
theorem main_part1_eq (c : Dev nD) : main_part1 (F := F) c = seq P1 := rfl

theorem main_eq (c : Dev nD) : main (F := F) c = seq ops := by
  rw [show (ops : List (HloOp τ sig (Elt F))) = P0 ++ P1 from rfl, seq_append, ← main_part0_eq c, ← main_part1_eq c]
  rfl

end Cert.RefSide

end
-- ==== Proof.RefChunk1.lean ====
/- The first layer's linear part, read back: after its nineteen operations the buffer `%15` holds `stLin` of the
   five arguments it reads, and every buffer outside the nineteen it writes is as before. -/
import proofs.«108325_j57337813402032_1_alg».proof.Proof.RefOps

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

/-- The buffers these operations write. -/
abbrev C1_W : List (Ref sig .tc) :=
  [main_c, main_v0, main_v1, main_c_0, main_v2, main_v3, main_v4, main_v5, main_v6, main_cst, main_v7, main_v8, main_v9,
   main_v10, main_v11, main_v12, main_v13, main_v14, main_v15]

theorem C1_writes : (C1 : List (HloOp τ sig (Elt F))).Forall fun op =>
    op.writes ⊆ (C1_W.map (Proc.devRef (τ := τ) .tc)).toFinset := by
  simp only [C1, List.Forall, nullary_writes, unary_writes, binary_writes, ternary_writes, Finset.singleton_subset_iff,
    List.mem_toFinset]
  repeat' apply And.intro
  all_goals exact List.mem_map_of_mem (by decide)

/-- A buffer outside those keeps its contents. -/
theorem C1_keep (V : Valuation τ sig (Elt F)) (r : Ref sig .tc) (h : r ∉ C1_W) :
    after C1 V (Proc.devRef .tc r) = V (Proc.devRef .tc r) :=
  after_of_writes_sub C1 V C1_writes h

theorem C1_sub : (C1 : List (HloOp τ sig (Elt F))).Forall fun op => op.bufs ⊆ tcRefs τ sig := by
  simp only [C1, List.Forall, nullary_bufs_sub, unary_bufs_sub, binary_bufs_sub, ternary_bufs_sub, and_self]

theorem C1_fresh : ∀ op ∈ (C1 : List (HloOp τ sig (Elt F))), op.fresh = ∅ := by
  intro _ h; (repeat (cases h with | head => rfl | tail _ h => ?_)); exact nomatch h

theorem C1_v15 (V : Valuation τ sig (Elt F)) :
    after C1 V (Proc.devRef .tc main_v15)
      = stLin (V (Proc.devRef .tc main_arg0)) (V (Proc.devRef .tc main_arg1)) (V (Proc.devRef .tc main_arg2))
          (V (Proc.devRef .tc main_arg3)) (V (Proc.devRef .tc main_arg4)) := by
  simp only [C1]
  after_results_simp
  rfl

end Cert.RefSide

end
-- ==== Proof.RefChunk2.lean ====
/- The first layer's column statistics, read back: after these operations `%18` holds the column means of `%15` and
   `%19` (the called variance function's result) its column variances; buffers outside those written are as before. -/
import proofs.«108325_j57337813402032_1_alg».proof.Proof.RefOps

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

/-- The buffers these operations write. -/
abbrev C2_W : List (Ref sig .tc) :=
  [main_cst_1, main_v16, main_cst_2, main_v17, main_v18, main_c_3,
   main_call0_cst, main_call0_v0, main_call0_v1, main_call0_cst_0, main_call0_v2, main_call0_v3, main_call0_v4, main_call0_v5,
   main_call0_v6, main_call0_v7, main_call0_cst_1, main_call0_v8, main_call0_cst_2, main_call0_v9, main_call0_v10, main_call0_v11,
   main_call0_cst_3, main_call0_v12, main_call0_cst_4, main_call0_call0_v0, main_call0_call0_v1, main_v19]

theorem C2_writes : (C2 : List (HloOp τ sig (Elt F))).Forall fun op =>
    op.writes ⊆ (C2_W.map (Proc.devRef (τ := τ) .tc)).toFinset := by
  simp only [C2, List.Forall, nullary_writes, unary_writes, binary_writes, ternary_writes, Finset.singleton_subset_iff,
    List.mem_toFinset]
  repeat' apply And.intro
  all_goals exact List.mem_map_of_mem (by decide)

/-- A buffer outside those keeps its contents. -/
theorem C2_keep (V : Valuation τ sig (Elt F)) (r : Ref sig .tc) (h : r ∉ C2_W) :
    after C2 V (Proc.devRef .tc r) = V (Proc.devRef .tc r) :=
  after_of_writes_sub C2 V C2_writes h

theorem C2_sub : (C2 : List (HloOp τ sig (Elt F))).Forall fun op => op.bufs ⊆ tcRefs τ sig := by
  simp only [C2, List.Forall, nullary_bufs_sub, unary_bufs_sub, binary_bufs_sub, ternary_bufs_sub, and_self]

theorem C2_fresh : ∀ op ∈ (C2 : List (HloOp τ sig (Elt F))), op.fresh = ∅ := by
  intro _ h; (repeat (cases h with | head => rfl | tail _ h => ?_)); exact nomatch h

theorem C2_v18 (V : Valuation τ sig (Elt F)) :
    after C2 V (Proc.devRef .tc main_v18)
      = stMean (V (Proc.devRef .tc main_v15)) := by
  simp only [C2]
  after_results_simp
  rfl

theorem C2_v19 (V : Valuation τ sig (Elt F)) :
    after C2 V (Proc.devRef .tc main_v19)
      = stVar (V (Proc.devRef .tc main_v15)) := by
  simp only [C2]
  after_results_simp
  rfl

end Cert.RefSide

end
-- ==== Proof.RefChunk3.lean ====
/- The first layer's normalisation and clamp, read back: `%35` holds `stBn` of `%15`, its means `%18`, its variances
   `%19` and the scale and shift arguments; buffers outside those written are as before. -/
import proofs.«108325_j57337813402032_1_alg».proof.Proof.RefOps

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

/-- The buffers these operations write. -/
abbrev C3_W : List (Ref sig .tc) :=
  [main_v20, main_v21, main_v22, main_cst_4, main_v23, main_v24, main_v25, main_v26, main_v27, main_v28, main_v29, main_v30,
   main_v31, main_v32, main_v33, main_v34, main_call1_cst, main_call1_v0, main_v35]

theorem C3_writes : (C3 : List (HloOp τ sig (Elt F))).Forall fun op =>
    op.writes ⊆ (C3_W.map (Proc.devRef (τ := τ) .tc)).toFinset := by
  simp only [C3, List.Forall, nullary_writes, unary_writes, binary_writes, ternary_writes, Finset.singleton_subset_iff,
    List.mem_toFinset]
  repeat' apply And.intro
  all_goals exact List.mem_map_of_mem (by decide)

/-- A buffer outside those keeps its contents. -/
theorem C3_keep (V : Valuation τ sig (Elt F)) (r : Ref sig .tc) (h : r ∉ C3_W) :
    after C3 V (Proc.devRef .tc r) = V (Proc.devRef .tc r) :=
  after_of_writes_sub C3 V C3_writes h

theorem C3_sub : (C3 : List (HloOp τ sig (Elt F))).Forall fun op => op.bufs ⊆ tcRefs τ sig := by
  simp only [C3, List.Forall, nullary_bufs_sub, unary_bufs_sub, binary_bufs_sub, ternary_bufs_sub, and_self]

theorem C3_fresh : ∀ op ∈ (C3 : List (HloOp τ sig (Elt F))), op.fresh = ∅ := by
  intro _ h; (repeat (cases h with | head => rfl | tail _ h => ?_)); exact nomatch h

theorem C3_v35 (V : Valuation τ sig (Elt F)) :
    after C3 V (Proc.devRef .tc main_v35)
      = stBn (V (Proc.devRef .tc main_v15)) (V (Proc.devRef .tc main_v18)) (V (Proc.devRef .tc main_v19)) (V (Proc.devRef .tc main_arg5)) (V (Proc.devRef .tc main_arg6)) := by
  simp only [C3]
  after_results_simp
  rfl

end Cert.RefSide

end
-- ==== Proof.RefChunk4.lean ====
/- The second layer's linear part, read back: `%51` holds `stLin` of the first layer's output `%35`, the two index
   lists and the second weights and bias; buffers outside those written are as before.  Its operations are the two
   lists the printed program's halves end and begin with; running one after the other is running their concatenation. -/
import proofs.«108325_j57337813402032_1_alg».proof.Proof.RefOps

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

/-- Operations run one list after another are the concatenated list run. -/
theorem after_append' : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_append' l₁ l₂]

/-- The buffers these operations write. -/
abbrev C4_W : List (Ref sig .tc) :=
  [main_c_5, main_v36, main_v37, main_c_6, main_v38, main_v39, main_v40, main_v41, main_v42, main_cst_7, main_v43, main_v44,
   main_v45, main_v46, main_v47, main_v48, main_v49, main_v50, main_v51]

theorem C4_writes : ((C4a ++ C4b) : List (HloOp τ sig (Elt F))).Forall fun op =>
    op.writes ⊆ (C4_W.map (Proc.devRef (τ := τ) .tc)).toFinset := by
  simp only [C4a, C4b, List.cons_append, List.nil_append, List.Forall, nullary_writes, unary_writes, binary_writes, ternary_writes, Finset.singleton_subset_iff,
    List.mem_toFinset]
  repeat' apply And.intro
  all_goals exact List.mem_map_of_mem (by decide)

/-- A buffer outside those keeps its contents. -/
theorem C4_keep (V : Valuation τ sig (Elt F)) (r : Ref sig .tc) (h : r ∉ C4_W) :
    after (C4a ++ C4b) V (Proc.devRef .tc r) = V (Proc.devRef .tc r) :=
  after_of_writes_sub (C4a ++ C4b) V C4_writes h

theorem C4_sub : ((C4a ++ C4b) : List (HloOp τ sig (Elt F))).Forall fun op => op.bufs ⊆ tcRefs τ sig := by
  simp only [C4a, C4b, List.cons_append, List.nil_append, List.Forall, nullary_bufs_sub, unary_bufs_sub, binary_bufs_sub, ternary_bufs_sub, and_self]

theorem C4_fresh : ∀ op ∈ ((C4a ++ C4b) : List (HloOp τ sig (Elt F))), op.fresh = ∅ := by
  intro _ h; simp only [C4a, C4b, List.cons_append, List.nil_append] at h; (repeat (cases h with | head => rfl | tail _ h => ?_)); exact nomatch h

theorem C4_v51 (V : Valuation τ sig (Elt F)) :
    after (C4a ++ C4b) V (Proc.devRef .tc main_v51)
      = stLin (V (Proc.devRef .tc main_v35)) (V (Proc.devRef .tc main_arg1)) (V (Proc.devRef .tc main_arg2)) (V (Proc.devRef .tc main_arg7)) (V (Proc.devRef .tc main_arg8)) := by
  simp only [C4a, C4b, List.cons_append, List.nil_append]
  after_results_simp
  rfl

end Cert.RefSide

end
-- ==== Proof.RefChunk5.lean ====
/- The second layer's column statistics, read back: `%54` holds the column means of `%51` and `%55` its column
   variances; buffers outside those written are as before. -/
import proofs.«108325_j57337813402032_1_alg».proof.Proof.RefOps

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

/-- The buffers these operations write. -/
abbrev C5_W : List (Ref sig .tc) :=
  [main_cst_8, main_v52, main_cst_9, main_v53, main_v54, main_c_10,
   main_call2_cst, main_call2_v0, main_call2_v1, main_call2_cst_0, main_call2_v2, main_call2_v3, main_call2_v4, main_call2_v5,
   main_call2_v6, main_call2_v7, main_call2_cst_1, main_call2_v8, main_call2_cst_2, main_call2_v9, main_call2_v10, main_call2_v11,
   main_call2_cst_3, main_call2_v12, main_call2_cst_4, main_call2_call0_v0, main_call2_call0_v1, main_v55]

theorem C5_writes : (C5 : List (HloOp τ sig (Elt F))).Forall fun op =>
    op.writes ⊆ (C5_W.map (Proc.devRef (τ := τ) .tc)).toFinset := by
  simp only [C5, List.Forall, nullary_writes, unary_writes, binary_writes, ternary_writes, Finset.singleton_subset_iff,
    List.mem_toFinset]
  repeat' apply And.intro
  all_goals exact List.mem_map_of_mem (by decide)

/-- A buffer outside those keeps its contents. -/
theorem C5_keep (V : Valuation τ sig (Elt F)) (r : Ref sig .tc) (h : r ∉ C5_W) :
    after C5 V (Proc.devRef .tc r) = V (Proc.devRef .tc r) :=
  after_of_writes_sub C5 V C5_writes h

theorem C5_sub : (C5 : List (HloOp τ sig (Elt F))).Forall fun op => op.bufs ⊆ tcRefs τ sig := by
  simp only [C5, List.Forall, nullary_bufs_sub, unary_bufs_sub, binary_bufs_sub, ternary_bufs_sub, and_self]

theorem C5_fresh : ∀ op ∈ (C5 : List (HloOp τ sig (Elt F))), op.fresh = ∅ := by
  intro _ h; (repeat (cases h with | head => rfl | tail _ h => ?_)); exact nomatch h

theorem C5_v54 (V : Valuation τ sig (Elt F)) :
    after C5 V (Proc.devRef .tc main_v54)
      = stMean (V (Proc.devRef .tc main_v51)) := by
  simp only [C5]
  after_results_simp
  rfl

theorem C5_v55 (V : Valuation τ sig (Elt F)) :
    after C5 V (Proc.devRef .tc main_v55)
      = stVar (V (Proc.devRef .tc main_v51)) := by
  simp only [C5]
  after_results_simp
  rfl

end Cert.RefSide

end
-- ==== Proof.RefChunk6.lean ====
/- The second layer's normalisation and clamp and the last linear map and clamp, read back: `%77` holds `stOut` of
   `stBn` of `%51`, its means `%54`, its variances `%55` and the remaining arguments; buffers outside those written
   are as before. -/
import proofs.«108325_j57337813402032_1_alg».proof.Proof.RefOps

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

/-- The buffers these operations write. -/
abbrev C6_W : List (Ref sig .tc) :=
  [main_v56, main_v57, main_v58, main_cst_11, main_v59, main_v60, main_v61, main_v62, main_v63, main_v64, main_v65, main_v66,
   main_v67, main_v68, main_v69, main_v70, main_call3_cst, main_call3_v0, main_v71, main_v72, main_v73, main_v74, main_v75, main_v76,
   main_call4_cst, main_call4_v0, main_v77]

theorem C6_writes : (C6 : List (HloOp τ sig (Elt F))).Forall fun op =>
    op.writes ⊆ (C6_W.map (Proc.devRef (τ := τ) .tc)).toFinset := by
  simp only [C6, List.Forall, nullary_writes, unary_writes, binary_writes, ternary_writes, Finset.singleton_subset_iff,
    List.mem_toFinset]
  repeat' apply And.intro
  all_goals exact List.mem_map_of_mem (by decide)

/-- A buffer outside those keeps its contents. -/
theorem C6_keep (V : Valuation τ sig (Elt F)) (r : Ref sig .tc) (h : r ∉ C6_W) :
    after C6 V (Proc.devRef .tc r) = V (Proc.devRef .tc r) :=
  after_of_writes_sub C6 V C6_writes h

theorem C6_sub : (C6 : List (HloOp τ sig (Elt F))).Forall fun op => op.bufs ⊆ tcRefs τ sig := by
  simp only [C6, List.Forall, nullary_bufs_sub, unary_bufs_sub, binary_bufs_sub, ternary_bufs_sub, and_self]

theorem C6_fresh : ∀ op ∈ (C6 : List (HloOp τ sig (Elt F))), op.fresh = ∅ := by
  intro _ h; (repeat (cases h with | head => rfl | tail _ h => ?_)); exact nomatch h

theorem C6_v77 (V : Valuation τ sig (Elt F)) :
    after C6 V (Proc.devRef .tc main_v77)
      = stOut (stBn (V (Proc.devRef .tc main_v51)) (V (Proc.devRef .tc main_v54)) (V (Proc.devRef .tc main_v55)) (V (Proc.devRef .tc main_arg9)) (V (Proc.devRef .tc main_arg10)))
          (V (Proc.devRef .tc main_arg11)) (V (Proc.devRef .tc main_arg12)) := by
  simp only [C6]
  after_results_simp
  rfl

end Cert.RefSide

end
-- ==== Proof.RefRun.lean ====
/- The reference's run.  Its program is a straight line of 140 operations; every weakly fair execution of it ends,
   without a fault, with each buffer at the operations' fold over the launch contents.  The fold is read stage by
   stage: the first layer's linear part leaves `stLin` of the arguments in `%15`; the column statistics read `%15` and
   leave its means and variances; the normalisation reads those three and the scale and shift arguments; and so on
   through the second layer to the last linear map — each stage reads what the earlier ones left and the arguments,
   which no operation writes.  Composed, the result buffer holds `refOut` of the thirteen arguments, and the
   arguments are unchanged. -/
import proofs.«108325_j57337813402032_1_alg».proof.Proof.RefMainEq
import proofs.«108325_j57337813402032_1_alg».proof.Proof.RefChunk1
import proofs.«108325_j57337813402032_1_alg».proof.Proof.RefChunk2
import proofs.«108325_j57337813402032_1_alg».proof.Proof.RefChunk3
import proofs.«108325_j57337813402032_1_alg».proof.Proof.RefChunk4
import proofs.«108325_j57337813402032_1_alg».proof.Proof.RefChunk5
import proofs.«108325_j57337813402032_1_alg».proof.Proof.RefChunk6
import Idealize.ShloMosaic.PureOps.Ideal

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

/-! ## Side conditions of the run -/

theorem scopedRefs_eq : (Finset.univ.filter fun b : Ref sig .tc => b.isScoped) = ∅ := by decide
theorem scopedSems_eq : (Finset.univ.filter fun sm : SemLoc sig => sm.isScoped .tc) = ∅ := by decide

/-- A property of every operation of every stage's list is a property of every operation. -/
theorem ops_forall {p : HloOp τ sig (Elt F) → Prop} (h1 : ∀ op ∈ (C1 : List (HloOp τ sig (Elt F))), p op)
    (h2 : ∀ op ∈ (C2 : List (HloOp τ sig (Elt F))), p op) (h3 : ∀ op ∈ (C3 : List (HloOp τ sig (Elt F))), p op)
    (h4 : ∀ op ∈ (C4a ++ C4b : List (HloOp τ sig (Elt F))), p op) (h5 : ∀ op ∈ (C5 : List (HloOp τ sig (Elt F))), p op)
    (h6 : ∀ op ∈ (C6 : List (HloOp τ sig (Elt F))), p op) : ∀ op ∈ (ops : List (HloOp τ sig (Elt F))), p op := by
  intro op h
  rcases List.mem_append.mp h with h | h
  · rcases List.mem_append.mp h with h | h
    · exact h1 op h
    · rcases List.mem_append.mp h with h | h
      · exact h2 op h
      · rcases List.mem_append.mp h with h | h
        · exact h3 op h
        · exact h4 op (List.mem_append_left _ h)
  · rcases List.mem_append.mp h with h | h
    · exact h4 op (List.mem_append_right _ h)
    · rcases List.mem_append.mp h with h | h
      · exact h5 op h
      · exact h6 op h

theorem ops_sub : (ops : List (HloOp τ sig (Elt F))).Forall fun op => op.bufs ⊆ tcRefs τ sig :=
  List.forall_iff_forall_mem.mpr (ops_forall (List.forall_iff_forall_mem.mp C1_sub) (List.forall_iff_forall_mem.mp C2_sub)
    (List.forall_iff_forall_mem.mp C3_sub) (List.forall_iff_forall_mem.mp C4_sub) (List.forall_iff_forall_mem.mp C5_sub)
    (List.forall_iff_forall_mem.mp C6_sub))

theorem ops_fresh : ∀ op ∈ (ops : List (HloOp τ sig (Elt F))), op.fresh = ∅ :=
  ops_forall C1_fresh C2_fresh C3_fresh C4_fresh C5_fresh C6_fresh

/-! ## The fold, stage by stage -/

/-- The whole list's fold is the stages' folds, one after the other. -/
theorem after_ops (V : Valuation τ sig (Elt F)) :
    after ops V = after C6 (after C5 (after (C4a ++ C4b) (after C3 (after C2 (after C1 V))))) := by
  simp only [ops, P0, P1, after_append']

/-- Buffers that the first two stages do not write keep their contents through them; likewise below for the first
    three, four, five and all six. -/
theorem keep2 (V : Valuation τ sig (Elt F)) (r : Ref sig .tc) (h : r ∉ C1_W ++ C2_W) :
    after C2 (after C1 V) (Proc.devRef .tc r) = V (Proc.devRef .tc r) :=
  (C2_keep _ r fun h' => h (List.mem_append_right _ h')).trans (C1_keep V r fun h' => h (List.mem_append_left _ h'))

theorem keep3 (V : Valuation τ sig (Elt F)) (r : Ref sig .tc) (h : r ∉ (C1_W ++ C2_W) ++ C3_W) :
    after C3 (after C2 (after C1 V)) (Proc.devRef .tc r) = V (Proc.devRef .tc r) :=
  (C3_keep _ r fun h' => h (List.mem_append_right _ h')).trans (keep2 V r fun h' => h (List.mem_append_left _ h'))

theorem keep4 (V : Valuation τ sig (Elt F)) (r : Ref sig .tc) (h : r ∉ ((C1_W ++ C2_W) ++ C3_W) ++ C4_W) :
    after (C4a ++ C4b) (after C3 (after C2 (after C1 V))) (Proc.devRef .tc r) = V (Proc.devRef .tc r) :=
  (C4_keep _ r fun h' => h (List.mem_append_right _ h')).trans (keep3 V r fun h' => h (List.mem_append_left _ h'))

theorem keep5 (V : Valuation τ sig (Elt F)) (r : Ref sig .tc) (h : r ∉ (((C1_W ++ C2_W) ++ C3_W) ++ C4_W) ++ C5_W) :
    after C5 (after (C4a ++ C4b) (after C3 (after C2 (after C1 V)))) (Proc.devRef .tc r) = V (Proc.devRef .tc r) :=
  (C5_keep _ r fun h' => h (List.mem_append_right _ h')).trans (keep4 V r fun h' => h (List.mem_append_left _ h'))

theorem keep6 (V : Valuation τ sig (Elt F)) (r : Ref sig .tc)
    (h : r ∉ ((((C1_W ++ C2_W) ++ C3_W) ++ C4_W) ++ C5_W) ++ C6_W) :
    after C6 (after C5 (after (C4a ++ C4b) (after C3 (after C2 (after C1 V))))) (Proc.devRef .tc r)
      = V (Proc.devRef .tc r) :=
  (C6_keep _ r fun h' => h (List.mem_append_right _ h')).trans (keep5 V r fun h' => h (List.mem_append_left _ h'))

/-- The first layer's linear output, of the contents the program starts from. -/
abbrev x1 (V : Valuation τ sig (Elt F)) : Feat F :=
  stLin (V (Proc.devRef .tc main_arg0)) (V (Proc.devRef .tc main_arg1)) (V (Proc.devRef .tc main_arg2))
    (V (Proc.devRef .tc main_arg3)) (V (Proc.devRef .tc main_arg4))
/-- The first layer's output. -/
abbrev h1 (V : Valuation τ sig (Elt F)) : Feat F :=
  stBn (x1 V) (stMean (x1 V)) (stVar (x1 V)) (V (Proc.devRef .tc main_arg5)) (V (Proc.devRef .tc main_arg6))
/-- The second layer's linear output. -/
abbrev x2 (V : Valuation τ sig (Elt F)) : Feat F :=
  stLin (h1 V) (V (Proc.devRef .tc main_arg1)) (V (Proc.devRef .tc main_arg2))
    (V (Proc.devRef .tc main_arg7)) (V (Proc.devRef .tc main_arg8))
/-- The second layer's output. -/
abbrev y2 (V : Valuation τ sig (Elt F)) : Feat F :=
  stBn (x2 V) (stMean (x2 V)) (stVar (x2 V)) (V (Proc.devRef .tc main_arg9)) (V (Proc.devRef .tc main_arg10))

theorem val2_v15 (V : Valuation τ sig (Elt F)) : after C2 (after C1 V) (Proc.devRef .tc main_v15) = x1 V :=
  (C2_keep _ main_v15 (by decide)).trans (C1_v15 V)
theorem val2_v18 (V : Valuation τ sig (Elt F)) : after C2 (after C1 V) (Proc.devRef .tc main_v18) = stMean (x1 V) :=
  (C2_v18 _).trans (congrArg stMean (C1_v15 V))
theorem val2_v19 (V : Valuation τ sig (Elt F)) : after C2 (after C1 V) (Proc.devRef .tc main_v19) = stVar (x1 V) :=
  (C2_v19 _).trans (congrArg stVar (C1_v15 V))

theorem val3_v35 (V : Valuation τ sig (Elt F)) :
    after C3 (after C2 (after C1 V)) (Proc.devRef .tc main_v35) = h1 V := by
  rw [C3_v35, val2_v15, val2_v18, val2_v19, keep2 V main_arg5 (by decide), keep2 V main_arg6 (by decide)]

theorem val4_v51 (V : Valuation τ sig (Elt F)) :
    after (C4a ++ C4b) (after C3 (after C2 (after C1 V))) (Proc.devRef .tc main_v51) = x2 V := by
  rw [C4_v51, val3_v35, keep3 V main_arg1 (by decide), keep3 V main_arg2 (by decide), keep3 V main_arg7 (by decide),
    keep3 V main_arg8 (by decide)]

theorem val5_v51 (V : Valuation τ sig (Elt F)) :
    after C5 (after (C4a ++ C4b) (after C3 (after C2 (after C1 V)))) (Proc.devRef .tc main_v51) = x2 V :=
  (C5_keep _ main_v51 (by decide)).trans (val4_v51 V)
theorem val5_v54 (V : Valuation τ sig (Elt F)) :
    after C5 (after (C4a ++ C4b) (after C3 (after C2 (after C1 V)))) (Proc.devRef .tc main_v54) = stMean (x2 V) :=
  (C5_v54 _).trans (congrArg stMean (val4_v51 V))
theorem val5_v55 (V : Valuation τ sig (Elt F)) :
    after C5 (after (C4a ++ C4b) (after C3 (after C2 (after C1 V)))) (Proc.devRef .tc main_v55) = stVar (x2 V) :=
  (C5_v55 _).trans (congrArg stVar (val4_v51 V))

theorem val6_v77 (V : Valuation τ sig (Elt F)) :
    after C6 (after C5 (after (C4a ++ C4b) (after C3 (after C2 (after C1 V))))) (Proc.devRef .tc main_v77)
      = stOut (y2 V) (V (Proc.devRef .tc main_arg11)) (V (Proc.devRef .tc main_arg12)) := by
  rw [C6_v77, val5_v51, val5_v54, val5_v55, keep5 V main_arg9 (by decide), keep5 V main_arg10 (by decide),
    keep5 V main_arg11 (by decide), keep5 V main_arg12 (by decide)]

/-- After all the operations the result buffer holds `refOut` of the arguments' contents. -/
theorem ops_v77 (V : Valuation τ sig (Elt F)) :
    after ops V (Proc.devRef .tc main_v77)
      = refOut (V (Proc.devRef .tc main_arg0)) (V (Proc.devRef .tc main_arg1)) (V (Proc.devRef .tc main_arg2))
          (V (Proc.devRef .tc main_arg3)) (V (Proc.devRef .tc main_arg4)) (V (Proc.devRef .tc main_arg5))
          (V (Proc.devRef .tc main_arg6)) (V (Proc.devRef .tc main_arg7)) (V (Proc.devRef .tc main_arg8))
          (V (Proc.devRef .tc main_arg9)) (V (Proc.devRef .tc main_arg10)) (V (Proc.devRef .tc main_arg11))
          (V (Proc.devRef .tc main_arg12)) := by
  rw [after_ops]
  exact val6_v77 V

/-- After all the operations a buffer none of them writes is as it was. -/
theorem ops_keep (V : Valuation τ sig (Elt F)) (r : Ref sig .tc)
    (h : r ∉ ((((C1_W ++ C2_W) ++ C3_W) ++ C4_W) ++ C5_W) ++ C6_W) :
    after ops V (Proc.devRef .tc r) = V (Proc.devRef .tc r) := by
  rw [after_ops]
  exact keep6 V r h

/-! ## The run -/

/-- From any memory with zero counters, every weakly fair execution of the reference ends, without a fault, with the
    result buffer at `refOut` of the thirteen argument arrays and the argument arrays unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v77)
        = refOut (F := Ideal) (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
            (m ((c.tc : Thread nD τ).loc main_arg8)) (m ((c.tc : Thread nD τ).loc main_arg9))
            (m ((c.tc : Thread nD τ).loc main_arg10)) (m ((c.tc : Thread nD τ).loc main_arg11))
            (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c =>
      ⟨(h c main_v77).trans (ops_v77 (launchContents m c)),
       (h c main_arg0).trans (ops_keep _ main_arg0 (by decide)),
       (h c main_arg1).trans (ops_keep _ main_arg1 (by decide)),
       (h c main_arg2).trans (ops_keep _ main_arg2 (by decide)),
       (h c main_arg3).trans (ops_keep _ main_arg3 (by decide)),
       (h c main_arg4).trans (ops_keep _ main_arg4 (by decide)),
       (h c main_arg5).trans (ops_keep _ main_arg5 (by decide)),
       (h c main_arg6).trans (ops_keep _ main_arg6 (by decide)),
       (h c main_arg7).trans (ops_keep _ main_arg7 (by decide)),
       (h c main_arg8).trans (ops_keep _ main_arg8 (by decide)),
       (h c main_arg9).trans (ops_keep _ main_arg9 (by decide)),
       (h c main_arg10).trans (ops_keep _ main_arg10 (by decide)),
       (h c main_arg11).trans (ops_keep _ main_arg11 (by decide)),
       (h c main_arg12).trans (ops_keep _ main_arg12 (by decide))⟩)
    (run_seq scopedRefs_eq scopedSems_eq defs main (fun _ => ops) main_eq (fun _ => ops_sub) m ρ (fun _ => ops_fresh))

end Cert.RefSide

end
-- ==== Proof.RefTerm.lean ====
/- The reference network as one pure function of its thirteen argument arrays.
   A layer adds to the node features the sum, over the edges entering each node, of the features at the
   edges' sources; multiplies by the transposed weights and adds the bias; takes each column's mean and its
   variance (the mean of the squared deviations from the mean) over the 50000 rows; subtracts the mean,
   multiplies by the reciprocal square root of the variance plus a small constant, scales, shifts, and clamps
   below at zero.  Two such layers are followed by one more linear map and a clamp.  Every definition below
   lists the program's operations in the program's order, with the program's own shape facts. -/
import proofs.«108325_j57337813402032_1_alg».proof.ReferenceIdeal
import proofs.«108325_j57337813402032_1_alg».proof.Proof.Spec
import Idealize.ShloMosaic.PureOps.Ideal

noncomputable section

namespace Cert.RefSide

open Cert.ReferenceIdeal Idealize.ShloMosaic
open Cert.ReferenceIdeal.Facts₀ Cert.ReferenceIdeal.Facts

variable [Cert.ReferenceIdeal.Facts]

/-- The neighbour sum: row `src e` of `x` (a negative index counted from the end) is read for every edge `e` and
    added into row `dst e` of a zero matrix. -/
def segsum (x : S50000x128.Idx → EReal) (src dst : IVec S800000 32) : S50000x128.Idx → EReal :=
  have c : IVec S_ 32 := constantI S_ 32 0#32
  have v0 : IVec S800000 32 := broadcastInDim S800000 ![] bcast_S_S800000 c
  have v1 : IVec S800000 1 := cmpi .slt src v0
  have c_0 : IVec S_ 32 := constantI S_ 32 50000#32
  have v2 : IVec S800000 32 := broadcastInDim S800000 ![] bcast_S_S800000 c_0
  have v3 : IVec S800000 32 := addi src v2
  have v4 : IVec S800000 32 := select v1 v3 src
  have v5 : IVec S800000x1 32 := broadcastInDim S800000x1 ![0] bcast_S800000_S800000x1_0 v4
  have v6 : S800000x128.Idx → EReal := Host.gather gather_S50000x128_S800000x1_S800000x128_1_0_n_n_0_1_1128 x v5
  have cst : S_.Idx → EReal := constant (F := Ideal) S_ .f32 0x00000000#32
  have v7 : S50000x128.Idx → EReal := broadcastInDim S50000x128 ![] bcast_S_S50000x128 cst
  have v8 : IVec S800000x1 32 := broadcastInDim S800000x1 ![0] bcast_S800000_S800000x1_0 dst
  Host.scatterAdd (F := Ideal) (φ := .f32) scatter_S50000x128_S800000x1_S800000x128_1_0_0_1 v7 v8 v6

/-- The linear map: the rows of `y` against the rows of `W` (the weights are transposed first), plus the bias
    on every row. -/
def linOp (y : S50000x128.Idx → EReal) (W : S128x128.Idx → EReal) (b : S128.Idx → EReal) : S50000x128.Idx → EReal :=
  have v11 : S128x128.Idx → EReal := transpose (s := S128x128) S128x128 [1, 0] W transposes_S128x128_S128x128_1_0
  have v12 : S50000x128.Idx → EReal :=
    Host.dotGeneral (F := Ideal) (φ₁ := .f32) (φ₂ := .f32) dot_S50000x128_S128x128_S50000x128_1_0_0_1_n_n none y v11
  have v13 : S1x128.Idx → EReal := broadcastInDim S1x128 ![1] bcast_S128_S1x128_1 b
  have v14 : S50000x128.Idx → EReal := broadcastInDim S50000x128 ![0, 1] bcast_S1x128_S50000x128_0_1 v13
  addf (F := Ideal) (φ := .f32) v12 v14

/-- Each column's mean: its sum over the rows, from zero, divided by the row count. -/
def meanOp (x : S50000x128.Idx → EReal) : S128.Idx → EReal :=
  have cst_1 : S_.Idx → EReal := constant (F := Ideal) S_ .f32 0x00000000#32
  have v16 : S128.Idx → EReal := Host.reduceAdd (F := Ideal) (φ := .f32) x cst_1 reducesTo_S50000x128_S128_d0 h_S_
  have cst_2 : S_.Idx → EReal := constant (F := Ideal) S_ .f32 0x47435000#32
  have v17 : S128.Idx → EReal := broadcastInDim S128 ![] bcast_S_S128 cst_2
  Host.divf (F := Ideal) (φ := .f32) v16 v17

/-- Each column's variance with `n` degrees of freedom removed: the squared deviations from the column's mean,
    summed over the rows and divided by the row count minus `n` where that is positive (and a not-a-number
    elsewhere). -/
def varOp (x : S50000x128.Idx → EReal) (n : IVec S_ 32) : S128.Idx → EReal :=
  have cst : S_.Idx → EReal := constant (F := Ideal) S_ .f32 0x00000000#32
  have w0 : S128.Idx → EReal := Host.reduceAdd (F := Ideal) (φ := .f32) x cst reducesTo_S50000x128_S128_d0 h_S_
  have w1 : S1x128.Idx → EReal := broadcastInDim S1x128 ![1] bcast_S128_S1x128_1 w0
  have cst_0 : S_.Idx → EReal := constant (F := Ideal) S_ .f32 0x47435000#32
  have w2 : S1x128.Idx → EReal := broadcastInDim S1x128 ![] bcast_S_S1x128 cst_0
  have w3 : S1x128.Idx → EReal := Host.divf (F := Ideal) (φ := .f32) w1 w2
  have w4 : S50000x128.Idx → EReal := broadcastInDim S50000x128 ![0, 1] bcast_S1x128_S50000x128_0_1 w3
  have w5 : S50000x128.Idx → EReal := subf (F := Ideal) (φ := .f32) x w4
  have w6 : S50000x128.Idx → EReal := mulf (F := Ideal) (φ := .f32) w5 w5
  have w7 : S_.Idx → EReal := sitofp (F := Ideal) .f32 n
  have cst_1 : S_.Idx → EReal := constant (F := Ideal) S_ .f32 0x47435000#32
  have w8 : S_.Idx → EReal := subf (F := Ideal) (φ := .f32) cst_1 w7
  have cst_2 : S_.Idx → EReal := constant (F := Ideal) S_ .f32 0x00000000#32
  have w9 : S128.Idx → EReal := Host.reduceAdd (F := Ideal) (φ := .f32) w6 cst_2 reducesTo_S50000x128_S128_d0 h_S_
  have w10 : S128.Idx → EReal := broadcastInDim S128 ![] bcast_S_S128 w8
  have w11 : S128.Idx → EReal := Host.divf (F := Ideal) (φ := .f32) w9 w10
  have cst_3 : S_.Idx → EReal := constant (F := Ideal) S_ .f32 0x00000000#32
  have w12 : IVec S_ 1 := cmpf (F := Ideal) (φ := .f32) .ogt w8 cst_3
  have cst_4 : S_.Idx → EReal := constant (F := Ideal) S_ .f32 0x7FC00000#32
  have y0 : S_.Idx → EReal := id cst_4
  have y1 : S128.Idx → EReal := broadcastInDim S128 ![] bcast_S_S128 y0
  select (broadcastInDim S128 ![] bcast_S_S128 w12) w11 y1

/-- Normalise by a given mean and variance, scale and shift: every row minus the mean, times the reciprocal square
    root of the variance plus the small constant, times the scale, plus the shift. -/
def bnOp (x : S50000x128.Idx → EReal) (mu var g be : S128.Idx → EReal) : S50000x128.Idx → EReal :=
  have v20 : S1x128.Idx → EReal := broadcastInDim S1x128 ![1] bcast_S128_S1x128_1 mu
  have v21 : S50000x128.Idx → EReal := broadcastInDim S50000x128 ![0, 1] bcast_S1x128_S50000x128_0_1 v20
  have v22 : S50000x128.Idx → EReal := subf (F := Ideal) (φ := .f32) x v21
  have cst_4 : S_.Idx → EReal := constant (F := Ideal) S_ .f32 0x3727C5AC#32
  have v23 : S128.Idx → EReal := broadcastInDim S128 ![] bcast_S_S128 cst_4
  have v24 : S128.Idx → EReal := addf (F := Ideal) (φ := .f32) var v23
  have v25 : S128.Idx → EReal := Host.rsqrt (F := Ideal) (φ := .f32) v24
  have v26 : S1x128.Idx → EReal := broadcastInDim S1x128 ![1] bcast_S128_S1x128_1 v25
  have v27 : S50000x128.Idx → EReal := broadcastInDim S50000x128 ![0, 1] bcast_S1x128_S50000x128_0_1 v26
  have v28 : S50000x128.Idx → EReal := mulf (F := Ideal) (φ := .f32) v22 v27
  have v29 : S1x128.Idx → EReal := broadcastInDim S1x128 ![1] bcast_S128_S1x128_1 g
  have v30 : S50000x128.Idx → EReal := broadcastInDim S50000x128 ![0, 1] bcast_S1x128_S50000x128_0_1 v29
  have v31 : S50000x128.Idx → EReal := mulf (F := Ideal) (φ := .f32) v28 v30
  have v32 : S1x128.Idx → EReal := broadcastInDim S1x128 ![1] bcast_S128_S1x128_1 be
  have v33 : S50000x128.Idx → EReal := broadcastInDim S50000x128 ![0, 1] bcast_S1x128_S50000x128_0_1 v32
  addf (F := Ideal) (φ := .f32) v31 v33

/-- Clamp below at zero, entry by entry. -/
def reluOp (x : S50000x128.Idx → EReal) : S50000x128.Idx → EReal :=
  have cst : S_.Idx → EReal := constant (F := Ideal) S_ .f32 0x00000000#32
  have v0 : S50000x128.Idx → EReal := broadcastInDim S50000x128 ![] bcast_S_S50000x128 cst
  maximumf (F := Ideal) (φ := .f32) x v0

/-- The whole reference: two layers and the last linear map, of the argument arrays in the program's order
    (features, edge sources, edge destinations, then per layer weights, bias, scale, shift, and the last map's
    weights and bias). -/
def refNet (a0 : S50000x128.Idx → EReal) (a1 a2 : IVec S800000 32) (a3 : S128x128.Idx → EReal) (a4 a5 a6 : S128.Idx → EReal)
    (a7 : S128x128.Idx → EReal) (a8 a9 a10 : S128.Idx → EReal) (a11 : S128x128.Idx → EReal) (a12 : S128.Idx → EReal) :
    S50000x128.Idx → EReal :=
  have v9 : S50000x128.Idx → EReal := segsum a0 a1 a2
  have v10 : S50000x128.Idx → EReal := addf (F := Ideal) (φ := .f32) a0 v9
  have v15 : S50000x128.Idx → EReal := linOp v10 a3 a4
  have v18 : S128.Idx → EReal := meanOp v15
  have c_3 : IVec S_ 32 := constantI S_ 32 0#32
  have v19 : S128.Idx → EReal := varOp v15 c_3
  have v34 : S50000x128.Idx → EReal := bnOp v15 v18 v19 a5 a6
  have v35 : S50000x128.Idx → EReal := reluOp v34
  have v45 : S50000x128.Idx → EReal := segsum v35 a1 a2
  have v46 : S50000x128.Idx → EReal := addf (F := Ideal) (φ := .f32) v35 v45
  have v51 : S50000x128.Idx → EReal := linOp v46 a7 a8
  have v54 : S128.Idx → EReal := meanOp v51
  have c_10 : IVec S_ 32 := constantI S_ 32 0#32
  have v55 : S128.Idx → EReal := varOp v51 c_10
  have v70 : S50000x128.Idx → EReal := bnOp v51 v54 v55 a9 a10
  have v71 : S50000x128.Idx → EReal := reluOp v70
  have v76 : S50000x128.Idx → EReal := linOp v71 a11 a12
  reluOp v76

end Cert.RefSide

end
-- ==== Proof.RefBridge.lean ====
/- The reference network written stage by stage in two ways — over the extended reals with the neighbour sum, the
   linear map, the statistics, the normalisation and the clamp as separate functions, and over any float values
   with the linear map fused with the neighbour sum and the clamp fused with the normalisation — is one and the
   same list of operations; at the extended reals the two terms unfold to each other. -/
import proofs.«108325_j57337813402032_1_alg».proof.Proof.RefTerm
import proofs.«108325_j57337813402032_1_alg».proof.Proof.RefStages

noncomputable section

namespace Cert.RefSide

open Cert.ReferenceIdeal Idealize.ShloMosaic

theorem stLin_eq (h : S50000x128.Idx → EReal) (s d : IVec S800000 32) (W : S128x128.Idx → EReal) (b : S128.Idx → EReal) :
    stLin (F := Ideal) h s d W b = linOp (addf (F := Ideal) (φ := .f32) h (segsum h s d)) W b := rfl

theorem stMean_eq (x : S50000x128.Idx → EReal) : stMean (F := Ideal) x = meanOp x := rfl

theorem stVar_eq (x : S50000x128.Idx → EReal) : stVar (F := Ideal) x = varOp x (constantI S_ 32 0#32) := rfl

theorem stBn_eq (x : S50000x128.Idx → EReal) (mu var g be : S128.Idx → EReal) :
    stBn (F := Ideal) x mu var g be = reluOp (bnOp x mu var g be) := rfl

theorem stOut_eq (y : S50000x128.Idx → EReal) (W : S128x128.Idx → EReal) (b : S128.Idx → EReal) :
    stOut (F := Ideal) y W b = reluOp (linOp y W b) := rfl

/-- The two spellings of the whole network agree. -/
theorem refOut_eq_refNet (a0 : S50000x128.Idx → EReal) (a1 a2 : IVec S800000 32) (a3 : S128x128.Idx → EReal)
    (a4 a5 a6 : S128.Idx → EReal) (a7 : S128x128.Idx → EReal) (a8 a9 a10 : S128.Idx → EReal)
    (a11 : S128x128.Idx → EReal) (a12 : S128.Idx → EReal) :
    refOut (F := Ideal) a0 a1 a2 a3 a4 a5 a6 a7 a8 a9 a10 a11 a12 = refNet a0 a1 a2 a3 a4 a5 a6 a7 a8 a9 a10 a11 a12 := by
  unfold refOut refNet
  simp only [stLin_eq, stMean_eq, stVar_eq, stBn_eq, stOut_eq]

end Cert.RefSide

end
-- ==== Proof.RefReadOps.lean ====
/- The reference's array operations read at one entry, at the network's literal shapes: a scalar laid over an
   array reads the scalar; a row laid along every row of a matrix reads the row's entry in that column; the
   transposed weights read the weights with the coordinates swapped; the matrix product at (p, c) is the sum over
   k of the left factor at (p, k) times the right factor at (k, c); a column sum from zero at column c is the
   sum over the rows p of the entry at (p, c). -/
import proofs.«108325_j57337813402032_1_alg».proof.Proof.RefTerm
import proofs.«108325_j57337813402032_1_alg».proof.Proof.Gen.ReferenceIdeal
import Idealize.ShloMosaic.PureOps.Ideal.Laws
import Idealize.ShloMosaic.Lib.ValueIdx
import Idealize.ShloMosaic.Lib.IdealHost
import Idealize.ShloMosaic.Lib.KernelVsHost
import Idealize.ShloMosaic.Lib.ValueLayout

noncomputable section

namespace Cert.RefSide

open Cert.ReferenceIdeal Idealize.ShloMosaic Idealize.ShloMosaic.ValueIdx
open Cert.ReferenceIdeal.Facts₀ Cert.ReferenceIdeal.Facts
open scoped BigOperators

-- the shape facts the operations cite are the ones proved for this program (an instance in scope)

/-! ## A scalar laid over an array -/

theorem splat128_apply {α : Type} (v : S_.Idx → α) (c : Fin 128) :
    broadcastInDim S128 ![] bcast_S_S128 v (ix1 c) = v ix0 :=
  broadcastInDim_scalar_apply bcast_S_S128 v (ix1 c)

theorem splat1x128_apply {α : Type} (v : S_.Idx → α) (c : Fin 128) :
    broadcastInDim S1x128 ![] bcast_S_S1x128 v (ix2 (0 : Fin 1) c) = v ix0 :=
  broadcastInDim_scalar_apply bcast_S_S1x128 v (ix2 (0 : Fin 1) c)

theorem splatMat_apply {α : Type} (v : S_.Idx → α) (i : S50000x128.Idx) :
    broadcastInDim S50000x128 ![] bcast_S_S50000x128 v i = v ix0 :=
  broadcastInDim_scalar_apply bcast_S_S50000x128 v i

/-! ## A row laid along every row of the matrix -/

/-- A vector of 128 entries as a one-row matrix. -/
theorem asRow_apply {α : Type} (b : S128.Idx → α) (c : Fin 128) :
    broadcastInDim S1x128 ![1] bcast_S128_S1x128_1 b (ix2 (0 : Fin 1) c) = b (ix1 c) := by
  refine broadcastInDim_apply ![1] bcast_S128_S1x128_1 b (ix2 (0 : Fin 1) c) (ix1 c) ?_
  intro a
  match a with
  | ⟨0, _⟩ =>
    show c.val = if (128 : ℕ) = 1 then 0 else c.val
    rw [if_neg (by decide)]

/-- A one-row matrix laid along each of the 50000 rows. -/
theorem oneRow_apply {α : Type} (y : S1x128.Idx → α) (p : Fin 50000) (c : Fin 128) :
    broadcastInDim S50000x128 ![0, 1] bcast_S1x128_S50000x128_0_1 y (ix2 p c) = y (ix2 (0 : Fin 1) c) :=
  broadcastInDim_oneRow_apply bcast_S1x128_S50000x128_0_1 y p c

/-- A vector of 128 entries laid along each of the 50000 rows. -/
theorem rows_apply {α : Type} (b : S128.Idx → α) (p : Fin 50000) (c : Fin 128) :
    broadcastInDim S50000x128 ![0, 1] bcast_S1x128_S50000x128_0_1 (broadcastInDim S1x128 ![1] bcast_S128_S1x128_1 b) (ix2 p c)
      = b (ix1 c) :=
  (oneRow_apply _ p c).trans (asRow_apply b c)

/-! ## The transposed weights -/

theorem transposeW_apply {α : Type} (W : S128x128.Idx → α) (k c : Fin 128) :
    transpose (s := S128x128) S128x128 [1, 0] W transposes_S128x128_S128x128_1_0 (ix2 k c) = W (ix2 c k) :=
  transpose_ix2_apply W transposes_S128x128_S128x128_1_0 k c

/-! ## The matrix product -/

theorem lhs_0 (i : S50000x128.Idx) (q : dot_S50000x128_S128x128_S50000x128_1_0_0_1_n_n.contr.Idx) :
    (dot_S50000x128_S128x128_S50000x128_1_0_0_1_n_n.lhsIdx i q 0).val = (i 0).val := by
  unfold DotDims.lhsIdx
  rw [dif_neg (show ¬(0 : Fin S50000x128.rank) ∈ dot_S50000x128_S128x128_S50000x128_1_0_0_1_n_n.lhsBatch by decide),
    dif_pos (show (0 : Fin S50000x128.rank) ∈ dot_S50000x128_S128x128_S50000x128_1_0_0_1_n_n.lhsNonContracting by decide)]
  rfl

theorem lhs_1 (i : S50000x128.Idx) (q : dot_S50000x128_S128x128_S50000x128_1_0_0_1_n_n.contr.Idx) :
    (dot_S50000x128_S128x128_S50000x128_1_0_0_1_n_n.lhsIdx i q 1).val = (q ⟨0, by decide⟩).val :=
  dot_S50000x128_S128x128_S50000x128_1_0_0_1_n_n.lhsIdx_val_of_single rfl i q

theorem rhs_0 (i : S50000x128.Idx) (q : dot_S50000x128_S128x128_S50000x128_1_0_0_1_n_n.contr.Idx) :
    (dot_S50000x128_S128x128_S50000x128_1_0_0_1_n_n.rhsIdx i q 0).val = (q ⟨0, by decide⟩).val :=
  dot_S50000x128_S128x128_S50000x128_1_0_0_1_n_n.rhsIdx_val_of_single rfl i q

theorem rhs_1 (i : S50000x128.Idx) (q : dot_S50000x128_S128x128_S50000x128_1_0_0_1_n_n.contr.Idx) :
    (dot_S50000x128_S128x128_S50000x128_1_0_0_1_n_n.rhsIdx i q 1).val = (i 1).val := by
  unfold DotDims.rhsIdx
  rw [dif_neg (show ¬(1 : Fin S128x128.rank) ∈ dot_S50000x128_S128x128_S50000x128_1_0_0_1_n_n.rhsBatch by decide),
    dif_pos (show (1 : Fin S128x128.rank) ∈ dot_S50000x128_S128x128_S50000x128_1_0_0_1_n_n.rhsNonContracting by decide)]
  rfl

/-- The product of a 50000 by 128 matrix and a 128 by 128 matrix at (p, c): the sum over the shared index. -/
theorem dot_apply (l : S50000x128.Idx → EReal) (r : S128x128.Idx → EReal) (p : Fin 50000) (c : Fin 128) :
    Host.dotGeneral (F := Ideal) (φ₁ := .f32) (φ₂ := .f32) dot_S50000x128_S128x128_S50000x128_1_0_0_1_n_n none l r (ix2 p c)
      = ∑ k : Fin 128, l (ix2 p k) * r (ix2 k c) := by
  simp only [Host.dotGeneral]
  rw [Ideal.dotGeneral_apply, ← Equiv.sum_comp (contrEquiv1 dot_S50000x128_S128x128_S50000x128_1_0_0_1_n_n 128 rfl rfl).symm]
  refine Finset.sum_congr rfl fun k _ => ?_
  have hk := contrEquiv1_symm_val dot_S50000x128_S128x128_S50000x128_1_0_0_1_n_n 128 rfl rfl k
  have el : dot_S50000x128_S128x128_S50000x128_1_0_0_1_n_n.lhsIdx (ix2 p c) ((contrEquiv1 dot_S50000x128_S128x128_S50000x128_1_0_0_1_n_n 128 rfl rfl).symm k) = ix2 p k := funext fun a => Fin.ext (by
    match a with
    | ⟨0, _⟩ => exact lhs_0 _ _
    | ⟨1, _⟩ => exact (lhs_1 _ _).trans hk)
  have er : dot_S50000x128_S128x128_S50000x128_1_0_0_1_n_n.rhsIdx (ix2 p c) ((contrEquiv1 dot_S50000x128_S128x128_S50000x128_1_0_0_1_n_n 128 rfl rfl).symm k) = ix2 k c := funext fun a => Fin.ext (by
    match a with
    | ⟨0, _⟩ => exact (rhs_0 _ _).trans hk
    | ⟨1, _⟩ => exact rhs_1 _ _)
  rw [el, er]

/-! ## A column's sum -/

/-- The sum over the rows, from the zero literal, at column c. -/
theorem colsum_apply (x : S50000x128.Idx → EReal) (c : Fin 128) :
    Host.reduceAdd (F := Ideal) (φ := .f32) x (constant (F := Ideal) S_ .f32 0x00000000#32) reducesTo_S50000x128_S128_d0 h_S_ (ix1 c)
      = ∑ p : Fin 50000, x (ix2 p c) := by
  simp only [Host.reduceAdd, Ideal.hostReduceAdd_def]
  rw [Ideal.hostReduceAdd_single reducesTo_S50000x128_S128_d0 (by decide)]
  rw [show constant (F := Ideal) S_ .f32 0x00000000#32 (Shape.Idx.first h_S_) = (0 : EReal) from Ideal.ofBits_zero_f32, zero_add]
  refine Finset.sum_congr rfl fun k _ => ?_
  exact congrArg x (funext fun a => Fin.ext (by match a with | ⟨0, _⟩ => rfl | ⟨1, _⟩ => rfl))

end Cert.RefSide

end
-- ==== Proof.RefReadStages.lean ====
/- The stages of the reference network read entry by entry: the linear map at (p, c) is the sum over k of the input
   at (p, k) times the weight at (c, k), plus the bias at c; the normalisation at (p, c) subtracts the mean at c,
   multiplies by the reciprocal square root of the variance at c plus the small constant, by the scale at c, and
   adds the shift at c; the clamp takes the maximum with zero.  Each stage, as an array, is then the array of the
   corresponding matrix function of the specification. -/
import proofs.«108325_j57337813402032_1_alg».proof.Proof.RefReadOps

noncomputable section

namespace Cert.RefSide

open Cert.ReferenceIdeal Idealize.ShloMosaic Idealize.ShloMosaic.ValueIdx
open Cert.ReferenceIdeal.Facts₀ Cert.ReferenceIdeal.Facts
open scoped BigOperators

/-! ## Entry by entry -/

theorem linOp_apply (y : S50000x128.Idx → EReal) (W : S128x128.Idx → EReal) (b : S128.Idx → EReal)
    (p : Fin 50000) (c : Fin 128) :
    linOp y W b (ix2 p c) = (∑ k : Fin 128, y (ix2 p k) * W (ix2 c k)) + b (ix1 c) := by
  unfold linOp
  dsimp only
  rw [addf_apply, dot_apply, rows_apply]
  refine congrArg (· + _) (Finset.sum_congr rfl fun k _ => ?_)
  rw [transposeW_apply]

theorem bnOp_apply (x : S50000x128.Idx → EReal) (mu var g be : S128.Idx → EReal) (p : Fin 50000) (c : Fin 128) :
    bnOp x mu var g be (ix2 p c)
      = (x (ix2 p c) - mu (ix1 c)) * Ideal.rsqrt (var (ix1 c) + Cert.Spec.eps) * g (ix1 c) + be (ix1 c) := by
  unfold bnOp
  dsimp only
  rw [addf_apply, mulf_apply, mulf_apply, subf_apply, rows_apply, rows_apply, rows_apply, rows_apply]
  rfl

theorem reluOp_apply (x : S50000x128.Idx → EReal) (i : S50000x128.Idx) : reluOp x i = max (x i) 0 := by
  unfold reluOp
  dsimp only
  rw [maximumf_apply, splatMat_apply]
  show max (x i) (Ideal.ofBits .f32 0x00000000#32) = _
  rw [Ideal.ofBits_zero_f32]

/-! ## As arrays of the specification's matrices -/

/-- The linear map on the sum of two feature arrays is the specification's linear layer. -/
theorem linOp_eq (h s : S50000x128.Idx → EReal) (W : S128x128.Idx → EReal) (b : S128.Idx → EReal) :
    linOp (addf (F := Ideal) (φ := .f32) h s) W b
      = Cert.Spec.ofMat (Cert.Spec.lin (Cert.Spec.toMat h) (Cert.Spec.toMat s) (Cert.Spec.toMat W) (Cert.Spec.toRow1 b)) := by
  funext i
  obtain ⟨p, c, rfl⟩ : ∃ (p : Fin 50000) (c : Fin 128), i = ix2 p c := ⟨i 0, i 1, eq_ix2 i⟩
  rw [linOp_apply]
  rfl

/-- Normalise, scale, shift, then clamp: the specification's normalisation layer. -/
theorem bnrelu_eq (x : S50000x128.Idx → EReal) (mu var g be : S128.Idx → EReal) :
    reluOp (bnOp x mu var g be)
      = Cert.Spec.ofMat (Cert.Spec.bnrelu (Cert.Spec.toMat x) (Cert.Spec.toRow1 mu) (Cert.Spec.toRow1 var)
          (Cert.Spec.toRow1 g) (Cert.Spec.toRow1 be)) := by
  funext i
  obtain ⟨p, c, rfl⟩ : ∃ (p : Fin 50000) (c : Fin 128), i = ix2 p c := ⟨i 0, i 1, eq_ix2 i⟩
  rw [reluOp_apply, bnOp_apply]
  rfl

/-- The last linear map and its clamp. -/
theorem out_eq (y : S50000x128.Idx → EReal) (W : S128x128.Idx → EReal) (b : S128.Idx → EReal) :
    reluOp (linOp y W b)
      = Cert.Spec.ofMat (Cert.Spec.relu (Cert.Spec.lin1 (Cert.Spec.toMat y) (Cert.Spec.toMat W) (Cert.Spec.toRow1 b))) := by
  funext i
  obtain ⟨p, c, rfl⟩ : ∃ (p : Fin 50000) (c : Fin 128), i = ix2 p c := ⟨i 0, i 1, eq_ix2 i⟩
  rw [reluOp_apply, linOp_apply]
  rfl

end Cert.RefSide

end
-- ==== Proof.LibReal.lean ====
/- Extended reals that are real numbers ("x is real": `∃ r : ℝ, x = (r : EReal)`): closure under the arithmetic a
   sum-of-products program uses, the two literals 0 and 1, the reciprocal square root of a number that is at least 1,
   and the law that an aggregation (a weighted sum over a finite set) commutes with a matrix product. -/
import Idealize.ShloMosaic.PureOps.Ideal
import Idealize.ShloMosaic.PureOps.Ideal.Laws

noncomputable section

namespace Cert.RealVal

open Idealize.ShloMosaic
open scoped BigOperators

/-! ## Closure -/

/-- The sum of two real numbers is real. -/
theorem real_add {x y : EReal} (hx : ∃ r : ℝ, x = (r : EReal)) (hy : ∃ r : ℝ, y = (r : EReal)) :
    ∃ r : ℝ, x + y = (r : EReal) := by
  obtain ⟨a, rfl⟩ := hx
  obtain ⟨b, rfl⟩ := hy
  exact ⟨a + b, (EReal.coe_add a b).symm⟩

/-- The product of two real numbers is real. -/
theorem real_mul {x y : EReal} (hx : ∃ r : ℝ, x = (r : EReal)) (hy : ∃ r : ℝ, y = (r : EReal)) :
    ∃ r : ℝ, x * y = (r : EReal) := by
  obtain ⟨a, rfl⟩ := hx
  obtain ⟨b, rfl⟩ := hy
  exact ⟨a * b, (EReal.coe_mul a b).symm⟩

/-- The coercion of the reals commutes with the maximum. -/
theorem coe_max (a b : ℝ) : max (a : EReal) (b : EReal) = ((max a b : ℝ) : EReal) :=
  (EReal.coe_strictMono.monotone.map_max).symm

/-- The maximum of two real numbers is real. -/
theorem real_max {x y : EReal} (hx : ∃ r : ℝ, x = (r : EReal)) (hy : ∃ r : ℝ, y = (r : EReal)) :
    ∃ r : ℝ, max x y = (r : EReal) := by
  obtain ⟨a, rfl⟩ := hx
  obtain ⟨b, rfl⟩ := hy
  exact ⟨max a b, coe_max a b⟩

/-- The coercion of the reals commutes with a finite sum. -/
theorem coe_sum {ι : Type} (S : Finset ι) (g : ι → ℝ) :
    ∑ j ∈ S, ((g j : ℝ) : EReal) = ((∑ j ∈ S, g j : ℝ) : EReal) := by
  classical
  induction S using Finset.induction_on with
  | empty => simp
  | insert a S ha ih => rw [Finset.sum_insert ha, Finset.sum_insert ha, ih, EReal.coe_add]

/-- A finite sum of real numbers is real. -/
theorem real_sum {ι : Type} (S : Finset ι) (f : ι → EReal) (hf : ∀ j, ∃ r : ℝ, f j = (r : EReal)) :
    ∃ r : ℝ, ∑ j ∈ S, f j = (r : EReal) := by
  choose g hg using hf
  exact ⟨∑ j ∈ S, g j, by rw [← coe_sum]; exact Finset.sum_congr rfl fun j _ => hg j⟩

/-- A sum of ones over a finite set is the number of its elements. -/
theorem sum_one_eq_card {ι : Type} (S : Finset ι) (f : ι → EReal) (hf : ∀ j ∈ S, f j = ((1 : ℝ) : EReal)) :
    ∑ j ∈ S, f j = ((S.card : ℝ) : EReal) := by
  rw [Finset.sum_congr rfl hf, coe_sum, Finset.sum_const, nsmul_eq_mul, mul_one]

/-! ## The literals 0 and 1 -/

/-- The single-precision pattern of `+0.0` denotes the real `0`. -/
theorem ofBits_zero : Ideal.ofBits .f32 0x00000000#32 = ((0 : ℝ) : EReal) := by
  rw [Ideal.ofBits_zero_f32]; rfl

/-- The single-precision pattern of `1.0` (exponent field the bias, significand field zero) denotes the real `1`. -/
theorem ofBits_one : Ideal.ofBits .f32 0x3F800000#32 = ((1 : ℝ) : EReal) := by
  simp [Ideal.ofBits, Ideal.ieee, -EReal.coe_mul]; norm_num

/-! ## The reciprocal square root -/

/-- At a positive real the reciprocal square root is the real `(√r)⁻¹`. -/
theorem rsqrt_coe_of_pos {r : ℝ} (hr : 0 < r) : Ideal.rsqrt (r : EReal) = (((Real.sqrt r)⁻¹ : ℝ) : EReal) := by
  show (if r < 0 then (⊥ : EReal) else if r = 0 then ⊤ else (((Real.sqrt r)⁻¹ : ℝ) : EReal)) = _
  rw [if_neg (not_lt.mpr hr.le), if_neg hr.ne']

/-- The reciprocal square root of a positive real is real. -/
theorem real_rsqrt_of_pos {r : ℝ} (hr : 0 < r) : ∃ q : ℝ, Ideal.rsqrt (r : EReal) = (q : EReal) :=
  ⟨_, rsqrt_coe_of_pos hr⟩

/-- The reciprocal square root of `max x 1`, `x` real, is real: the argument is at least `1`. -/
theorem real_rsqrt_max_one {x : EReal} (hx : ∃ r : ℝ, x = (r : EReal)) :
    ∃ q : ℝ, Ideal.rsqrt (max x ((1 : ℝ) : EReal)) = (q : EReal) := by
  obtain ⟨a, rfl⟩ := hx
  rw [coe_max]
  exact real_rsqrt_of_pos (lt_of_lt_of_le one_pos (le_max_right a 1))

/-- The same with the value named: `(√(max a 1))⁻¹`. -/
theorem rsqrt_max_one_coe (a : ℝ) :
    Ideal.rsqrt (max (a : EReal) ((1 : ℝ) : EReal)) = (((Real.sqrt (max a 1))⁻¹ : ℝ) : EReal) := by
  rw [coe_max]
  exact rsqrt_coe_of_pos (lt_of_lt_of_le one_pos (le_max_right a 1))

/-- The combined form: a count — the literal `0` plus a sum of literal ones over a finite set — clamped below by the
    literal `1`, has a real reciprocal square root. -/
theorem real_rsqrt_count {ι : Type} (S : Finset ι) (f : ι → EReal)
    (hf : ∀ j ∈ S, f j = Ideal.ofBits .f32 0x3F800000#32) :
    ∃ q : ℝ, Ideal.rsqrt (max (Ideal.ofBits .f32 0x00000000#32 + ∑ j ∈ S, f j) (Ideal.ofBits .f32 0x3F800000#32))
      = (q : EReal) := by
  rw [ofBits_one] at hf ⊢
  rw [ofBits_zero, sum_one_eq_card S f hf, ← EReal.coe_add]
  exact real_rsqrt_max_one ⟨_, rfl⟩

/-- The count itself: the literal `0` plus a sum of literal ones over a finite set is the number of its elements. -/
theorem count_eq_card {ι : Type} (S : Finset ι) (f : ι → EReal)
    (hf : ∀ j ∈ S, f j = Ideal.ofBits .f32 0x3F800000#32) :
    Ideal.ofBits .f32 0x00000000#32 + ∑ j ∈ S, f j = ((S.card : ℝ) : EReal) := by
  rw [ofBits_one] at hf
  rw [ofBits_zero, sum_one_eq_card S f hf, ← EReal.coe_add, zero_add]

/-! ## Aggregation commutes with a matrix product -/

/-- THE LAW: for real entries, multiplying an aggregated row `∑ e ∈ S, a e · ν e` by a column `W` is aggregating the
    products `(a e · W) ν e`: both sides are the double sum of `a e k · ν e · W k`. (In the extended reals
    distributivity needs the entries real; the two zeros are the accumulators the sums start from.) -/
theorem agg_mm_comm {ι : Type} {K : ℕ} (S : Finset ι) (a : ι → Fin K → EReal) (ν : ι → EReal) (W : Fin K → EReal)
    (z z' : EReal) (hz : z = 0) (hz' : z' = 0)
    (ha : ∀ e k, ∃ r : ℝ, a e k = (r : EReal)) (hν : ∀ e, ∃ r : ℝ, ν e = (r : EReal))
    (hW : ∀ k, ∃ r : ℝ, W k = (r : EReal)) :
    ∑ k : Fin K, (z + ∑ e ∈ S, a e k * ν e) * W k = z' + ∑ e ∈ S, (∑ k : Fin K, a e k * W k) * ν e := by
  choose a' ha' using ha
  choose ν' hν' using hν
  choose W' hW' using hW
  subst hz hz'
  have hL : ∀ k, (0 + ∑ e ∈ S, a e k * ν e) * W k = (((∑ e ∈ S, a' e k * ν' e) * W' k : ℝ) : EReal) := by
    intro k
    rw [zero_add, hW' k, EReal.coe_mul, ← coe_sum]
    congr 1
    exact Finset.sum_congr rfl fun e _ => by rw [ha' e k, hν' e, EReal.coe_mul]
  have hR : ∀ e, (∑ k : Fin K, a e k * W k) * ν e = (((∑ k : Fin K, a' e k * W' k) * ν' e : ℝ) : EReal) := by
    intro e
    rw [hν' e, EReal.coe_mul, ← coe_sum]
    congr 1
    exact Finset.sum_congr rfl fun k _ => by rw [ha' e k, hW' k, EReal.coe_mul]
  rw [Finset.sum_congr rfl (fun k _ => hL k), zero_add, Finset.sum_congr rfl (fun e _ => hR e), coe_sum, coe_sum]
  congr 1
  simp only [Finset.sum_mul]
  rw [Finset.sum_comm]
  exact Finset.sum_congr rfl fun e _ => Finset.sum_congr rfl fun k _ => by ring

end Cert.RealVal

end
-- ==== Proof.LibLits.lean ====
/- The two single-precision literals of the batch normalisation as real numbers: the row count 50000, and the
   guard added to the variance, a positive number close to 1e-5. -/
import proofs.«108325_j57337813402032_1_alg».proof.Proof.Spec
import proofs.«108325_j57337813402032_1_alg».proof.Proof.LibReal

noncomputable section

namespace Cert.RealVal

open Idealize.ShloMosaic

/-- The pattern 0x47435000 has sign 0, exponent field 142 and significand field 0x435000 = 4411392: it denotes
    (2^23 + 4411392) · 2^(142 − 127 − 23) = 12800000 / 256 = 50000. -/
theorem ofBits_cnt : Ideal.ofBits .f32 0x47435000#32 = ((50000 : ℝ) : EReal) := by
  simp [Ideal.ofBits, Ideal.ieee, -EReal.coe_mul]; norm_num

/-- The row count is the real number 50000. -/
theorem cnt_eq : Cert.Spec.cnt = ((50000 : ℝ) : EReal) := ofBits_cnt

/-- The pattern 0x3727C5AC has sign 0, exponent field 110 and significand field 0x27C5AC = 2606508: it denotes
    (2^23 + 2606508) · 2^(110 − 127 − 23) = 10995116 / 2^40. -/
theorem ofBits_eps : Ideal.ofBits .f32 0x3727C5AC#32 = (((10995116 : ℝ) / 2 ^ 40 : ℝ) : EReal) := by
  simp [Ideal.ofBits, Ideal.ieee, -EReal.coe_mul]; norm_num

/-- The variance's guard is the real number 10995116 / 2^40. -/
theorem eps_eq : Cert.Spec.eps = (((10995116 : ℝ) / 2 ^ 40 : ℝ) : EReal) := ofBits_eps

/-- The variance's guard is a positive real number. -/
theorem eps_pos : ∃ e : ℝ, 0 < e ∧ Cert.Spec.eps = (e : EReal) :=
  ⟨(10995116 : ℝ) / 2 ^ 40, by positivity, eps_eq⟩

/-- The row count is a positive real number. -/
theorem cnt_pos : ∃ n : ℝ, 0 < n ∧ Cert.Spec.cnt = (n : EReal) := ⟨50000, by norm_num, cnt_eq⟩

end Cert.RealVal

end
-- ==== Proof.RefReadStat.lean ====
/- The reference's two statistics stages read column by column.  The column mean is the column's sum over the 50000
   rows, started from zero, divided by the row count.  The variance stage recomputes that mean, subtracts it from every
   entry, squares, sums each column from zero and divides by the row count less the converted integer zero; the
   guard that compares this divisor with zero holds, since 50000 − 0 is positive, so the quotient is selected and the
   divisor is the row count itself.  The result is the mean of the squared deviations from the mean. -/
import proofs.«108325_j57337813402032_1_alg».proof.Proof.RefTerm
import proofs.«108325_j57337813402032_1_alg».proof.Proof.Spec
import proofs.«108325_j57337813402032_1_alg».proof.Proof.LibLits
import Idealize.ShloMosaic.Lib.IdealHost
import Idealize.ShloMosaic.Lib.Pipeline.Value

noncomputable section

namespace Cert.RefSide

open Cert.ReferenceIdeal Idealize.ShloMosaic Idealize.ShloMosaic.ValueIdx Cert.Spec
open Cert.ReferenceIdeal.Facts₀ Cert.ReferenceIdeal.Facts
open scoped BigOperators

variable [Cert.ReferenceIdeal.Facts]

/-- The sum over the rows, started from the zero word, read at column `c`. -/
theorem reduce_rows_apply (x : S50000x128.Idx → EReal) (c : Fin 128) :
    Host.reduceAdd (F := Ideal) (φ := .f32) x (constant (F := Ideal) S_ .f32 0x00000000#32)
        reducesTo_S50000x128_S128_d0 h_S_ (ix1 c)
      = ∑ p : Fin 50000, x (ix2 p c) := by
  have hR : S50000x128.Reduces [0] S128 := by decide
  rw [hostReduceAdd_apply, Ideal.hostReduceAdd_single reducesTo_S50000x128_S128_d0 hR, constant_apply,
    Ideal.ofBits_zero_f32, zero_add]
  refine Finset.sum_congr rfl fun k _ => congrArg x ?_
  funext a
  apply Fin.ext
  match a with
  | ⟨0, _⟩ => rfl
  | ⟨1, _⟩ => rfl

/-- A row of 128 numbers laid out as a one-row matrix, read at column `c`. -/
theorem bcast_row_apply {α : Type} (v : S128.Idx → α) (c : Fin 128) :
    broadcastInDim S1x128 ![1] bcast_S128_S1x128_1 v (ix2 (0 : Fin 1) c) = v (ix1 c) :=
  broadcastInDim_apply _ _ _ _ _ fun a => match a with | ⟨0, _⟩ => rfl

/-- A one-row matrix copied down the 50000 rows, read at row `p` and column `c`. -/
theorem bcast_rows_apply {α : Type} (v : S1x128.Idx → α) (p : Fin 50000) (c : Fin 128) :
    broadcastInDim S50000x128 ![0, 1] bcast_S1x128_S50000x128_0_1 v (ix2 p c) = v (ix2 (0 : Fin 1) c) :=
  broadcastInDim_apply _ _ _ _ _ fun a => match a with | ⟨0, _⟩ => rfl | ⟨1, _⟩ => rfl

/-- The mean stage is the specification's column mean. -/
theorem meanOp_eq (x : S50000x128.Idx → EReal) : toRow1 (meanOp x) = Cert.Spec.mean (toMat x) := by
  funext c
  show Ideal.div
      (Host.reduceAdd (F := Ideal) (φ := .f32) x (constant (F := Ideal) S_ .f32 0x00000000#32)
        reducesTo_S50000x128_S128_d0 h_S_ (ix1 c))
      (broadcastInDim S128 ![] bcast_S_S128 (constant (F := Ideal) S_ .f32 0x47435000#32) (ix1 c))
    = Ideal.div (∑ p : Fin 50000, x (ix2 p c)) cnt
  rw [reduce_rows_apply, broadcastInDim_scalar_apply, constant_apply]
  rfl

/-- The deviations from the column means, as the variance stage computes them: the column sums from zero, divided by
    the row count on a one-row matrix, copied down the rows and subtracted. -/
def devOp (x : S50000x128.Idx → EReal) : S50000x128.Idx → EReal :=
  subf (F := Ideal) (φ := .f32) x
    (broadcastInDim S50000x128 ![0, 1] bcast_S1x128_S50000x128_0_1
      (Host.divf (F := Ideal) (φ := .f32)
        (broadcastInDim S1x128 ![1] bcast_S128_S1x128_1
          (Host.reduceAdd (F := Ideal) (φ := .f32) x (constant (F := Ideal) S_ .f32 0x00000000#32)
            reducesTo_S50000x128_S128_d0 h_S_))
        (broadcastInDim S1x128 ![] bcast_S_S1x128 (constant (F := Ideal) S_ .f32 0x47435000#32))))

/-- A deviation read at row `p` and column `c`: the entry minus the specification's column mean. -/
theorem devOp_apply (x : S50000x128.Idx → EReal) (p : Fin 50000) (c : Fin 128) :
    devOp x (ix2 p c) = toMat x p c - Cert.Spec.mean (toMat x) c := by
  unfold devOp
  rw [subf_apply, bcast_rows_apply, hostDivf_apply, bcast_row_apply, reduce_rows_apply, broadcastInDim_scalar_apply,
    constant_apply]
  rfl

/-- The variance stage's divisor: the row count less the converted integer `n`. -/
def divisorOp (n : IVec S_ 32) : S_.Idx → EReal :=
  subf (F := Ideal) (φ := .f32) (constant (F := Ideal) S_ .f32 0x47435000#32) (sitofp (F := Ideal) .f32 n)

/-- With the integer zero removed the divisor is the row count: 50000 − 0. -/
theorem divisorOp_zero : divisorOp (constantI S_ 32 0#32) ix0 = cnt := by
  show Ideal.ofBits .f32 0x47435000#32 - ((((0#32 : BitVec 32).toInt : ℤ) : ℝ) : EReal) = cnt
  have h0 : ((((0#32 : BitVec 32).toInt : ℤ) : ℝ) : EReal) = 0 := by simp
  rw [h0, sub_zero]
  rfl

/-- The guard "the divisor is greater than zero" holds at the row count. -/
theorem guard_one : FloatOps.cmpf (F := Ideal) (φ := .f32) .ogt cnt (Ideal.ofBits .f32 0x00000000#32) = 1#1 := by
  show BitVec.ofBool (decide (Ideal.ofBits .f32 0x00000000#32 < cnt)) = 1#1
  rw [Ideal.ofBits_zero_f32, Cert.RealVal.cnt_eq, decide_eq_true (EReal.coe_pos.mpr (by norm_num))]
  rfl

/-- The variance stage with its intermediate arrays named. -/
theorem varOp_unfold (x : S50000x128.Idx → EReal) (n : IVec S_ 32) :
    varOp x n =
      select
        (broadcastInDim S128 ![] bcast_S_S128
          (cmpf (F := Ideal) (φ := .f32) .ogt (divisorOp n) (constant (F := Ideal) S_ .f32 0x00000000#32)))
        (Host.divf (F := Ideal) (φ := .f32)
          (Host.reduceAdd (F := Ideal) (φ := .f32) (mulf (F := Ideal) (φ := .f32) (devOp x) (devOp x))
            (constant (F := Ideal) S_ .f32 0x00000000#32) reducesTo_S50000x128_S128_d0 h_S_)
          (broadcastInDim S128 ![] bcast_S_S128 (divisorOp n)))
        (broadcastInDim S128 ![] bcast_S_S128 (id (constant (F := Ideal) S_ .f32 0x7FC00000#32))) := rfl

/-- The variance stage, with no degrees of freedom removed, is the specification's mean of squared deviations. -/
theorem varOp_eq (x : S50000x128.Idx → EReal) :
    toRow1 (varOp x (constantI S_ 32 0#32)) = Cert.Spec.varDev (toMat x) := by
  funext c
  show varOp x (constantI S_ 32 0#32) (ix1 c) = Cert.Spec.varDev (toMat x) c
  rw [varOp_unfold, select_apply, broadcastInDim_scalar_apply, cmpf_apply, divisorOp_zero, constant_apply, guard_one,
    select_one, hostDivf_apply, reduce_rows_apply, broadcastInDim_scalar_apply, divisorOp_zero]
  show Ideal.div (∑ p : Fin 50000, (devOp x (ix2 p c)) * (devOp x (ix2 p c))) cnt = _
  rw [Finset.sum_congr rfl fun p _ => by rw [devOp_apply]]
  rfl

end Cert.RefSide

end
-- ==== Proof.RefRead.lean ====
/- The reference network is the specification's network, entry by entry: with the neighbour sum as the aggregation
   and the mean of the squared deviations as the variance, the program's term on its thirteen argument arrays is
   the array of the matrix the specification defines from the same arguments read as matrices and rows.  The
   proof replaces each stage by its matrix function, layer by layer. -/
import proofs.«108325_j57337813402032_1_alg».proof.Proof.RefReadStages
import proofs.«108325_j57337813402032_1_alg».proof.Proof.RefReadStat

noncomputable section

namespace Cert.RefSide

open Cert.ReferenceIdeal Idealize.ShloMosaic Idealize.ShloMosaic.ValueIdx

theorem refNet_eq (a0 : S50000x128.Idx → EReal) (a1 a2 : IVec S800000 32) (a3 : S128x128.Idx → EReal)
    (a4 a5 a6 : S128.Idx → EReal) (a7 : S128x128.Idx → EReal) (a8 a9 a10 : S128.Idx → EReal)
    (a11 : S128x128.Idx → EReal) (a12 : S128.Idx → EReal) :
    refNet a0 a1 a2 a3 a4 a5 a6 a7 a8 a9 a10 a11 a12
      = Cert.Spec.ofMat (Cert.Spec.net (fun x => Cert.Spec.toMat (segsum (Cert.Spec.ofMat x) a1 a2)) Cert.Spec.varDev
          (Cert.Spec.toMat a0) (Cert.Spec.toMat a3) (Cert.Spec.toRow1 a4) (Cert.Spec.toRow1 a5) (Cert.Spec.toRow1 a6)
          (Cert.Spec.toMat a7) (Cert.Spec.toRow1 a8) (Cert.Spec.toRow1 a9) (Cert.Spec.toRow1 a10)
          (Cert.Spec.toMat a11) (Cert.Spec.toRow1 a12)) := by
  unfold refNet Cert.Spec.net
  dsimp only
  simp only [linOp_eq, bnrelu_eq, out_eq, meanOp_eq, varOp_eq, Cert.Spec.toMat_ofMat, Cert.Spec.ofMat_toMat]

end Cert.RefSide

end
-- ==== Proof.AlgCore.lean ====
/- Matrices and rows all of whose entries are real numbers, and the closure of that property under the operations the
   network is made of: the linear layers, the column sums, the mean, the variance, the normalisation with its
   reciprocal square root, and the clamp at zero.  The row count and the variance's guard enter through their values:
   the count is the real 50000, the guard a positive real. -/
import proofs.«108325_j57337813402032_1_alg».proof.Proof.Spec
import proofs.«108325_j57337813402032_1_alg».proof.Proof.LibReal

noncomputable section

namespace Cert.Alg

open Idealize.ShloMosaic Cert.Spec Cert.RealVal
open scoped BigOperators

/-- Every entry of the matrix is a real number. -/
def RealMat {n d : Nat} (x : Mat n d) : Prop := ∀ p c, ∃ r : ℝ, x p c = (r : EReal)
/-- Every entry of the row is a real number. -/
def RealRow {d : Nat} (v : Row d) : Prop := ∀ c, ∃ r : ℝ, v c = (r : EReal)

/-- The difference of two real numbers is real. -/
theorem real_sub {x y : EReal} (hx : ∃ r : ℝ, x = (r : EReal)) (hy : ∃ r : ℝ, y = (r : EReal)) :
    ∃ r : ℝ, x - y = (r : EReal) := by
  obtain ⟨a, rfl⟩ := hx
  obtain ⟨b, rfl⟩ := hy
  exact ⟨a - b, (EReal.coe_sub a b).symm⟩

/-- The real zero, as an extended real, is real. -/
theorem real_zero : ∃ r : ℝ, (0 : EReal) = (r : EReal) := ⟨0, rfl⟩

/-- The quotient of a real number by the row count is real. -/
theorem real_div_cnt (hcnt : cnt = ((50000 : ℝ) : EReal)) {x : EReal} (hx : ∃ r : ℝ, x = (r : EReal)) :
    ∃ r : ℝ, Ideal.div x cnt = (r : EReal) := by
  obtain ⟨a, rfl⟩ := hx
  rw [hcnt, Ideal.div_coe (by norm_num), ← EReal.coe_mul]
  exact ⟨_, rfl⟩

/-- The linear layer on a sum of two real matrices, with real weights and bias, is real. -/
theorem real_lin {a s : Mat 50000 128} {W : Mat 128 128} {b : Row 128}
    (ha : RealMat a) (hs : RealMat s) (hW : RealMat W) (hb : RealRow b) : RealMat (lin a s W b) :=
  fun p c => real_add (real_sum _ _ fun k => real_mul (real_add (ha p k) (hs p k)) (hW c k)) (hb c)

/-- The linear layer on a real matrix, with real weights and bias, is real. -/
theorem real_lin1 {y : Mat 50000 128} {W : Mat 128 128} {b : Row 128}
    (hy : RealMat y) (hW : RealMat W) (hb : RealRow b) : RealMat (lin1 y W b) :=
  fun p c => real_add (real_sum _ _ fun k => real_mul (hy p k) (hW c k)) (hb c)

/-- The column sums of a real matrix are real. -/
theorem real_colsum {x : Mat 50000 128} (hx : RealMat x) : RealRow (colsum x) :=
  fun c => real_sum _ _ fun p => hx p c

/-- The column sums of squares of a real matrix are real. -/
theorem real_colsumsq {x : Mat 50000 128} (hx : RealMat x) : RealRow (colsumsq x) :=
  fun c => real_sum _ _ fun p => real_mul (hx p c) (hx p c)

/-- The column means of a real matrix are real. -/
theorem real_mean' (hcnt : cnt = ((50000 : ℝ) : EReal)) {x : Mat 50000 128} (hx : RealMat x) : RealRow (mean x) :=
  fun c => real_div_cnt hcnt (real_colsum hx c)

/-- The variance as the mean of the squared deviations, of a real matrix, is real. -/
theorem real_varDev' (hcnt : cnt = ((50000 : ℝ) : EReal)) {x : Mat 50000 128} (hx : RealMat x) : RealRow (varDev x) :=
  fun c => real_div_cnt hcnt (real_sum _ _ fun p =>
    real_mul (real_sub (hx p c) (real_mean' hcnt hx c)) (real_sub (hx p c) (real_mean' hcnt hx c)))

/-- The variance as the mean of the squares minus the square of the mean, of a real matrix, is real. -/
theorem real_varSq' (hcnt : cnt = ((50000 : ℝ) : EReal)) {x : Mat 50000 128} (hx : RealMat x) : RealRow (varSq x) :=
  fun c => real_sub (real_div_cnt hcnt (real_colsumsq hx c)) (real_mul (real_mean' hcnt hx c) (real_mean' hcnt hx c))

/-- The mean of squared deviations of a real matrix is a real number that is not negative: a sum of squares over a
    positive count. -/
theorem varDev_nonneg' (hcnt : cnt = ((50000 : ℝ) : EReal)) {x : Mat 50000 128} (hx : RealMat x) :
    ∀ c, ∃ r : ℝ, 0 ≤ r ∧ varDev x c = (r : EReal) := by
  intro c
  obtain ⟨m, hm⟩ := real_mean' hcnt hx c
  choose xr hxr using fun p => hx p c
  refine ⟨(∑ p : Fin 50000, (xr p - m) * (xr p - m)) * (1 / 50000 : ℝ), ?_, ?_⟩
  · exact mul_nonneg (Finset.sum_nonneg fun p _ => mul_self_nonneg _) (by norm_num)
  · have hs : (∑ p : Fin 50000, (x p c - mean x c) * (x p c - mean x c))
        = ((∑ p : Fin 50000, (xr p - m) * (xr p - m) : ℝ) : EReal) := by
      rw [← coe_sum]
      exact Finset.sum_congr rfl fun p _ => by rw [hm, hxr p, ← EReal.coe_sub, ← EReal.coe_mul]
    show Ideal.div (∑ p : Fin 50000, (x p c - mean x c) * (x p c - mean x c)) cnt = _
    rw [hs, hcnt, Ideal.div_coe (by norm_num), ← EReal.coe_mul]

/-- Normalising a real matrix by a real mean and a real variance that is not negative, with real scale and shift,
    and clamping at zero, gives a real matrix: the reciprocal square root is taken at a positive real. -/
theorem real_bnrelu' (heps : ∃ e : ℝ, 0 < e ∧ eps = (e : EReal)) {x : Mat 50000 128} {mu var g be : Row 128}
    (hx : RealMat x) (hmu : RealRow mu) (hvar : ∀ c, ∃ r : ℝ, 0 ≤ r ∧ var c = (r : EReal))
    (hg : RealRow g) (hbe : RealRow be) : RealMat (bnrelu x mu var g be) := by
  intro p c
  obtain ⟨e, he, hee⟩ := heps
  obtain ⟨v, hv, hvv⟩ := hvar c
  have hr : ∃ q : ℝ, Ideal.rsqrt (var c + eps) = (q : EReal) := by
    rw [hvv, hee, ← EReal.coe_add]
    exact real_rsqrt_of_pos (add_pos_of_nonneg_of_pos hv he)
  exact real_max (real_add (real_mul (real_mul (real_sub (hx p c) (hmu c)) hr) (hg c)) (hbe c)) real_zero

/-- Clamping a real matrix at zero gives a real matrix. -/
theorem real_relu {x : Mat 50000 128} (hx : RealMat x) : RealMat (relu x) :=
  fun p c => real_max (hx p c) real_zero

end Cert.Alg

end
-- ==== Proof.AlgVar.lean ====
/- The two formulas for a column's variance agree on a real matrix: the mean of the squares minus the square of the
   mean is the mean of the squared deviations from the mean.  In the real numbers this is the expansion
   Σ (x − μ)² = Σ x² − 2 μ Σ x + N μ² with Σ x = N μ; on the extended reals every entry has to be real for the
   coercion to pass through the sums, the products and the differences. -/
import proofs.«108325_j57337813402032_1_alg».proof.Proof.AlgCore

noncomputable section

namespace Cert.Alg

open Idealize.ShloMosaic Cert.Spec Cert.RealVal
open scoped BigOperators

/-- The identity in the real numbers, over any finite index set whose size is the divisor. -/
theorem var_identity {ι : Type} (S : Finset ι) (f : ι → ℝ) (N : ℝ) (hN : N ≠ 0) (hcard : (S.card : ℝ) = N) :
    (∑ p ∈ S, f p * f p) * (1 / N) - ((∑ p ∈ S, f p) * (1 / N)) * ((∑ p ∈ S, f p) * (1 / N))
      = (∑ p ∈ S, (f p - (∑ q ∈ S, f q) * (1 / N)) * (f p - (∑ q ∈ S, f q) * (1 / N))) * (1 / N) := by
  set T : ℝ := ∑ q ∈ S, f q with hT
  set μ : ℝ := T * (1 / N) with hμ
  have hexp : ∑ p ∈ S, (f p - μ) * (f p - μ) = (∑ p ∈ S, f p * f p) - 2 * μ * T + N * (μ * μ) := by
    calc ∑ p ∈ S, (f p - μ) * (f p - μ)
        = ∑ p ∈ S, (f p * f p - 2 * μ * f p + μ * μ) := Finset.sum_congr rfl fun p _ => by ring
      _ = (∑ p ∈ S, f p * f p) - 2 * μ * T + N * (μ * μ) := by
          rw [Finset.sum_add_distrib, Finset.sum_sub_distrib, ← Finset.mul_sum, Finset.sum_const, nsmul_eq_mul, hcard]
  rw [hexp, hμ]
  field_simp
  ring

/-- The column sums, sums of squares, mean and both variances of a matrix given by real witnesses. -/
theorem colsum_coe {x : Mat 50000 128} (xr : Fin 50000 → Fin 128 → ℝ) (hxr : ∀ p c, x p c = ((xr p c : ℝ) : EReal))
    (c : Fin 128) : colsum x c = ((∑ p : Fin 50000, xr p c : ℝ) : EReal) := by
  show (∑ p : Fin 50000, x p c) = _
  rw [← coe_sum]
  exact Finset.sum_congr rfl fun p _ => hxr p c

theorem colsumsq_coe {x : Mat 50000 128} (xr : Fin 50000 → Fin 128 → ℝ) (hxr : ∀ p c, x p c = ((xr p c : ℝ) : EReal))
    (c : Fin 128) : colsumsq x c = ((∑ p : Fin 50000, xr p c * xr p c : ℝ) : EReal) := by
  show (∑ p : Fin 50000, x p c * x p c) = _
  rw [← coe_sum]
  exact Finset.sum_congr rfl fun p _ => by rw [hxr p c, ← EReal.coe_mul]

theorem mean_coe (hcnt : cnt = ((50000 : ℝ) : EReal)) {x : Mat 50000 128} (xr : Fin 50000 → Fin 128 → ℝ)
    (hxr : ∀ p c, x p c = ((xr p c : ℝ) : EReal)) (c : Fin 128) :
    mean x c = (((∑ p : Fin 50000, xr p c) * (1 / 50000) : ℝ) : EReal) := by
  show Ideal.div (colsum x c) cnt = _
  rw [colsum_coe xr hxr c, hcnt, Ideal.div_coe (by norm_num), ← EReal.coe_mul]

theorem varSq_coe (hcnt : cnt = ((50000 : ℝ) : EReal)) {x : Mat 50000 128} (xr : Fin 50000 → Fin 128 → ℝ)
    (hxr : ∀ p c, x p c = ((xr p c : ℝ) : EReal)) (c : Fin 128) :
    varSq x c = (((∑ p : Fin 50000, xr p c * xr p c) * (1 / 50000)
      - ((∑ p : Fin 50000, xr p c) * (1 / 50000)) * ((∑ p : Fin 50000, xr p c) * (1 / 50000)) : ℝ) : EReal) := by
  show Ideal.div (colsumsq x c) cnt - mean x c * mean x c = _
  rw [colsumsq_coe xr hxr c, mean_coe hcnt xr hxr c, hcnt, Ideal.div_coe (by norm_num), ← EReal.coe_mul, ← EReal.coe_mul,
    ← EReal.coe_sub]

theorem varDev_coe (hcnt : cnt = ((50000 : ℝ) : EReal)) {x : Mat 50000 128} (xr : Fin 50000 → Fin 128 → ℝ)
    (hxr : ∀ p c, x p c = ((xr p c : ℝ) : EReal)) (c : Fin 128) :
    varDev x c = (((∑ p : Fin 50000, (xr p c - (∑ q : Fin 50000, xr q c) * (1 / 50000))
      * (xr p c - (∑ q : Fin 50000, xr q c) * (1 / 50000))) * (1 / 50000) : ℝ) : EReal) := by
  have hs : (∑ p : Fin 50000, (x p c - mean x c) * (x p c - mean x c))
      = ((∑ p : Fin 50000, (xr p c - (∑ q : Fin 50000, xr q c) * (1 / 50000))
          * (xr p c - (∑ q : Fin 50000, xr q c) * (1 / 50000)) : ℝ) : EReal) := by
    rw [← coe_sum]
    exact Finset.sum_congr rfl fun p _ => by rw [mean_coe hcnt xr hxr c, hxr p c, ← EReal.coe_sub, ← EReal.coe_mul]
  show Ideal.div (∑ p : Fin 50000, (x p c - mean x c) * (x p c - mean x c)) cnt = _
  rw [hs, hcnt, Ideal.div_coe (by norm_num), ← EReal.coe_mul]

/-- THE LAW: on a real matrix the two variances are the same row. -/
theorem varSq_eq_varDev' (hcnt : cnt = ((50000 : ℝ) : EReal)) {x : Mat 50000 128} (hx : RealMat x) :
    varSq x = varDev x := by
  choose xr hxr using hx
  funext c
  rw [varSq_coe hcnt xr hxr c, varDev_coe hcnt xr hxr c]
  exact congrArg _ (var_identity Finset.univ (fun p => xr p c) 50000 (by norm_num)
    (by rw [Finset.card_univ, Fintype.card_fin]; norm_num))

end Cert.Alg

end
-- ==== Proof.AlgNet.lean ====
/- The whole network does not depend on which of the two variance formulas is used, when every input entry is real and
   the aggregation of neighbour features keeps entries real: the first layer's linear output is real, so its two
   variances agree; hence the first layer's output is the same matrix under both formulas, and real; so the second
   layer's linear output is real and its two variances agree as well. -/
import proofs.«108325_j57337813402032_1_alg».proof.Proof.AlgVar

noncomputable section

namespace Cert.Alg

open Idealize.ShloMosaic Cert.Spec Cert.RealVal
open scoped BigOperators

/-- The network with the variance as mean of squares minus squared mean is the network with the variance as mean of
    squared deviations. -/
theorem net_var' (hcnt : cnt = ((50000 : ℝ) : EReal)) (heps : ∃ e : ℝ, 0 < e ∧ eps = (e : EReal))
    (agg : Mat 50000 128 → Mat 50000 128) (hagg : ∀ x, RealMat x → RealMat (agg x))
    {h : Mat 50000 128} {W1 : Mat 128 128} {b1 g1 be1 : Row 128} {W2a : Mat 128 128} {b2a g2 be2 : Row 128}
    {W2b : Mat 128 128} {b2b : Row 128}
    (hh : RealMat h) (hW1 : RealMat W1) (hb1 : RealRow b1) (hg1 : RealRow g1) (hbe1 : RealRow be1)
    (hW2a : RealMat W2a) (hb2a : RealRow b2a) (hg2 : RealRow g2) (hbe2 : RealRow be2)
    (_hW2b : RealMat W2b) (_hb2b : RealRow b2b) :
    net agg varSq h W1 b1 g1 be1 W2a b2a g2 be2 W2b b2b = net agg varDev h W1 b1 g1 be1 W2a b2a g2 be2 W2b b2b := by
  have hx1 : RealMat (lin h (agg h) W1 b1) := real_lin hh (hagg h hh) hW1 hb1
  have e1 : varSq (lin h (agg h) W1 b1) = varDev (lin h (agg h) W1 b1) := varSq_eq_varDev' hcnt hx1
  have hh1 : RealMat (bnrelu (lin h (agg h) W1 b1) (mean (lin h (agg h) W1 b1)) (varDev (lin h (agg h) W1 b1)) g1 be1) :=
    real_bnrelu' heps hx1 (real_mean' hcnt hx1) (varDev_nonneg' hcnt hx1) hg1 hbe1
  have hx2 := real_lin hh1 (hagg _ hh1) hW2a hb2a
  have e2 := varSq_eq_varDev' hcnt hx2
  simp only [net]
  rw [e1, e2]

end Cert.Alg

end
-- ==== Proof.Alg.lean ====
/- The closure facts, the variance law and the network's independence of the variance formula, with the two literals'
   values put in: the row count is the real 50000 and the variance's guard is a positive real. -/
import proofs.«108325_j57337813402032_1_alg».proof.Proof.AlgNet
import proofs.«108325_j57337813402032_1_alg».proof.Proof.LibLits

noncomputable section

namespace Cert.Alg

open Idealize.ShloMosaic Cert.Spec Cert.RealVal
open scoped BigOperators

/-- The column means of a real matrix are real. -/
theorem real_mean {x : Mat 50000 128} (hx : RealMat x) : RealRow (mean x) := real_mean' cnt_eq hx

/-- The mean of squared deviations of a real matrix is real. -/
theorem real_varDev {x : Mat 50000 128} (hx : RealMat x) : RealRow (varDev x) := real_varDev' cnt_eq hx

/-- The mean of squares minus the squared mean of a real matrix is real. -/
theorem real_varSq {x : Mat 50000 128} (hx : RealMat x) : RealRow (varSq x) := real_varSq' cnt_eq hx

/-- The mean of squared deviations of a real matrix is a real number that is not negative. -/
theorem varDev_nonneg {x : Mat 50000 128} (hx : RealMat x) : ∀ c, ∃ r : ℝ, 0 ≤ r ∧ varDev x c = (r : EReal) :=
  varDev_nonneg' cnt_eq hx

/-- Normalising a real matrix by a real mean and a real variance that is not negative, with real scale and shift,
    and clamping at zero, gives a real matrix. -/
theorem real_bnrelu {x : Mat 50000 128} {mu var g be : Row 128}
    (hx : RealMat x) (hmu : RealRow mu) (hvar : ∀ c, ∃ r : ℝ, 0 ≤ r ∧ var c = (r : EReal))
    (hg : RealRow g) (hbe : RealRow be) : RealMat (bnrelu x mu var g be) :=
  real_bnrelu' eps_pos hx hmu hvar hg hbe

/-- THE LAW: on a real matrix the two variances are the same row. -/
theorem varSq_eq_varDev {x : Mat 50000 128} (hx : RealMat x) : varSq x = varDev x := varSq_eq_varDev' cnt_eq hx

/-- The network with the variance as mean of squares minus squared mean is the network with the variance as mean of
    squared deviations, on real inputs and under an aggregation that keeps entries real. -/
theorem net_var (agg : Mat 50000 128 → Mat 50000 128) (hagg : ∀ x, RealMat x → RealMat (agg x))
    {h : Mat 50000 128} {W1 : Mat 128 128} {b1 g1 be1 : Row 128} {W2a : Mat 128 128} {b2a g2 be2 : Row 128}
    {W2b : Mat 128 128} {b2b : Row 128}
    (hh : RealMat h) (hW1 : RealMat W1) (hb1 : RealRow b1) (hg1 : RealRow g1) (hbe1 : RealRow be1)
    (hW2a : RealMat W2a) (hb2a : RealRow b2a) (hg2 : RealRow g2) (hbe2 : RealRow be2)
    (hW2b : RealMat W2b) (hb2b : RealRow b2b) :
    net agg varSq h W1 b1 g1 be1 W2a b2a g2 be2 W2b b2b = net agg varDev h W1 b1 g1 be1 W2a b2a g2 be2 W2b b2b :=
  net_var' cnt_eq eps_pos agg hagg hh hW1 hb1 hg1 hbe1 hW2a hb2a hg2 hbe2 hW2b hb2b

end Cert.Alg

end
-- ==== Proof.AlgAgg.lean ====
/- The aggregation of neighbour features keeps entries real.  A gather copies entries of its operand; the host's
   accumulating scatter gives, at each index, the operand's entry plus a finite sum of update entries; a broadcast
   copies entries of its operand, and the splat of the zero word is the real zero everywhere. -/
import proofs.«108325_j57337813402032_1_alg».proof.Proof.LibReal
import Idealize.ShloMosaic.PureOps.Contract
import Idealize.ShloMosaic.PureOps.ShapeOps
import Idealize.ShloMosaic.PureOps.Vector

noncomputable section

namespace Cert.Alg

open Idealize.ShloMosaic Cert.RealVal
open scoped BigOperators

/-- A gather of an array of reals is an array of reals: each result entry is one of the operand's. -/
theorem real_gather {s t si : Shape} {w : Nat} (d : GatherDims s si t) (x : s.Idx → EReal) (idx : IVec si w)
    (hx : ∀ i, ∃ r : ℝ, x i = (r : EReal)) : ∀ j, ∃ r : ℝ, Host.gather d x idx j = (r : EReal) :=
  fun j => hx (d.operandIdx j idx)

/-- The accumulating scatter, at the exact instance, is the operand's entry plus the sum of the updates that land on it. -/
theorem scatterAdd_apply {s si u : Shape} {w : Nat} {φ : FTy} (d : ScatterDims s si u) (x : FVec Ideal s φ)
    (idx : IVec si w) (upd : FVec Ideal u φ) (i : s.Idx) :
    Host.scatterAdd (F := Ideal) d x idx upd i
      = x i + ∑ j ∈ Finset.univ.filter (fun j => d.resultIdx? j idx = some i), upd j := rfl

/-- An accumulating scatter of real updates into an array of reals is an array of reals. -/
theorem real_scatterAdd {s si u : Shape} {w : Nat} {φ : FTy} (d : ScatterDims s si u) (x : FVec Ideal s φ)
    (idx : IVec si w) (upd : FVec Ideal u φ)
    (hx : ∀ i, ∃ r : ℝ, x i = (r : EReal)) (hu : ∀ j, ∃ r : ℝ, upd j = (r : EReal)) :
    ∀ i, ∃ r : ℝ, Host.scatterAdd (F := Ideal) d x idx upd i = (r : EReal) := by
  intro i
  rw [scatterAdd_apply]
  exact real_add (hx i) (real_sum _ _ hu)

/-- A broadcast of an array of reals is an array of reals: each result entry is one of the operand's. -/
theorem real_broadcastInDim {s t : Shape} (dims : Fin s.rank → Fin t.rank) (h : s.BroadcastsInDim t dims)
    (x : s.Idx → EReal) (hx : ∀ i, ∃ r : ℝ, x i = (r : EReal)) :
    ∀ j, ∃ r : ℝ, broadcastInDim t dims h x j = (r : EReal) :=
  fun _ => hx _

/-- The splat of the single-precision zero word is the real zero at every index. -/
theorem constant_zero_apply (s : Shape) (i : s.Idx) :
    (constant (F := Ideal) s .f32 0x00000000#32) i = ((0 : ℝ) : EReal) := ofBits_zero

/-- A broadcast of the splat of the zero word is the real zero at every index. -/
theorem broadcast_zero_apply {s t : Shape} (dims : Fin s.rank → Fin t.rank) (h : s.BroadcastsInDim t dims) (j : t.Idx) :
    broadcastInDim t dims h (constant (F := Ideal) s .f32 0x00000000#32) j = ((0 : ℝ) : EReal) := ofBits_zero

/-- Every entry of a broadcast of the splat of the zero word is real. -/
theorem real_broadcast_zero {s t : Shape} (dims : Fin s.rank → Fin t.rank) (h : s.BroadcastsInDim t dims) :
    ∀ j, ∃ r : ℝ, broadcastInDim t dims h (constant (F := Ideal) s .f32 0x00000000#32) j = (r : EReal) :=
  fun j => ⟨0, broadcast_zero_apply dims h j⟩

end Cert.Alg

end
-- ==== Proof.RefAgg.lean ====
/- The reference's neighbour sum keeps entries real: the features gathered along the edges are entries of a real array,
   and they are added into an array of zeros.  In matrix form this is the hypothesis the network's independence of the
   variance formula asks of the aggregation.  Also: an array all of whose entries are real is a real matrix, or a real
   row, when read by coordinates. -/
import proofs.«108325_j57337813402032_1_alg».proof.Proof.RefTerm
import proofs.«108325_j57337813402032_1_alg».proof.Proof.AlgAgg
import proofs.«108325_j57337813402032_1_alg».proof.Proof.AlgCore
import proofs.«108325_j57337813402032_1_alg».proof.Proof.Spec

noncomputable section

namespace Cert.Alg

open Idealize.ShloMosaic Idealize.ShloMosaic.ValueIdx Cert.Spec

/-- An array of shape [n, d] whose entries are real, read by row and column, is a real matrix. -/
theorem realMat_toMat {n d : Nat} (a : (⟨2, ![n, d]⟩ : Shape).Idx → EReal) (ha : ∀ i, ∃ r : ℝ, a i = (r : EReal)) :
    RealMat (toMat a) := fun p c => ha (ix2 p c)

/-- The array a real matrix fills has real entries. -/
theorem real_ofMat {n d : Nat} (x : Mat n d) (hx : RealMat x) : ∀ i, ∃ r : ℝ, ofMat x i = (r : EReal) :=
  fun i => hx (i 0) (i 1)

/-- An array of shape [1, d] whose entries are real, read by column, is a real row. -/
theorem realRow_toRow {d : Nat} (a : (⟨2, ![1, d]⟩ : Shape).Idx → EReal) (ha : ∀ i, ∃ r : ℝ, a i = (r : EReal)) :
    RealRow (toRow a) := fun c => ha (ix2 0 c)

/-- An array of shape [d] whose entries are real, read by coordinate, is a real row. -/
theorem realRow_toRow1 {d : Nat} (a : (⟨1, ![d]⟩ : Shape).Idx → EReal) (ha : ∀ i, ∃ r : ℝ, a i = (r : EReal)) :
    RealRow (toRow1 a) := fun c => ha (ix1 c)

end Cert.Alg

namespace Cert.RefSide

open Cert.ReferenceIdeal Idealize.ShloMosaic Idealize.ShloMosaic.ValueIdx Cert.Spec Cert.Alg
open Cert.ReferenceIdeal.Facts₀ Cert.ReferenceIdeal.Facts

variable [Cert.ReferenceIdeal.Facts]

/-- The neighbour sum of an array of reals is an array of reals. -/
theorem real_segsum (x : S50000x128.Idx → EReal) (src dst : IVec S800000 32) (hx : ∀ i, ∃ r : ℝ, x i = (r : EReal)) :
    ∀ i, ∃ r : ℝ, segsum x src dst i = (r : EReal) :=
  real_scatterAdd (φ := .f32) _ _ _ _ (real_broadcast_zero _ _) (real_gather _ x _ hx)

/-- The neighbour sum, as a function of matrices, keeps entries real. -/
theorem real_agg (src dst : IVec S800000 32) :
    ∀ x : Mat 50000 128, RealMat x → RealMat (fun p c => toMat (segsum (ofMat x) src dst) p c) :=
  fun x hx => realMat_toMat _ (real_segsum (ofMat x) src dst (real_ofMat x hx))

end Cert.RefSide

end
-- ==== Proof.Glue.lean ====
/- The reference network with either variance formula.  Under real argument entries the specification's network, over
   the neighbour sum as aggregation, is the same with the variance as mean of squares minus squared mean as with the
   mean of squared deviations; hence the reference program's result is also the network stated with the former. -/
import proofs.«108325_j57337813402032_1_alg».proof.Proof.Alg
import proofs.«108325_j57337813402032_1_alg».proof.Proof.RefAgg
import proofs.«108325_j57337813402032_1_alg».proof.Proof.RefRead
import proofs.«108325_j57337813402032_1_alg».proof.Proof.Spec

noncomputable section

namespace Cert.Glue

open Cert.ReferenceIdeal Idealize.ShloMosaic Idealize.ShloMosaic.ValueIdx Cert.Spec Cert.Alg Cert.RefSide

/-- On real arguments the network over the neighbour sum does not depend on the variance's formula. -/
theorem net_eq (a0 : S50000x128.Idx → EReal) (a1 a2 : IVec S800000 32) (a3 : S128x128.Idx → EReal)
    (a4 a5 a6 : S128.Idx → EReal) (a7 : S128x128.Idx → EReal) (a8 a9 a10 : S128.Idx → EReal)
    (a11 : S128x128.Idx → EReal) (a12 : S128.Idx → EReal)
    (hreal : (∀ i, ∃ r : ℝ, a0 i = (r : EReal)) ∧ (∀ i, ∃ r : ℝ, a3 i = (r : EReal)) ∧ (∀ i, ∃ r : ℝ, a4 i = (r : EReal))
      ∧ (∀ i, ∃ r : ℝ, a5 i = (r : EReal)) ∧ (∀ i, ∃ r : ℝ, a6 i = (r : EReal)) ∧ (∀ i, ∃ r : ℝ, a7 i = (r : EReal))
      ∧ (∀ i, ∃ r : ℝ, a8 i = (r : EReal)) ∧ (∀ i, ∃ r : ℝ, a9 i = (r : EReal)) ∧ (∀ i, ∃ r : ℝ, a10 i = (r : EReal))
      ∧ (∀ i, ∃ r : ℝ, a11 i = (r : EReal)) ∧ (∀ i, ∃ r : ℝ, a12 i = (r : EReal))) :
    net (fun x => toMat (segsum (ofMat x) a1 a2)) varSq
        (toMat a0) (toMat a3) (toRow1 a4) (toRow1 a5) (toRow1 a6) (toMat a7) (toRow1 a8) (toRow1 a9) (toRow1 a10)
        (toMat a11) (toRow1 a12)
      = net (fun x => toMat (segsum (ofMat x) a1 a2)) varDev
        (toMat a0) (toMat a3) (toRow1 a4) (toRow1 a5) (toRow1 a6) (toMat a7) (toRow1 a8) (toRow1 a9) (toRow1 a10)
        (toMat a11) (toRow1 a12) := by
  obtain ⟨h0, h3, h4, h5, h6, h7, h8, h9, h10, h11, h12⟩ := hreal
  exact net_var (fun x => toMat (segsum (ofMat x) a1 a2)) (real_agg a1 a2)
    (realMat_toMat a0 h0) (realMat_toMat a3 h3) (realRow_toRow1 a4 h4) (realRow_toRow1 a5 h5) (realRow_toRow1 a6 h6)
    (realMat_toMat a7 h7) (realRow_toRow1 a8 h8) (realRow_toRow1 a9 h9) (realRow_toRow1 a10 h10)
    (realMat_toMat a11 h11) (realRow_toRow1 a12 h12)

/-- On real arguments the reference program's result is the array of the network stated with the variance as mean of
    squares minus squared mean. -/
theorem refNet_eq_varSq (a0 : S50000x128.Idx → EReal) (a1 a2 : IVec S800000 32) (a3 : S128x128.Idx → EReal)
    (a4 a5 a6 : S128.Idx → EReal) (a7 : S128x128.Idx → EReal) (a8 a9 a10 : S128.Idx → EReal)
    (a11 : S128x128.Idx → EReal) (a12 : S128.Idx → EReal)
    (hreal : (∀ i, ∃ r : ℝ, a0 i = (r : EReal)) ∧ (∀ i, ∃ r : ℝ, a3 i = (r : EReal)) ∧ (∀ i, ∃ r : ℝ, a4 i = (r : EReal))
      ∧ (∀ i, ∃ r : ℝ, a5 i = (r : EReal)) ∧ (∀ i, ∃ r : ℝ, a6 i = (r : EReal)) ∧ (∀ i, ∃ r : ℝ, a7 i = (r : EReal))
      ∧ (∀ i, ∃ r : ℝ, a8 i = (r : EReal)) ∧ (∀ i, ∃ r : ℝ, a9 i = (r : EReal)) ∧ (∀ i, ∃ r : ℝ, a10 i = (r : EReal))
      ∧ (∀ i, ∃ r : ℝ, a11 i = (r : EReal)) ∧ (∀ i, ∃ r : ℝ, a12 i = (r : EReal))) :
    refNet a0 a1 a2 a3 a4 a5 a6 a7 a8 a9 a10 a11 a12
      = ofMat (net (fun x => toMat (segsum (ofMat x) a1 a2)) varSq
          (toMat a0) (toMat a3) (toRow1 a4) (toRow1 a5) (toRow1 a6) (toMat a7) (toRow1 a8) (toRow1 a9) (toRow1 a10)
          (toMat a11) (toRow1 a12)) := by
  rw [net_eq a0 a1 a2 a3 a4 a5 a6 a7 a8 a9 a10 a11 a12 hreal]
  exact refNet_eq a0 a1 a2 a3 a4 a5 a6 a7 a8 a9 a10 a11 a12

end Cert.Glue

end
-- ==== Proof.PreReal.lean ====
/- From the precondition to real entries.  The precondition is a conjunction of eleven tests, one per float
   argument: every entry x of the argument satisfies |x| < +∞, where |x| = max x (−x).  An extended real whose
   absolute value is below +∞ is neither +∞ nor −∞, hence a real number.  So under the precondition every entry of
   every float argument is a real number. -/
import proofs.«108325_j57337813402032_1_alg».proof.Pre_finite_inputs
import Idealize.ShloMosaic.Lib.ReduceAll
import Idealize.ShloMosaic.Lib.ValueIdx
import Idealize.ShloMosaic.PureOps.Ideal

noncomputable section

namespace Cert.PreReal

open Idealize.ShloMosaic Cert.Pre_finite_inputs

/-- The single-precision pattern with exponent field all ones and significand field zero denotes +∞. -/
theorem ofBits_inf : Ideal.ofBits .f32 0x7F800000#32 = (⊤ : EReal) := by
  simp [Ideal.ofBits, Ideal.ieee]

/-- One entry: if max x (−x) < +∞ then x is a real number. -/
theorem real_of_abs_lt_inf (x : EReal)
    (h : Ideal.cmp .olt (max x (-x)) (Ideal.ofBits .f32 0x7F800000#32) = 1#1) : ∃ r : ℝ, x = (r : EReal) := by
  rw [ofBits_inf] at h
  unfold Ideal.cmp at h
  induction x using EReal.rec with
  | bot => simp at h
  | coe r => exact ⟨r, rfl⟩
  | top => simp at h

/-- One argument, of any shape: if the test "every |entry| < +∞" came out true, every entry is a real number. -/
theorem real_of_all {s : Shape} {axes : List (Fin s.rank)} (a : FVec Ideal s .f32)
    (bc : S_.BroadcastsInDim s (![] : Fin 0 → Fin s.rank)) (hr : s.ReducesTo axes S_) (hu : 0 < S_.numel)
    (init : IVec S_ 1)
    (h : Host.reduce IntOp.andi
          (cmpf .olt (Host.absf a) (broadcastInDim s ![] bc (constant (F := Ideal) S_ .f32 0x7F800000#32)))
          init hr hu ValueIdx.ix0 = 1#1) :
    ∀ i : s.Idx, ∃ r : ℝ, a i = (r : EReal) := by
  haveI : Subsingleton S_.Idx := ⟨fun a b => funext fun d => d.elim0⟩
  intro i
  exact real_of_abs_lt_inf (a i) (Host.reduce_andi_all _ init hr hu ValueIdx.ix0 h i)

/-- The precondition, true, makes every entry of every float argument a real number: the eleven tests are split off
    the conjunction one by one, from the last argument's back to the first's. -/
theorem real_of_pre [hP : Cert.Pre_finite_inputs.Facts]
    (a0 : FVec Ideal S50000x128 .f32) (a1 a2 : IVec S800000 32) (a3 : FVec Ideal S128x128 .f32)
    (a4 a5 a6 : FVec Ideal S128 .f32) (a7 : FVec Ideal S128x128 .f32) (a8 a9 a10 : FVec Ideal S128 .f32)
    (a11 : FVec Ideal S128x128 .f32) (a12 : FVec Ideal S128 .f32)
    (h : Cert.Pre_finite_inputs.fn (F := Ideal) a0 a1 a2 a3 a4 a5 a6 a7 a8 a9 a10 a11 a12 = fun _ => 1#1) :
    (∀ i, ∃ r : ℝ, a0 i = (r : EReal)) ∧ (∀ i, ∃ r : ℝ, a3 i = (r : EReal)) ∧ (∀ i, ∃ r : ℝ, a4 i = (r : EReal))
      ∧ (∀ i, ∃ r : ℝ, a5 i = (r : EReal)) ∧ (∀ i, ∃ r : ℝ, a6 i = (r : EReal)) ∧ (∀ i, ∃ r : ℝ, a7 i = (r : EReal))
      ∧ (∀ i, ∃ r : ℝ, a8 i = (r : EReal)) ∧ (∀ i, ∃ r : ℝ, a9 i = (r : EReal)) ∧ (∀ i, ∃ r : ℝ, a10 i = (r : EReal))
      ∧ (∀ i, ∃ r : ℝ, a11 i = (r : EReal)) ∧ (∀ i, ∃ r : ℝ, a12 i = (r : EReal)) := by
  have h0 := congrFun h ValueIdx.ix0
  dsimp only [fn, fn_part1, fn_part2, fn_part3] at h0
  obtain ⟨h0, h12⟩ := IntOp.andi_eq_one.1 h0
  obtain ⟨h0, h11⟩ := IntOp.andi_eq_one.1 h0
  obtain ⟨h0, h10⟩ := IntOp.andi_eq_one.1 h0
  obtain ⟨h0, h9⟩ := IntOp.andi_eq_one.1 h0
  obtain ⟨h0, h8⟩ := IntOp.andi_eq_one.1 h0
  obtain ⟨h0, h7⟩ := IntOp.andi_eq_one.1 h0
  obtain ⟨h0, h6⟩ := IntOp.andi_eq_one.1 h0
  obtain ⟨h0, h5⟩ := IntOp.andi_eq_one.1 h0
  obtain ⟨h0, h4⟩ := IntOp.andi_eq_one.1 h0
  obtain ⟨h0, h3⟩ := IntOp.andi_eq_one.1 h0
  exact ⟨real_of_all a0 _ _ _ _ h0, real_of_all a3 _ _ _ _ h3, real_of_all a4 _ _ _ _ h4,
    real_of_all a5 _ _ _ _ h5, real_of_all a6 _ _ _ _ h6, real_of_all a7 _ _ _ _ h7, real_of_all a8 _ _ _ _ h8,
    real_of_all a9 _ _ _ _ h9, real_of_all a10 _ _ _ _ h10, real_of_all a11 _ _ _ _ h11,
    real_of_all a12 _ _ _ _ h12⟩

end Cert.PreReal

end
-- ==== Proof.Assemble.lean ====
/- The five claims from their parts.  The three programs run, without a fault, and leave their arguments as they
   were: for the two kernel programs this is the launch of the four regions with the host operations between
   them; for the reference it is its run with the result dropped.  The kernel program read at the extended reals
   rewrites no operation of the kernel program.  And from memories that agree on the thirteen arguments the two
   idealized programs end with the same result array: the kernel program's last region leaves the specification's
   network of the arguments, with each column's variance taken as the mean of the squares minus the square of the
   mean; the reference leaves the same network with the variance as the mean of the squared deviations; under the
   precondition every float argument entry is a real number, and on real numbers the two variances, hence the
   two networks, agree.  The neighbour sum is the same chain of operations in both programs. -/
import proofs.«108325_j57337813402032_1_alg».proof.Defs
import proofs.«108325_j57337813402032_1_alg».proof.Proof.Gen.Kernel.Frame
import proofs.«108325_j57337813402032_1_alg».proof.Proof.Gen.KernelIdeal.Frame
import proofs.«108325_j57337813402032_1_alg».proof.Proof.Gen.ReferenceIdeal
import proofs.«108325_j57337813402032_1_alg».proof.Proof.Gen.Pre_finite_inputs
import proofs.«108325_j57337813402032_1_alg».proof.Proof.KerRun
import proofs.«108325_j57337813402032_1_alg».proof.Proof.KerVal
import proofs.«108325_j57337813402032_1_alg».proof.Proof.RefRun
import proofs.«108325_j57337813402032_1_alg».proof.Proof.RefBridge
import proofs.«108325_j57337813402032_1_alg».proof.Proof.RefRead
import proofs.«108325_j57337813402032_1_alg».proof.Proof.Glue
import proofs.«108325_j57337813402032_1_alg».proof.Proof.PreReal

noncomputable section

namespace Cert.Proof.Parts

open Idealize.ShloMosaic Idealize.SL.Sem

/-- The neighbour sum of the kernel program's host code and the reference's are one function: the same operations
    over dimension numbers that are the same literals. -/
theorem segsum_eq : Cert.KernelIdeal.KerHost.segsum = Cert.RefSide.segsum := by
  funext x src dst
  rfl

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts)
    (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts)
    (hPre_finite_inputs := Cert.Pre_finite_inputs.Gen.facts) :=
  fun m ρ _ => (θ_run Cert.ReferenceIdeal.defs _ _).mono (fun _ h c => (h c).2) (Cert.RefSide.run m ρ)

theorem preserves : Cert.preserves_Kernel_KernelIdeal := trivial

/-- Both idealized programs end at the array of the specification's network of the kernel program's arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.Spec.ofMat (Cert.KernelIdeal.KerVal.kerNet m c), ?_, ?_⟩
  · exact (θ_run Cert.KernelIdeal.defs _ _).mono
      (fun _ h c => ⟨(h c).1.trans (Cert.KernelIdeal.KerVal.out_val m ρ c), (h c).2⟩)
      (Cert.KernelIdeal.KerRun.run_result (F := Ideal) m ρ)
  · refine (θ_run Cert.ReferenceIdeal.defs _ _).mono (fun _ h c => ⟨(h c).1.trans ?_, (h c).2⟩)
      (Cert.RefSide.run m' ρ')
    have hreal := Cert.PreReal.real_of_pre _ _ _ _ _ _ _ _ _ _ _ _ _ (hpre c)
    obtain ⟨e0, e1, e2, e3, e4, e5, e6, e7, e8, e9, e10, e11, e12⟩ := hagree c
    rw [e0, e1, e2, e3, e4, e5, e6, e7, e8, e9, e10, e11, e12]
    refine (Cert.RefSide.refOut_eq_refNet _ _ _ _ _ _ _ _ _ _ _ _ _).trans
      ((Cert.Glue.refNet_eq_varSq _ _ _ _ _ _ _ _ _ _ _ _ _ hreal).trans ?_)
    show Cert.Spec.ofMat _ = Cert.Spec.ofMat (Cert.KernelIdeal.KerVal.kerNet m c)
    unfold Cert.KernelIdeal.KerVal.kerNet Cert.KernelIdeal.KerVal.aggK
    rw [segsum_eq]

end Cert.Proof.Parts

end
-- ==== Proof.lean ====
/- The kernel and its reference compute one function on the extended reals.

   Both are a two-layer graph network on a feature matrix h of 50000 rows and 128 columns over edge lists src, dst.
   A layer adds to each node's row the sum of its in-neighbours' rows (a gather followed by a scatter-add, the same
   host operations in both programs), multiplies by the transposed 128×128 weights, adds the bias, normalises every
   column by its mean and variance over the 50000 rows, scales, shifts and clamps below at zero; a last linear map
   with bias and clamp follows the second layer.

   The kernel program computes the linear map block by block over ten blocks of 5000 rows, accumulating each
   column's sum and sum of squares across the blocks, and forms the variance as the mean of the squares minus the
   square of the mean; the reference forms it as the mean of the squared deviations.  Sums regroup freely on the
   extended reals, so the blockwise sums are the whole column sums.  The two variance formulas agree wherever every
   entry is a real number, and they are: the inputs are finite by the precondition, aggregation, matrix products,
   biases and the normalisation (whose square root's argument is a non-negative real plus a positive literal) keep
   entries real through the first layer and up to the second layer's pre-activation.  Everything else is the same
   arithmetic in the same order on both sides.

   The three frames come from each program's run; the idealized kernel is the kernel's own text read at the exact
   instance, so nothing is owed for the idealization. -/
import proofs.«108325_j57337813402032_1_alg».proof.Defs
import proofs.«108325_j57337813402032_1_alg».proof.Proof.Assemble

noncomputable section

namespace Cert.Proof

theorem claim : Cert.Claim :=
  ⟨Cert.Kernel.Gen.facts, Cert.KernelIdeal.Gen.facts, Cert.ReferenceIdeal.Gen.facts, Cert.Pre_finite_inputs.Gen.facts,
    Cert.Proof.Parts.frame_k, Cert.Proof.Parts.frame_ki, Cert.Proof.Parts.frame_ri, Cert.Proof.Parts.preserves,
    Cert.Proof.Parts.algebraic⟩

end Cert.Proof

end
